-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v72)) (v2 : (c : Dev Cert.KernelIdeal.nD) → Buf (Elt Ideal) ((c.tc : Thread Cert.KernelIdeal.nD Cert.KernelIdeal.τ).loc Cert.KernelIdeal.main_v73)) (v3 : (c : Dev Cert.KernelIdeal.nD) → Buf (Elt Ideal) ((c.tc : Thread Cert.KernelIdeal.nD Cert.KernelIdeal.τ).loc Cert.KernelIdeal.main_v74)) (v4 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_v73) = v2 c
          ∧ r.2.mem ((c.tc : Thread Cert.KernelIdeal.nD Cert.KernelIdeal.τ).loc Cert.KernelIdeal.main_v74) = v3 c
          ∧ r.2.mem ((c.tc : Thread Cert.KernelIdeal.nD Cert.KernelIdeal.τ).loc Cert.KernelIdeal.main_v75) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x300 : Shape := ⟨2, ![128, 300]⟩
abbrev S300 : Shape := ⟨1, ![300]⟩
abbrev S128x100 : Shape := ⟨2, ![128, 100]⟩
abbrev S100 : Shape := ⟨1, ![100]⟩
abbrev S128x64 : Shape := ⟨2, ![128, 64]⟩
abbrev S64 : Shape := ⟨1, ![64]⟩
abbrev S64x1 : Shape := ⟨2, ![64, 1]⟩
abbrev S1 : Shape := ⟨1, ![1]⟩
abbrev S64x100 : Shape := ⟨2, ![64, 100]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x300 : S_.BroadcastsInDim S128x300 (![] : Fin 0 → Fin S128x300.rank)
  reducesTo_S128x300_S_d0_1 : S128x300.ReducesTo [0, 1] S_
  bcast_S_S300 : S_.BroadcastsInDim S300 (![] : Fin 0 → Fin S300.rank)
  reducesTo_S300_S_d0 : S300.ReducesTo [0] S_
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x100 : S_.BroadcastsInDim S64x100 (![] : Fin 0 → Fin S64x100.rank)
  reducesTo_S64x100_S_d0_1 : S64x100.ReducesTo [0, 1] S_

variable [Facts]

def fn_part6 {F : FTy → Type} [FloatOps F] (main_v98 : IVec S_ 1) (main_v101 : IVec S100 1) (main_c_39 : IVec S_ 1) : IVec S_ 1 :=
  let main_v102 : IVec S_ 1 := (fun x v => Host.reduce IntOp.andi x v reducesTo_S100_S_d0 h_S_) main_v101 main_c_39
  let main_v103 : IVec S_ 1 := andi main_v98 main_v102
  main_v103

def fn_part5 {F : FTy → Type} [FloatOps F] (main_arg19 : FVec F S1 .f32) (main_arg20 : FVec F S64x100 .f32) (main_arg21 : FVec F S100 .f32) (main_v83 : IVec S_ 1) (main_v84 : FVec F S64x1 .f32) (main_cst_32 : FVec F S_ .f32) : IVec S_ 1 :=
  let main_v85 : FVec F S64x1 .f32 := broadcastInDim S64x1 ![] bcast_S_S64x1 main_cst_32
  let main_v86 : IVec S64x1 1 := cmpf .olt main_v84 main_v85
  let main_c_33 : IVec S_ 1 := constantI S_ 1 1#1
  let main_v87 : IVec S_ 1 := (fun x v => Host.reduce IntOp.andi x v reducesTo_S64x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S64x100 .f32 := Host.absf main_arg20
  let main_cst_36 : FVec F S_ .f32 := constant S_ .f32 0x7F800000#32
  let main_v95 : FVec F S64x100 .f32 := broadcastInDim S64x100 ![] bcast_S_S64x100 main_cst_36
  let main_v96 : IVec S64x100 1 := cmpf .olt main_v94 main_v95
  let main_c_37 : IVec S_ 1 := constantI S_ 1 1#1
  let main_v97 : IVec S_ 1 := (fun x v => Host.reduce IntOp.andi x v reducesTo_S64x100_S_d0_1 h_S_) main_v96 main_c_37
  let main_v98 : IVec S_ 1 := andi main_v93 main_v97
  let main_v99 : FVec F S100 .f32 := Host.absf main_arg21
  let main_cst_38 : FVec F S_ .f32 := constant S_ .f32 0x7F800000#32
  let main_v100 : FVec F S100 .f32 := broadcastInDim S100 ![] bcast_S_S100 main_cst_38
  let main_v101 : IVec S100 1 := cmpf .olt main_v99 main_v100
  let main_c_39 : IVec S_ 1 := constantI S_ 1 1#1
  fn_part6 (F := F) main_v98 main_v101 main_c_39

def fn_part4 {F : FTy → Type} [FloatOps F] (main_arg15 : FVec F S64 .f32) (main_arg16 : FVec F S64 .f32) (main_arg17 : FVec F S64 .f32) (main_arg18 : FVec F S64x1 .f32) (main_arg19 : FVec F S1 .f32) (main_arg20 : FVec F S64x100 .f32) (main_arg21 : FVec F S100 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x1 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S128x64 .f32) (main_arg13 : FVec F S64 .f32) (main_arg14 : FVec F S64 .f32) (main_arg15 : FVec F S64 .f32) (main_arg16 : FVec F S64 .f32) (main_arg17 : FVec F S64 .f32) (main_arg18 : FVec F S64x1 .f32) (main_arg19 : FVec F S1 .f32) (main_arg20 : FVec F S64x100 .f32) (main_arg21 : FVec F S100 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_v63 main_v67

def fn_part2 {F : FTy → Type} [FloatOps F] (main_arg8 : FVec F S128x300 .f32) (main_arg9 : FVec F S300 .f32) (main_arg10 : FVec F S128x100 .f32) (main_arg11 : FVec F S100 .f32) (main_arg12 : FVec F S128x64 .f32) (main_arg13 : FVec F S64 .f32) (main_arg14 : FVec F S64 .f32) (main_arg15 : FVec F S64 .f32) (main_arg16 : FVec F S64 .f32) (main_arg17 : FVec F S64 .f32) (main_arg18 : FVec F S64x1 .f32) (main_arg19 : FVec F S1 .f32) (main_arg20 : FVec F S64x100 .f32) (main_arg21 : FVec F S100 .f32) (main_v33 : IVec S_ 1) : IVec S_ 1 :=
  let main_v34 : FVec F S128x300 .f32 := Host.absf main_arg8
  let main_cst_12 : FVec F S_ .f32 := constant S_ .f32 0x7F800000#32
  let main_v35 : FVec F S128x300 .f32 := broadcastInDim S128x300 ![] bcast_S_S128x300 main_cst_12
  let main_v36 : IVec S128x300 1 := cmpf .olt main_v34 main_v35
  let main_c_13 : IVec S_ 1 := constantI S_ 1 1#1
  let main_v37 : IVec S_ 1 := (fun x v => Host.reduce IntOp.andi x v reducesTo_S128x300_S_d0_1 h_S_) main_v36 main_c_13
  let main_v38 : IVec S_ 1 := andi main_v33 main_v37
  let main_v39 : FVec F S300 .f32 := Host.absf main_arg9
  let main_cst_14 : FVec F S_ .f32 := constant S_ .f32 0x7F800000#32
  let main_v40 : FVec F S300 .f32 := broadcastInDim S300 ![] bcast_S_S300 main_cst_14
  let main_v41 : IVec S300 1 := cmpf .olt main_v39 main_v40
  let main_c_15 : IVec S_ 1 := constantI S_ 1 1#1
  let main_v42 : IVec S_ 1 := (fun x v => Host.reduce IntOp.andi x v reducesTo_S300_S_d0 h_S_) main_v41 main_c_15
  let main_v43 : IVec S_ 1 := andi main_v38 main_v42
  let main_v44 : FVec F S128x100 .f32 := Host.absf main_arg10
  let main_cst_16 : FVec F S_ .f32 := constant S_ .f32 0x7F800000#32
  let main_v45 : FVec F S128x100 .f32 := broadcastInDim S128x100 ![] bcast_S_S128x100 main_cst_16
  let main_v46 : IVec S128x100 1 := cmpf .olt main_v44 main_v45
  let main_c_17 : IVec S_ 1 := constantI S_ 1 1#1
  let main_v47 : IVec S_ 1 := (fun x v => Host.reduce IntOp.andi x v reducesTo_S128x100_S_d0_1 h_S_) main_v46 main_c_17
  let main_v48 : IVec S_ 1 := andi main_v43 main_v47
  let main_v49 : FVec F S100 .f32 := Host.absf main_arg11
  let main_cst_18 : FVec F S_ .f32 := constant S_ .f32 0x7F800000#32
  let main_v50 : FVec F S100 .f32 := broadcastInDim S100 ![] bcast_S_S100 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128x128 .f32) (main_arg6 : FVec F S128 .f32) (main_arg7 : FVec F S128x128 .f32) (main_arg8 : FVec F S128x300 .f32) (main_arg9 : FVec F S300 .f32) (main_arg10 : FVec F S128x100 .f32) (main_arg11 : FVec F S100 .f32) (main_arg12 : FVec F S128x64 .f32) (main_arg13 : FVec F S64 .f32) (main_arg14 : FVec F S64 .f32) (main_arg15 : FVec F S64 .f32) (main_arg16 : FVec F S64 .f32) (main_arg17 : FVec F S64 .f32) (main_arg18 : FVec F S64x1 .f32) (main_arg19 : FVec F S1 .f32) (main_arg20 : FVec F S64x100 .f32) (main_arg21 : FVec F S100 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x300 .f32) (main_arg9 : FVec F S300 .f32) (main_arg10 : FVec F S128x100 .f32) (main_arg11 : FVec F S100 .f32) (main_arg12 : FVec F S128x64 .f32) (main_arg13 : FVec F S64 .f32) (main_arg14 : FVec F S64 .f32) (main_arg15 : FVec F S64 .f32) (main_arg16 : FVec F S64 .f32) (main_arg17 : FVec F S64 .f32) (main_arg18 : FVec F S64x1 .f32) (main_arg19 : FVec F S1 .f32) (main_arg20 : FVec F S64x100 .f32) (main_arg21 : FVec F S100 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x300 : Shape := ⟨2, ![128, 300]⟩
abbrev S300 : Shape := ⟨1, ![300]⟩
abbrev S128x100 : Shape := ⟨2, ![128, 100]⟩
abbrev S100 : Shape := ⟨1, ![100]⟩
abbrev S128x64 : Shape := ⟨2, ![128, 64]⟩
abbrev S64 : Shape := ⟨1, ![64]⟩
abbrev S64x1 : Shape := ⟨2, ![64, 1]⟩
abbrev S1 : Shape := ⟨1, ![1]⟩
abbrev S64x100 : Shape := ⟨2, ![64, 100]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x1 : Shape := ⟨2, ![2000, 1]⟩
abbrev S1x128 : Shape := ⟨2, ![1, 128]⟩
abbrev S128x1 : Shape := ⟨2, ![128, 1]⟩
abbrev S128x127 : Shape := ⟨2, ![128, 127]⟩
abbrev S127 : Shape := ⟨1, ![127]⟩
abbrev S128x28 : Shape := ⟨2, ![128, 28]⟩
abbrev S28 : Shape := ⟨1, ![28]⟩
abbrev S128x84 : Shape := ⟨2, ![128, 84]⟩
abbrev S128x384 : Shape := ⟨2, ![128, 384]⟩
abbrev S84 : Shape := ⟨1, ![84]⟩
abbrev S384 : Shape := ⟨1, ![384]⟩
abbrev S50000x384 : Shape := ⟨2, ![50000, 384]⟩
abbrev S1000x128 : Shape := ⟨2, ![1000, 128]⟩
abbrev S1000x1 : Shape := ⟨2, ![1000, 1]⟩
abbrev S1000x384 : Shape := ⟨2, ![1000, 384]⟩
abbrev S1x384 : Shape := ⟨2, ![1, 384]⟩
abbrev S50000x100 : Shape := ⟨2, ![50000, 100]⟩
abbrev S50000x64 : Shape := ⟨2, ![50000, 64]⟩
abbrev S50000x300 : Shape := ⟨2, ![50000, 300]⟩

abbrev nBuf : Space → Nat
  | .hbm => 128
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x300, .f32⟩
  | .hbm, ⟨9, _⟩ => ⟨S300, .f32⟩
  | .hbm, ⟨10, _⟩ => ⟨S128x100, .f32⟩
  | .hbm, ⟨11, _⟩ => ⟨S100, .f32⟩
  | .hbm, ⟨12, _⟩ => ⟨S128x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S64x100, .f32⟩
  | .hbm, ⟨21, _⟩ => ⟨S100, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .bf16⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .bf16⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .hbm, ⟨55, _⟩ => ⟨S50000x128, .bf16⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .bf16⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S_, .f32⟩
  | .hbm, ⟨71, _⟩ => ⟨S128x64, .f32⟩
  | .hbm, ⟨72, _⟩ => ⟨S128x128, .f32⟩
  | .hbm, ⟨73, _⟩ => ⟨S_, .f32⟩
  | .hbm, ⟨74, _⟩ => ⟨S64, .f32⟩
  | .hbm, ⟨75, _⟩ => ⟨S128, .f32⟩
  | .hbm, ⟨76, _⟩ => ⟨S_, .f32⟩
  | .hbm, ⟨77, _⟩ => ⟨S64, .f32⟩
  | .hbm, ⟨78, _⟩ => ⟨S128, .f32⟩
  | .hbm, ⟨79, _⟩ => ⟨S_, .f32⟩
  | .hbm, ⟨80, _⟩ => ⟨S64, .f32⟩
  | .hbm, ⟨81, _⟩ => ⟨S128, .f32⟩
  | .hbm, ⟨82, _⟩ => ⟨S_, .f32⟩
  | .hbm, ⟨83, _⟩ => ⟨S64, .f32⟩
  | .hbm, ⟨84, _⟩ => ⟨S128, .f32⟩
  | .hbm, ⟨85, _⟩ => ⟨S_, .f32⟩
  | .hbm, ⟨86, _⟩ => ⟨S64, .f32⟩
  | .hbm, ⟨87, _⟩ => ⟨S128, .f32⟩
  | .hbm, ⟨88, _⟩ => ⟨S_, .f32⟩
  | .hbm, ⟨89, _⟩ => ⟨S64x1, .f32⟩
  | .hbm, ⟨90, _⟩ => ⟨S128x1, .f32⟩
  | .hbm, ⟨91, _⟩ => ⟨S_, .f32⟩
  | .hbm, ⟨92, _⟩ => ⟨S128x127, .f32⟩
  | .hbm, ⟨93, _⟩ => ⟨S128x128, .f32⟩
  | .hbm, ⟨94, _⟩ => ⟨S_, .f32⟩
  | .hbm, ⟨95, _⟩ => ⟨S127, .f32⟩
  | .hbm, ⟨96, _⟩ => ⟨S128, .f32⟩
  | .hbm, ⟨97, _⟩ => ⟨S_, .f32⟩
  | .hbm, ⟨98, _⟩ => ⟨S64x100, .f32⟩
  | .hbm, ⟨99, _⟩ => ⟨S128x100, .f32⟩
  | .hbm, ⟨100, _⟩ => ⟨S_, .f32⟩
  | .hbm, ⟨101, _⟩ => ⟨S128x28, .f32⟩
  | .hbm, ⟨102, _⟩ => ⟨S128x128, .f32⟩
  | .hbm, ⟨103, _⟩ => ⟨S_, .f32⟩
  | .hbm, ⟨104, _⟩ => ⟨S28, .f32⟩
  | .hbm, ⟨105, _⟩ => ⟨S128, .f32⟩
  | .hbm, ⟨106, _⟩ => ⟨S_, .f32⟩
  | .hbm, ⟨107, _⟩ => ⟨S128x84, .f32⟩
  | .hbm, ⟨108, _⟩ => ⟨S128x384, .f32⟩
  | .hbm, ⟨109, _⟩ => ⟨S_, .f32⟩
  | .hbm, ⟨110, _⟩ => ⟨S84, .f32⟩
  | .hbm, ⟨111, _⟩ => ⟨S384, .f32⟩
  | .hbm, ⟨112, _⟩ => ⟨S_, .f32⟩
  | .hbm, ⟨113, _⟩ => ⟨S128x28, .f32⟩
  | .hbm, ⟨114, _⟩ => ⟨S128x128, .f32⟩
  | .hbm, ⟨115, _⟩ => ⟨S_, .f32⟩
  | .hbm, ⟨116, _⟩ => ⟨S28, .f32⟩
  | .hbm, ⟨117, _⟩ => ⟨S128, .f32⟩
  | .hbm, ⟨118, _⟩ => ⟨S50000x128, .f32⟩
  | .hbm, ⟨119, _⟩ => ⟨S50000x128, .f32⟩
  | .hbm, ⟨120, _⟩ => ⟨S50000x384, .f32⟩
  | .hbm, ⟨121, _⟩ => ⟨S50000x128, .f32⟩
  | .hbm, ⟨122, _⟩ => ⟨S50000x128, .f32⟩
  | .hbm, ⟨123, _⟩ => ⟨S50000x100, .f32⟩
  | .hbm, ⟨124, _⟩ => ⟨S50000x64, .f32⟩
  | .hbm, ⟨125, _⟩ => ⟨S50000x300, .f32⟩
  | .hbm, ⟨126, _⟩ => ⟨S50000x100, .f32⟩
  | .hbm, ⟨127, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S1000x128, .f32⟩
  | .local _ .vmem, ⟨12, _⟩ => ⟨S1000x128, .f32⟩
  | .local _ .vmem, ⟨13, _⟩ => ⟨S1000x1, .f32⟩
  | .local _ .vmem, ⟨14, _⟩ => ⟨S1000x1, .f32⟩
  | .local _ .vmem, ⟨15, _⟩ => ⟨S1000x128, .f32⟩
  | .local _ .vmem, ⟨16, _⟩ => ⟨S1000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128x384, .f32⟩
  | .local _ .vmem, ⟨21, _⟩ => ⟨S384, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x128, .f32⟩
  | .local _ .vmem, ⟨38, _⟩ => ⟨S1000x384, .f32⟩
  | .local _ .vmem, ⟨39, _⟩ => ⟨S1000x384, .f32⟩
  | .local _ .vmem, ⟨40, _⟩ => ⟨S1000x128, .f32⟩
  | .local _ .vmem, ⟨41, _⟩ => ⟨S1000x128, .f32⟩
  | .local _ .vmem, ⟨42, _⟩ => ⟨S1000x128, .f32⟩
  | .local _ .vmem, ⟨43, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_3 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_c_6 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_8 : Ref sig .tc := ⟨.hbm, 70, rfl⟩
abbrev main_v38 : Ref sig .tc := ⟨.hbm, 71, rfl⟩
abbrev main_v39 : Ref sig .tc := ⟨.hbm, 72, rfl⟩
abbrev main_cst_9 : Ref sig .tc := ⟨.hbm, 73, rfl⟩
abbrev main_v40 : Ref sig .tc := ⟨.hbm, 74, rfl⟩
abbrev main_v41 : Ref sig .tc := ⟨.hbm, 75, rfl⟩
abbrev main_cst_10 : Ref sig .tc := ⟨.hbm, 76, rfl⟩
abbrev main_v42 : Ref sig .tc := ⟨.hbm, 77, rfl⟩
abbrev main_v43 : Ref sig .tc := ⟨.hbm, 78, rfl⟩
abbrev main_cst_11 : Ref sig .tc := ⟨.hbm, 79, rfl⟩
abbrev main_v44 : Ref sig .tc := ⟨.hbm, 80, rfl⟩
abbrev main_v45 : Ref sig .tc := ⟨.hbm, 81, rfl⟩
abbrev main_cst_12 : Ref sig .tc := ⟨.hbm, 82, rfl⟩
abbrev main_v46 : Ref sig .tc := ⟨.hbm, 83, rfl⟩
abbrev main_v47 : Ref sig .tc := ⟨.hbm, 84, rfl⟩
abbrev main_cst_13 : Ref sig .tc := ⟨.hbm, 85, rfl⟩
abbrev main_v48 : Ref sig .tc := ⟨.hbm, 86, rfl⟩
abbrev main_v49 : Ref sig .tc := ⟨.hbm, 87, rfl⟩
abbrev main_cst_14 : Ref sig .tc := ⟨.hbm, 88, rfl⟩
abbrev main_v50 : Ref sig .tc := ⟨.hbm, 89, rfl⟩
abbrev main_v51 : Ref sig .tc := ⟨.hbm, 90, rfl⟩
abbrev main_cst_15 : Ref sig .tc := ⟨.hbm, 91, rfl⟩
abbrev main_v52 : Ref sig .tc := ⟨.hbm, 92, rfl⟩
abbrev main_v53 : Ref sig .tc := ⟨.hbm, 93, rfl⟩
abbrev main_cst_16 : Ref sig .tc := ⟨.hbm, 94, rfl⟩
abbrev main_v54 : Ref sig .tc := ⟨.hbm, 95, rfl⟩
abbrev main_v55 : Ref sig .tc := ⟨.hbm, 96, rfl⟩
abbrev main_cst_17 : Ref sig .tc := ⟨.hbm, 97, rfl⟩
abbrev main_v56 : Ref sig .tc := ⟨.hbm, 98, rfl⟩
abbrev main_v57 : Ref sig .tc := ⟨.hbm, 99, rfl⟩
abbrev main_cst_18 : Ref sig .tc := ⟨.hbm, 100, rfl⟩
abbrev main_v58 : Ref sig .tc := ⟨.hbm, 101, rfl⟩
abbrev main_v59 : Ref sig .tc := ⟨.hbm, 102, rfl⟩
abbrev main_cst_19 : Ref sig .tc := ⟨.hbm, 103, rfl⟩
abbrev main_v60 : Ref sig .tc := ⟨.hbm, 104, rfl⟩
abbrev main_v61 : Ref sig .tc := ⟨.hbm, 105, rfl⟩
abbrev main_cst_20 : Ref sig .tc := ⟨.hbm, 106, rfl⟩
abbrev main_v62 : Ref sig .tc := ⟨.hbm, 107, rfl⟩
abbrev main_v63 : Ref sig .tc := ⟨.hbm, 108, rfl⟩
abbrev main_cst_21 : Ref sig .tc := ⟨.hbm, 109, rfl⟩
abbrev main_v64 : Ref sig .tc := ⟨.hbm, 110, rfl⟩
abbrev main_v65 : Ref sig .tc := ⟨.hbm, 111, rfl⟩
abbrev main_cst_22 : Ref sig .tc := ⟨.hbm, 112, rfl⟩
abbrev main_v66 : Ref sig .tc := ⟨.hbm, 113, rfl⟩
abbrev main_v67 : Ref sig .tc := ⟨.hbm, 114, rfl⟩
abbrev main_cst_23 : Ref sig .tc := ⟨.hbm, 115, rfl⟩
abbrev main_v68 : Ref sig .tc := ⟨.hbm, 116, rfl⟩
abbrev main_v69 : Ref sig .tc := ⟨.hbm, 117, rfl⟩
abbrev main_v70_0 : Ref sig .tc := ⟨.hbm, 118, rfl⟩
abbrev main_v70_1 : Ref sig .tc := ⟨.hbm, 119, rfl⟩
abbrev main_v70_2 : Ref sig .tc := ⟨.hbm, 120, rfl⟩
abbrev main_v70_3 : Ref sig .tc := ⟨.hbm, 121, rfl⟩
abbrev main_v70_4 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg14_0 : Ref sig .tc := ⟨.vmem, 28, rfl⟩
abbrev cc1_stg15_0 : Ref sig .tc := ⟨.vmem, 29, rfl⟩
abbrev cc1_stg16_0 : Ref sig .tc := ⟨.vmem, 30, rfl⟩
abbrev cc1_stg17_0 : Ref sig .tc := ⟨.vmem, 31, rfl⟩
abbrev cc1_stg18_0 : Ref sig .tc := ⟨.vmem, 32, rfl⟩
abbrev cc1_stg19_0 : Ref sig .tc := ⟨.vmem, 33, rfl⟩
abbrev cc1_stg20_0 : Ref sig .tc := ⟨.vmem, 34, rfl⟩
abbrev cc1_stg20_1 : Ref sig .tc := ⟨.vmem, 35, rfl⟩
abbrev cc1_stg21_0 : Ref sig .tc := ⟨.vmem, 36, rfl⟩
abbrev cc1_stg21_1 : Ref sig .tc := ⟨.vmem, 37, rfl⟩
abbrev cc1_stg22_0 : Ref sig .tc := ⟨.vmem, 38, rfl⟩
abbrev cc1_stg22_1 : Ref sig .tc := ⟨.vmem, 39, rfl⟩
abbrev cc1_stg23_0 : Ref sig .tc := ⟨.vmem, 40, rfl⟩
abbrev cc1_stg23_1 : Ref sig .tc := ⟨.vmem, 41, rfl⟩
abbrev cc1_stg24_0 : Ref sig .tc := ⟨.vmem, 42, rfl⟩
abbrev cc1_stg24_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem14_0 : DmaSem sig := 28
abbrev cc1_sem15_0 : DmaSem sig := 29
abbrev cc1_sem16_0 : DmaSem sig := 30
abbrev cc1_sem17_0 : DmaSem sig := 31
abbrev cc1_sem18_0 : DmaSem sig := 32
abbrev cc1_sem19_0 : DmaSem sig := 33
abbrev cc1_sem20_0 : DmaSem sig := 34
abbrev cc1_sem20_1 : DmaSem sig := 35
abbrev cc1_sem21_0 : DmaSem sig := 36
abbrev cc1_sem21_1 : DmaSem sig := 37
abbrev cc1_sem22_0 : DmaSem sig := 38
abbrev cc1_sem22_1 : DmaSem sig := 39
abbrev cc1_sem23_0 : DmaSem sig := 40
abbrev cc1_sem23_1 : DmaSem sig := 41
abbrev cc1_sem24_0 : DmaSem sig := 42
abbrev cc1_sem24_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_20 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_21 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_22 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_23 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_24 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S128x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S128x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S128 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 2 → Memref sig .tc .vmem S1000x128 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S1000x128 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev stage1_22 : Fin 2 → Memref sig .tc .vmem S1000x384 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]

abbrev stage1_23 : Fin 2 → Memref sig .tc .vmem S1000x128 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

abbrev stage1_24 : Fin 2 → Memref sig .tc .vmem S1000x128 .f32 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S128x64 : S_.BroadcastsInDim S128x64 (![] : Fin 0 → Fin S128x64.rank)
  concatenates_S128x64_S128x64_S128x128_d1 : Shape.Concatenates [S128x64, S128x64] S128x128 1
  bcast_S_S64 : S_.BroadcastsInDim S64 (![] : Fin 0 → Fin S64.rank)
  concatenates_S64_S64_S128_d0 : Shape.Concatenates [S64, S64] S128 0
  bcast_S_S64x1 : S_.BroadcastsInDim S64x1 (![] : Fin 0 → Fin S64x1.rank)
  concatenates_S64x1_S64x1_S128x1_d0 : Shape.Concatenates [S64x1, S64x1] S128x1 0
  bcast_S_S128x127 : S_.BroadcastsInDim S128x127 (![] : Fin 0 → Fin S128x127.rank)
  concatenates_S128x1_S128x127_S128x128_d1 : Shape.Concatenates [S128x1, S128x127] S128x128 1
  bcast_S_S127 : S_.BroadcastsInDim S127 (![] : Fin 0 → Fin S127.rank)
  concatenates_S1_S127_S128_d0 : Shape.Concatenates [S1, S127] S128 0
  bcast_S_S64x100 : S_.BroadcastsInDim S64x100 (![] : Fin 0 → Fin S64x100.rank)
  concatenates_S64x100_S64x100_S128x100_d0 : Shape.Concatenates [S64x100, S64x100] S128x100 0
  bcast_S_S128x28 : S_.BroadcastsInDim S128x28 (![] : Fin 0 → Fin S128x28.rank)
  concatenates_S128x100_S128x28_S128x128_d1 : Shape.Concatenates [S128x100, S128x28] S128x128 1
  bcast_S_S28 : S_.BroadcastsInDim S28 (![] : Fin 0 → Fin S28.rank)
  concatenates_S100_S28_S128_d0 : Shape.Concatenates [S100, S28] S128 0
  bcast_S_S128x84 : S_.BroadcastsInDim S128x84 (![] : Fin 0 → Fin S128x84.rank)
  concatenates_S128x300_S128x84_S128x384_d1 : Shape.Concatenates [S128x300, S128x84] S128x384 1
  bcast_S_S84 : S_.BroadcastsInDim S84 (![] : Fin 0 → Fin S84.rank)
  concatenates_S300_S84_S384_d0 : Shape.Concatenates [S300, S84] S384 0
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  broadcasts_S1x128_S1000x128 : S1x128.Broadcasts S1000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S1000x384 : S1x384.Broadcasts S1000x384
  shapeCasts_S128x128_S128x128 : S128x128.ShapeCasts S128x128
  shapeCasts_S128_S128 : S128.ShapeCasts S128
  inb_S1000x384_S1000x384_0_0 : ∀ a, (![0, 0] : Fin 2 → Nat) a + S1000x384.size a ≤ S1000x384.size a
  h_S1000x384 : 0 < S1000x384.numel
  slices_S50000x128_S50000x100_0_0 : S50000x128.Slices ![0, 0] S50000x100
  slices_S50000x128_S50000x64_0_0 : S50000x128.Slices ![0, 0] S50000x64
  slices_S50000x384_S50000x300_0_0 : S50000x384.Slices ![0, 0] S50000x300
  slices_S50000x128_S50000x1_0_0 : S50000x128.Slices ![0, 0] S50000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S1000x128_S128x128_S1000x128_1_0_0_1_n_n_wf : DotDims.WF S1000x128 S128x128 S1000x128 [1] [0] [0] [1] [] []
  dot_S1000x128_S128x384_S1000x384_1_0_0_1_n_n_wf : DotDims.WF S1000x128 S128x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S50000x1.size a
  hwx1_1 : ∀ i : grid1.Coords, EltTy.bits .f32 = 32 ∨ (Rect.block (s := S50000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x384.size a ≤ S128x384.size a
  hwx1_6 : ∀ i : grid1.Coords, EltTy.bits .f32 = 32 ∨ (Rect.block (s := S128x384) S128x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S384.size a ≤ S384.size a
  hwx1_7 : ∀ i : grid1.Coords, EltTy.bits .f32 = 32 ∨ (Rect.block (s := S384) S384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128.size a ≤ S128.size a
  hwx1_13 : ∀ i : grid1.Coords, EltTy.bits .f32 = 32 ∨ (Rect.block (s := S128) S128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S128.size a ≤ S128.size a
  hwx1_14 : ∀ i : grid1.Coords, EltTy.bits .f32 = 32 ∨ (Rect.block (s := S128) S128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S128.size a ≤ S128.size a
  hwx1_15 : ∀ i : grid1.Coords, EltTy.bits .f32 = 32 ∨ (Rect.block (s := S128) S128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S128x128.size a ≤ S128x128.size a
  hwx1_16 : ∀ i : grid1.Coords, EltTy.bits .f32 = 32 ∨ (Rect.block (s := S128x128) S128x128.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S128.size a ≤ S128.size a
  hwx1_17 : ∀ i : grid1.Coords, EltTy.bits .f32 = 32 ∨ (Rect.block (s := S128) S128.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S128x128.size a ≤ S128x128.size a
  hwx1_18 : ∀ i : grid1.Coords, EltTy.bits .f32 = 32 ∨ (Rect.block (s := S128x128) S128x128.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S128.size a ≤ S128.size a
  hwx1_19 : ∀ i : grid1.Coords, EltTy.bits .f32 = 32 ∨ (Rect.block (s := S128) S128.size (cc1_transform_19 i) (hinb1_19 i)).WholeWords (EltTy.packing .f32)
  hstage1_20 : ∀ j, (stage1_20 j).IsWhole
  nbuf1_20 : grid1.bufCount reads1_20 false = 2
  hreads1_20 : ∀ i i' : grid1.Coords, (∀ a, reads1_20 a = true → i a = i' a) → cc1_transform_20 i = cc1_transform_20 i'
  hinb1_20 : ∀ (i : grid1.Coords) a, (cc1_transform_20 i a + 1) * S1000x128.size a ≤ S50000x128.size a
  hwx1_20 : ∀ i : grid1.Coords, EltTy.bits .f32 = 32 ∨ (Rect.block (s := S50000x128) S1000x128.size (cc1_transform_20 i) (hinb1_20 i)).WholeWords (EltTy.packing .f32)
  hstage1_21 : ∀ j, (stage1_21 j).IsWhole
  nbuf1_21 : grid1.bufCount reads1_21 false = 2
  hreads1_21 : ∀ i i' : grid1.Coords, (∀ a, reads1_21 a = true → i a = i' a) → cc1_transform_21 i = cc1_transform_21 i'
  hinb1_21 : ∀ (i : grid1.Coords) a, (cc1_transform_21 i a + 1) * S1000x128.size a ≤ S50000x128.size a
  hwx1_21 : ∀ i : grid1.Coords, EltTy.bits .f32 = 32 ∨ (Rect.block (s := S50000x128) S1000x128.size (cc1_transform_21 i) (hinb1_21 i)).WholeWords (EltTy.packing .f32)
  hstage1_22 : ∀ j, (stage1_22 j).IsWhole
  nbuf1_22 : grid1.bufCount reads1_22 false = 2
  hreads1_22 : ∀ i i' : grid1.Coords, (∀ a, reads1_22 a = true → i a = i' a) → cc1_transform_22 i = cc1_transform_22 i'
  hinb1_22 : ∀ (i : grid1.Coords) a, (cc1_transform_22 i a + 1) * S1000x384.size a ≤ S50000x384.size a
  hwx1_22 : ∀ i : grid1.Coords, EltTy.bits .f32 = 32 ∨ (Rect.block (s := S50000x384) S1000x384.size (cc1_transform_22 i) (hinb1_22 i)).WholeWords (EltTy.packing .f32)
  hstage1_23 : ∀ j, (stage1_23 j).IsWhole
  nbuf1_23 : grid1.bufCount reads1_23 false = 2
  hreads1_23 : ∀ i i' : grid1.Coords, (∀ a, reads1_23 a = true → i a = i' a) → cc1_transform_23 i = cc1_transform_23 i'
  hinb1_23 : ∀ (i : grid1.Coords) a, (cc1_transform_23 i a + 1) * S1000x128.size a ≤ S50000x128.size a
  hwx1_23 : ∀ i : grid1.Coords, EltTy.bits .f32 = 32 ∨ (Rect.block (s := S50000x128) S1000x128.size (cc1_transform_23 i) (hinb1_23 i)).WholeWords (EltTy.packing .f32)
  hstage1_24 : ∀ j, (stage1_24 j).IsWhole
  nbuf1_24 : grid1.bufCount reads1_24 false = 2
  hreads1_24 : ∀ i i' : grid1.Coords, (∀ a, reads1_24 a = true → i a = i' a) → cc1_transform_24 i = cc1_transform_24 i'
  hinb1_24 : ∀ (i : grid1.Coords) a, (cc1_transform_24 i a + 1) * S1000x128.size a ≤ S50000x128.size a
  hwx1_24 : ∀ i : grid1.Coords, EltTy.bits .f32 = 32 ∨ (Rect.block (s := S50000x128) S1000x128.size (cc1_transform_24 i) (hinb1_24 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S128x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v65) S384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v67) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v69) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v41) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v43) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v45) S128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v47) S128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v49) S128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v53) S128x128.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v55) S128.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v59) S128x128.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v61) S128.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v70_0) S1000x128.size cc1_transform_20 reads1_20 true false 2 stage1_20 sem1_20
    hrank1 hreads1_20 hinb1_20 nbuf1_20 (Memref.isWhole_whole _) hwx1_20 hstage1_20

abbrev win1_21 : Pipeline.Window sig grid1 :=
  Pipeline.Window.ofSpec (Memref.whole main_v70_1) S1000x128.size cc1_transform_21 reads1_21 true false 2 stage1_21 sem1_21
    hrank1 hreads1_21 hinb1_21 nbuf1_21 (Memref.isWhole_whole _) hwx1_21 hstage1_21

abbrev win1_22 : Pipeline.Window sig grid1 :=
  Pipeline.Window.ofSpec (Memref.whole main_v70_2) S1000x384.size cc1_transform_22 reads1_22 true false 2 stage1_22 sem1_22
    hrank1 hreads1_22 hinb1_22 nbuf1_22 (Memref.isWhole_whole _) hwx1_22 hstage1_22

abbrev win1_23 : Pipeline.Window sig grid1 :=
  Pipeline.Window.ofSpec (Memref.whole main_v70_3) S1000x128.size cc1_transform_23 reads1_23 true false 2 stage1_23 sem1_23
    hrank1 hreads1_23 hinb1_23 nbuf1_23 (Memref.isWhole_whole _) hwx1_23 hstage1_23

abbrev win1_24 : Pipeline.Window sig grid1 :=
  Pipeline.Window.ofSpec (Memref.whole main_v70_4) S1000x128.size cc1_transform_24 reads1_24 true false 2 stage1_24 sem1_24
    hrank1 hreads1_24 hinb1_24 nbuf1_24 (Memref.isWhole_whole _) hwx1_24 hstage1_24

abbrev win1 : Fin 25 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | 24 => win1_24 | ⟨_ + 25, h⟩ => absurd h (Nat.not_lt.2 (Nat.le_add_left _ _))
abbrev spec1 : Fin 25 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x300 : Shape := ⟨2, ![128, 300]⟩
abbrev S300 : Shape := ⟨1, ![300]⟩
abbrev S128x100 : Shape := ⟨2, ![128, 100]⟩
abbrev S100 : Shape := ⟨1, ![100]⟩
abbrev S128x64 : Shape := ⟨2, ![128, 64]⟩
abbrev S64 : Shape := ⟨1, ![64]⟩
abbrev S64x1 : Shape := ⟨2, ![64, 1]⟩
abbrev S1 : Shape := ⟨1, ![1]⟩
abbrev S64x100 : Shape := ⟨2, ![64, 100]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x300 : Shape := ⟨2, ![50000, 300]⟩
abbrev S1x300 : Shape := ⟨2, ![1, 300]⟩
abbrev S50000x100 : Shape := ⟨2, ![50000, 100]⟩
abbrev S1x100 : Shape := ⟨2, ![1, 100]⟩
abbrev S50000x64 : Shape := ⟨2, ![50000, 64]⟩
abbrev S1x64 : Shape := ⟨2, ![1, 64]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x300, .f32⟩
  | 9 => ⟨S300, .f32⟩
  | 10 => ⟨S128x100, .f32⟩
  | 11 => ⟨S100, .f32⟩
  | 12 => ⟨S128x64, .f32⟩
  | 13 => ⟨S64, .f32⟩
  | 14 => ⟨S64, .f32⟩
  | 15 => ⟨S64, .f32⟩
  | 16 => ⟨S64, .f32⟩
  | 17 => ⟨S64, .f32⟩
  | 18 => ⟨S64x1, .f32⟩
  | 19 => ⟨S1, .f32⟩
  | 20 => ⟨S64x100, .f32⟩
  | 21 => ⟨S100, .f32⟩
  | 22 => ⟨S1x800000, .i32⟩
  | 23 => ⟨S800000, .i32⟩
  | 24 => ⟨S1x800000, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S_, .f32⟩
  | 40 => ⟨S800000x1, .f32⟩
  | 41 => ⟨S_, .f32⟩
  | 42 => ⟨S50000x1, .f32⟩
  | 43 => ⟨S800000x1, .i32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S_, .f32⟩
  | 73 => ⟨S800000x1, .f32⟩
  | 74 => ⟨S_, .f32⟩
  | 75 => ⟨S50000x1, .f32⟩
  | 76 => ⟨S800000x1, .i32⟩
  | 77 => ⟨S50000x1, .f32⟩
  | 78 => ⟨S_, .f32⟩
  | 79 => ⟨S50000x1, .f32⟩
  | 80 => ⟨S50000x1, .f32⟩
  | 81 => ⟨S50000x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x300, .f32⟩
  | 93 => ⟨S1x300, .f32⟩
  | 94 => ⟨S50000x300, .f32⟩
  | 95 => ⟨S50000x300, .f32⟩
  | 96 => ⟨S50000x100, .f32⟩
  | 97 => ⟨S1x100, .f32⟩
  | 98 => ⟨S50000x100, .f32⟩
  | 99 => ⟨S50000x100, .f32⟩
  | 100 => ⟨S50000x64, .f32⟩
  | 101 => ⟨S1x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S64, .f32⟩
  | 112 => ⟨S64, .f32⟩
  | 113 => ⟨S64, .f32⟩
  | 114 => ⟨S1x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S50000x1, .f32⟩
  | 121 => ⟨S1x1, .f32⟩
  | 122 => ⟨S50000x1, .f32⟩
  | 123 => ⟨S50000x1, .f32⟩
  | 124 => ⟨S50000x64, .f32⟩
  | 125 => ⟨S50000x100, .f32⟩
  | 126 => ⟨S1x100, .f32⟩
  | 127 => ⟨S50000x100, .f32⟩
  | _ => ⟨S50000x128, .f32⟩

abbrev hbmTy0_1 (i : Nat) : BufTy := match i % 128 with
  | 0 => ⟨S50000x100, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call0_cst : Ref sig .tc := ⟨.hbm, 56, rfl⟩
abbrev main_call0_v0 : Ref sig .tc := ⟨.hbm, 57, rfl⟩
abbrev main_v28 : Ref sig .tc := ⟨.hbm, 58, rfl⟩
abbrev main_c_4 : Ref sig .tc := ⟨.hbm, 59, rfl⟩
abbrev main_v29 : Ref sig .tc := ⟨.hbm, 60, rfl⟩
abbrev main_v30 : Ref sig .tc := ⟨.hbm, 61, rfl⟩
abbrev main_c_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_7 : Ref sig .tc := ⟨.hbm, 72, rfl⟩
abbrev main_v39 : Ref sig .tc := ⟨.hbm, 73, rfl⟩
abbrev main_cst_8 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_9 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_call1_cst : Ref sig .tc := ⟨.hbm, 89, rfl⟩
abbrev main_call1_v0 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_10 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S50000x128_S128x300_S50000x300_1_0_0_1_n_n_wf : DotDims.WF S50000x128 S128x300 S50000x300 [1] [0] [0] [1] [] []
  dot_S50000x128_S128x100_S50000x100_1_0_0_1_n_n_wf : DotDims.WF S50000x128 S128x100 S50000x100 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []
  dot_S50000x64_S64x100_S50000x100_1_0_0_1_n_n_wf : DotDims.WF S50000x64 S64x100 S50000x100 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x300_S50000x300_1_0_0_1_n_n : DotDims S50000x128 S128x300 S50000x300 where
  lhsContracting := [1]
  rhsContracting := [0]
  lhsNonContracting := [0]
  rhsNonContracting := [1]
  lhsBatch := []
  rhsBatch := []
  wf := dot_S50000x128_S128x300_S50000x300_1_0_0_1_n_n_wf
def dot_S50000x128_S128x100_S50000x100_1_0_0_1_n_n : DotDims S50000x128 S128x100 S50000x100 where
  lhsContracting := [1]
  rhsContracting := [0]
  lhsNonContracting := [0]
  rhsNonContracting := [1]
  lhsBatch := []
  rhsBatch := []
  wf := dot_S50000x128_S128x100_S50000x100_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def dot_S50000x64_S64x100_S50000x100_1_0_0_1_n_n : DotDims S50000x64 S64x100 S50000x100 where
  lhsContracting := [1]
  rhsContracting := [0]
  lhsNonContracting := [0]
  rhsNonContracting := [1]
  lhsBatch := []
  rhsBatch := []
  wf := dot_S50000x64_S64x100_S50000x100_1_0_0_1_n_n_wf

class Facts : Prop extends Facts₀ where

variable [Facts]
-- ==== Proof.RunK.lean ====
/-
  The kernel program's run with its results named.

  The program is host operations, a first grid of row tiles, host operations, a second grid of row tiles, and
  five column slices. Every weakly fair execution terminates without a fault; at the end each of the five result
  arrays holds what the last stretch of host operations computes from the second grid's arrays (the contents
  W5 of the last segment boundary), and the argument arrays are as launched. The buffer contents at the segment
  boundaries are a fold through the program: host stretches apply their operations, a grid replaces its arrays by
  what its write-backs leave.
-/
import proofs.«130484_j51324859187411_2_alg».proof.Proof.FrameKernelIdeal

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the five results end at the last boundary's contents
    and the arguments as launched. -/
theorem run_results : θ_run defs (onTc (τ := τ) (main (F := F))) ⟨m, fun _ => 0, ρ⟩ (fun r => ∀ c : Dev nD,
      r.2.mem ((c.tc : Thread nD τ).loc main_v71) = W5 m ρ c (Proc.devRef .tc main_v71)
      ∧ r.2.mem ((c.tc : Thread nD τ).loc main_v72) = W5 m ρ c (Proc.devRef .tc main_v72)
      ∧ r.2.mem ((c.tc : Thread nD τ).loc main_v73) = W5 m ρ c (Proc.devRef .tc main_v73)
      ∧ r.2.mem ((c.tc : Thread nD τ).loc main_v74) = W5 m ρ c (Proc.devRef .tc main_v74)
      ∧ r.2.mem ((c.tc : Thread nD τ).loc main_v75) = W5 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v71 (by decide)),
       h c _ (mem_uc main_v72 (by decide)),
       h c _ (mem_uc main_v73 (by decide)),
       h c _ (mem_uc main_v74 (by decide)),
       h c _ (mem_uc main_v75 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c),
       (h c _ (mem_uc main_arg21 (by decide))).trans (W5_main_arg21 m ρ c)⟩)

end Cert.KernelIdeal.RunValue

end
-- ==== Proof.Spec.lean ====
/-
  The network's per-node arithmetic over the extended reals, one row at a time.

  After the neighbour sums are formed, every stage of the network acts on one node's row alone: a layer takes
  the node's mean-aggregated row and its own row to relu (mean · Wl + bl + x · Wr); a head is an affine map of a
  row; the normalisation acts lane by lane. Both programs are read into these three functions, so that what is
  left to compare is which rows and which weight entries they are applied to.
-/
import Idealize.ShloMosaic.PureOps.Ideal
import Idealize.ShloMosaic.Lib.ValueIdx

noncomputable section

open scoped BigOperators

namespace Cert.GraphNet

open Idealize.ShloMosaic

/-- An affine map of a row, read at output lane q: (a · W) q + b q. -/
def affine {K C : Nat} (a : Fin K → EReal) (w : Fin K → Fin C → EReal) (b : Fin C → EReal) (q : Fin C) : EReal :=
  (∑ k : Fin K, a k * w k q) + b q

/-- One layer at one node, read at output lane q: relu ((mean · Wl) q + bl q + (x · Wr) q). -/
def layerRow {K C : Nat} (mean x : Fin K → EReal) (wl : Fin K → Fin C → EReal) (bl : Fin C → EReal)
    (wr : Fin K → Fin C → EReal) (q : Fin C) : EReal :=
  max (((∑ k : Fin K, mean k * wl k q) + bl q) + ∑ k : Fin K, x k * wr k q) 0

/-- The normalisation with running statistics at one lane: g · (pre − rm) · rsqrt (rv + eps) + be. -/
def normLane (pre g rm rv be eps : EReal) : EReal :=
  g * (pre - rm) * Ideal.rsqrt (rv + eps) + be

/-- The word of the normalisation's epsilon, the same in both programs, never evaluated. -/
abbrev epsWord : EReal := Ideal.ofBits .f32 0x3727C5AC#32

/-- The word of the constant one. -/
abbrev oneWord : EReal := Ideal.ofBits .f32 0x3F800000#32

theorem affine_congr {K C : Nat} {a a' : Fin K → EReal} {w w' : Fin K → Fin C → EReal} {b b' : Fin C → EReal} (q : Fin C)
    (ha : ∀ k, a k = a' k) (hw : ∀ k, w k q = w' k q) (hb : b q = b' q) : affine a w b q = affine a' w' b' q := by
  unfold affine
  rw [hb]
  exact congrArg (· + b' q) (Finset.sum_congr rfl fun k _ => by rw [ha k, hw k])

theorem layerRow_congr {K C : Nat} {mean mean' x x' : Fin K → EReal} {wl wl' : Fin K → Fin C → EReal} {bl bl' : Fin C → EReal}
    {wr wr' : Fin K → Fin C → EReal} (q : Fin C) (hm : ∀ k, mean k = mean' k) (hx : ∀ k, x k = x' k)
    (hwl : ∀ k, wl k q = wl' k q) (hbl : bl q = bl' q) (hwr : ∀ k, wr k q = wr' k q) :
    layerRow mean x wl bl wr q = layerRow mean' x' wl' bl' wr' q := by
  unfold layerRow
  have e1 : (∑ k : Fin K, mean k * wl k q) = ∑ k : Fin K, mean' k * wl' k q :=
    Finset.sum_congr rfl fun k _ => by rw [hm k, hwl k]
  have e2 : (∑ k : Fin K, x k * wr k q) = ∑ k : Fin K, x' k * wr' k q :=
    Finset.sum_congr rfl fun k _ => by rw [hx k, hwr k]
  rw [hbl, e1, e2]

end Cert.GraphNet

end
-- ==== Proof.LibScatterRows.lean ====
/-
  An accumulating scatter whose scatter indices are one column of row numbers, read at an index over the extended reals.

  The scatter indices have shape [E, 1]: update row e goes to operand row idx[e, 0], read as a SIGNED integer and
  not clamped; a row number outside [0, N) drops the whole update row. With the exact sum as the combiner, the
  result at (v, k) is the operand's entry plus the sum of upd[e, k] over the update rows e with idx[e, 0] = v
  (rowDims, scatterAdd_rows_apply). The rank-1 form — operand [N], updates [E] — is the same sum without the
  column (vecDims, scatterAdd_vec_apply). Both follow from reading the scatter's result index one axis at a time:
  on the row axis it is the start index, on the column axis the update's own column.
-/
import Idealize.ShloMosaic.PureOps.Ideal
import Idealize.ShloMosaic.Lib.ValueIdx

noncomputable section

open scoped BigOperators

namespace Cert.ScatterRows

open Idealize.ShloMosaic Idealize.ShloMosaic.ValueIdx

/-! ## Rows of width C scattered by one index column -/

/-- The dimension numbers of a row scatter: operand [N, C], scatter indices [E, 1], updates [E, C]; the updates'
    axis 1 is the window axis, the operand's axis 0 is inserted and is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- On the row axis the window starts at the row number the index column holds for the update's row. -/
theorem row_start0 (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the index names nothing: the window starts at column 0. -/
theorem row_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    (show ¬ (1 : Fin 2) ∈ ([0] : List (Fin 2)) by decide))]

/-- The row axis is inserted: no window coordinate on it. -/
theorem row_window0 (j : (⟨2, ![E, C]⟩ : Shape).Idx) : (rowDims N E C wf).window j 0 = 0 := by
  unfold ScatterDims.window
  rw [dif_neg (show ¬ (0 : Fin 2) ∈ (rowDims N E C wf).sKept from
    (show ¬ (0 : Fin 2) ∈ ([1] : List (Fin 2)) by decide))]

/-- On the column axis the window coordinate is the update's own column. -/
theorem row_window1 (j : (⟨2, ![E, C]⟩ : Shape).Idx) : (rowDims N E C wf).window j 1 = (j 1).val := by
  unfold ScatterDims.window
  rw [dif_pos (show (1 : Fin 2) ∈ (rowDims N E C wf).sKept from
    (show (1 : Fin 2) ∈ ([1] : List (Fin 2)) by decide))]
  rfl

/-- WHERE AN UPDATE LANDS: update (e, c) lands on operand (v, k) exactly when the index column holds v at e and c = k. -/
theorem row_lands_iff (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  have hi0 : (i 0).val < N := idx2_lt0 i
  have hi1 : (i 1).val < C := idx2_lt1 i
  have hj1 : (j 1).val < C := idx2_lt1 j
  have hs0 : (⟨2, ![N, C]⟩ : Shape).size 0 = N := rfl
  have hs1 : (⟨2, ![N, C]⟩ : Shape).size 1 = C := rfl
  unfold ScatterDims.resultIdx?
  split
  · rename_i h
    have h0 := h 0
    have h1 := h 1
    rw [row_start0, row_window0] at h0
    rw [row_start1, row_window1] at h1
    rw [Option.some.injEq]
    constructor
    · intro he
      have e0 := congrArg (fun f => (f 0).val) he
      have e1 := congrArg (fun f => (f 1).val) he
      simp only [row_start0, row_window0, row_start1, row_window1] at e0 e1
      constructor <;> omega
    · rintro ⟨e0, e1⟩
      funext a
      refine Fin.ext ?_
      match a with
      | ⟨0, _⟩ =>
        show ((rowDims N E C wf).start j idx 0 + ((rowDims N E C wf).window j 0 : Int)).toNat = (i 0).val
        rw [row_start0, row_window0]; omega
      | ⟨1, _⟩ =>
        show ((rowDims N E C wf).start j idx 1 + ((rowDims N E C wf).window j 1 : Int)).toNat = (i 1).val
        rw [row_start1, row_window1]; omega
  · rename_i h
    constructor
    · intro he; exact absurd he (by simp)
    · rintro ⟨e0, e1⟩
      refine absurd (fun a => ?_) h
      match a with
      | ⟨0, _⟩ =>
        show 0 ≤ (rowDims N E C wf).start j idx 0 + ((rowDims N E C wf).window j 0 : Int) ∧
          (rowDims N E C wf).start j idx 0 + ((rowDims N E C wf).window j 0 : Int) < ((⟨2, ![N, C]⟩ : Shape).size 0 : Int)
        rw [row_start0, row_window0, hs0]; omega
      | ⟨1, _⟩ =>
        show 0 ≤ (rowDims N E C wf).start j idx 1 + ((rowDims N E C wf).window j 1 : Int) ∧
          (rowDims N E C wf).start j idx 1 + ((rowDims N E C wf).window j 1 : Int) < ((⟨2, ![N, C]⟩ : Shape).size 1 : Int)
        rw [row_start1, row_window1, hs1]; omega

/-- THE ROW SCATTER READ AT (v, k): the operand's entry plus the sum of column k of the update rows whose row number is v. -/
theorem scatterAdd_rows_apply (x : (⟨2, ![N, C]⟩ : Shape).Idx → EReal) (idx : IVec ⟨2, ![E, 1]⟩ w)
    (upd : (⟨2, ![E, C]⟩ : Shape).Idx → EReal) (v : Fin N) (k : Fin C) :
    Ideal.hostScatterAdd (rowDims N E C wf) x idx upd (ix2 v k) =
      x (ix2 v k) + ∑ e ∈ Finset.univ.filter (fun e : Fin E => (idx (ix2 e 0)).toInt = (v.val : Int)), upd (ix2 e k) := by
  unfold Ideal.hostScatterAdd
  congr 1
  rw [Finset.sum_filter, sum_idx2, Finset.sum_filter]
  refine Finset.sum_congr rfl fun e _ => ?_
  simp only [row_lands_iff]
  by_cases he : (idx (ix2 e 0)).toInt = (v.val : Int)
  · rw [if_pos he]
    rw [Finset.sum_eq_single k]
    · rw [if_pos ⟨he, rfl⟩]
    · intro b _ hb
      rw [if_neg]
      rintro ⟨_, h1⟩
      exact hb (Fin.ext h1)
    · intro h; exact absurd (Finset.mem_univ k) h
  · rw [if_neg he]
    refine Finset.sum_eq_zero fun b _ => ?_
    rw [if_neg]
    rintro ⟨h0, _⟩
    exact he h0

/-- The same for ANY dimension numbers of a row scatter (a program's own record: its four fields are these by
    unfolding), stated for the host operation at the extended reals. -/
theorem host_scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (v : Fin N) (k : Fin C) :
    Host.scatterAdd d x idx upd (ix2 v k) =
      x (ix2 v k) + ∑ e ∈ Finset.univ.filter (fun e : Fin E => (idx (ix2 e 0)).toInt = (v.val : Int)), upd (ix2 e k) := by
  obtain ⟨uw, iw, sd, iv, wf⟩ := d
  dsimp only at h1 h2 h3 h4
  subst h1 h2 h3 h4
  unfold Host.scatterAdd
  rw [Ideal.hostScatterAdd_def]
  exact scatterAdd_rows_apply wf x idx upd v k

end Rows

/-! ## Scalars scattered by one index column -/

/-- The dimension numbers of the rank-1 form: operand [N], scatter indices [E, 1], updates [E]; no window axis. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

theorem vec_start0 (j : (⟨1, ![E]⟩ : Shape).Idx) (idx : IVec ⟨2, ![E, 1]⟩ w) :
    (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![E]⟩ : Shape).Idx) : (vecDims N E wf).window j 0 = 0 := by
  unfold ScatterDims.window
  rw [dif_neg (show ¬ (0 : Fin 1) ∈ (vecDims N E wf).sKept from
    (show ¬ (0 : Fin 1) ∈ ([] : List (Fin 1)) by decide))]

/-- WHERE AN UPDATE LANDS: update e lands on operand v exactly when the index column holds v at e. -/
theorem vec_lands_iff (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  have hi0 : (i 0).val < N := (i 0).isLt
  have hs0 : (⟨1, ![N]⟩ : Shape).size 0 = N := rfl
  unfold ScatterDims.resultIdx?
  split
  · rename_i h
    have h0 := h 0
    rw [vec_start0, vec_window0] at h0
    rw [Option.some.injEq]
    constructor
    · intro he
      have e0 := congrArg (fun f => (f 0).val) he
      simp only [vec_start0, vec_window0] at e0
      omega
    · intro e0
      funext a
      refine Fin.ext ?_
      match a with
      | ⟨0, _⟩ =>
        show ((vecDims N E wf).start j idx 0 + ((vecDims N E wf).window j 0 : Int)).toNat = (i 0).val
        rw [vec_start0, vec_window0]; omega
  · rename_i h
    constructor
    · intro he; exact absurd he (by simp)
    · intro e0
      refine absurd (fun a => ?_) h
      match a with
      | ⟨0, _⟩ =>
        show 0 ≤ (vecDims N E wf).start j idx 0 + ((vecDims N E wf).window j 0 : Int) ∧
          (vecDims N E wf).start j idx 0 + ((vecDims N E wf).window j 0 : Int) < ((⟨1, ![N]⟩ : Shape).size 0 : Int)
        rw [vec_start0, vec_window0, hs0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE RANK-1 SCATTER READ AT v: the operand's entry plus the sum of the updates whose row number is v. -/
theorem scatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v) =
      x (ix1 v) + ∑ e ∈ Finset.univ.filter (fun e : Fin E => (idx (ix2 e 0)).toInt = (v.val : Int)), upd (ix1 e) := by
  unfold Ideal.hostScatterAdd
  congr 1
  rw [Finset.sum_filter, Finset.sum_filter, ← Equiv.sum_comp (idxEquiv1 (n := E)).symm]
  refine Finset.sum_congr rfl fun e _ => ?_
  simp only [vec_lands_iff]
  rfl

/-- The same for ANY dimension numbers of the rank-1 form, stated for the host operation at the extended reals. -/
theorem host_scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (v : Fin N) :
    Host.scatterAdd d x idx upd (ix1 v) =
      x (ix1 v) + ∑ e ∈ Finset.univ.filter (fun e : Fin E => (idx (ix2 e 0)).toInt = (v.val : Int)), upd (ix1 e) := by
  obtain ⟨uw, iw, sd, iv, wf⟩ := d
  dsimp only at h1 h2 h3 h4
  subst h1 h2 h3 h4
  unfold Host.scatterAdd
  rw [Ideal.hostScatterAdd_def]
  exact scatterAdd_vec_apply wf x idx upd v

end Vec

end Cert.ScatterRows

end
-- ==== Proof.HostK.lean ====
/-
  The kernel program's host operations, read.

  Before the first grid the program forms, from the edge list, the neighbour sums of the features (rows gathered
  at the sources and added into the targets' rows; the cast to the narrow float format and back is the identity on
  the extended reals, so these are the reference's neighbour sums term for term) and, per node, the reciprocal of
  its neighbour count clipped below at one. Between the grids it forms the neighbour sums of the first layer's
  output in the same way and pads every head's weights and biases with zeros (the variance with ones) up to 128
  lanes; after the second grid it cuts the padded results back to their widths. Each such array is read here as a
  term of, or at an index of, the arrays it is computed from, for any contents of those arrays.
-/
import proofs.«130484_j51324859187411_2_alg».proof.Proof.Gen.KernelIdeal.Launch
import proofs.«130484_j51324859187411_2_alg».proof.Proof.Gen.ReferenceIdeal.Read
import proofs.«130484_j51324859187411_2_alg».proof.Proof.Spec
import proofs.«130484_j51324859187411_2_alg».proof.Proof.LibScatterRows
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

open scoped BigOperators

namespace Cert.KernelIdeal.HostRead

open Cert.KernelIdeal Cert.KernelIdeal.Gen Cert.GraphNet
open Idealize.ShloMosaic Idealize.ShloMosaic.TcCoe Idealize.SL.Sem Idealize.ShloMosaic.StableHlo Idealize.ShloMosaic.ValueIdx

variable (W : Valuation τ sig (Elt Ideal))

/-- Closes "a buffer that no operation of the stretch writes keeps its contents". -/
macro "untouched" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! The first stretch writes no argument; the second keeps the reciprocal counts, the first grid's output and the second layer's weights. -/
theorem keep0_arg0 : StableHlo.after hostOps0 W (Proc.devRef .tc main_arg0) = W (Proc.devRef .tc main_arg0) := by untouched hostOps0
theorem keep0_arg1 : StableHlo.after hostOps0 W (Proc.devRef .tc main_arg1) = W (Proc.devRef .tc main_arg1) := by untouched hostOps0
theorem keep0_arg2 : StableHlo.after hostOps0 W (Proc.devRef .tc main_arg2) = W (Proc.devRef .tc main_arg2) := by untouched hostOps0
theorem keep0_arg3 : StableHlo.after hostOps0 W (Proc.devRef .tc main_arg3) = W (Proc.devRef .tc main_arg3) := by untouched hostOps0
theorem keep0_arg4 : StableHlo.after hostOps0 W (Proc.devRef .tc main_arg4) = W (Proc.devRef .tc main_arg4) := by untouched hostOps0
theorem keep0_arg5 : StableHlo.after hostOps0 W (Proc.devRef .tc main_arg5) = W (Proc.devRef .tc main_arg5) := by untouched hostOps0
theorem keep0_arg6 : StableHlo.after hostOps0 W (Proc.devRef .tc main_arg6) = W (Proc.devRef .tc main_arg6) := by untouched hostOps0
theorem keep0_arg7 : StableHlo.after hostOps0 W (Proc.devRef .tc main_arg7) = W (Proc.devRef .tc main_arg7) := by untouched hostOps0
theorem keep0_arg8 : StableHlo.after hostOps0 W (Proc.devRef .tc main_arg8) = W (Proc.devRef .tc main_arg8) := by untouched hostOps0
theorem keep0_arg9 : StableHlo.after hostOps0 W (Proc.devRef .tc main_arg9) = W (Proc.devRef .tc main_arg9) := by untouched hostOps0
theorem keep0_arg10 : StableHlo.after hostOps0 W (Proc.devRef .tc main_arg10) = W (Proc.devRef .tc main_arg10) := by untouched hostOps0
theorem keep0_arg11 : StableHlo.after hostOps0 W (Proc.devRef .tc main_arg11) = W (Proc.devRef .tc main_arg11) := by untouched hostOps0
theorem keep0_arg12 : StableHlo.after hostOps0 W (Proc.devRef .tc main_arg12) = W (Proc.devRef .tc main_arg12) := by untouched hostOps0
theorem keep0_arg13 : StableHlo.after hostOps0 W (Proc.devRef .tc main_arg13) = W (Proc.devRef .tc main_arg13) := by untouched hostOps0
theorem keep0_arg14 : StableHlo.after hostOps0 W (Proc.devRef .tc main_arg14) = W (Proc.devRef .tc main_arg14) := by untouched hostOps0
theorem keep0_arg15 : StableHlo.after hostOps0 W (Proc.devRef .tc main_arg15) = W (Proc.devRef .tc main_arg15) := by untouched hostOps0
theorem keep0_arg16 : StableHlo.after hostOps0 W (Proc.devRef .tc main_arg16) = W (Proc.devRef .tc main_arg16) := by untouched hostOps0
theorem keep0_arg17 : StableHlo.after hostOps0 W (Proc.devRef .tc main_arg17) = W (Proc.devRef .tc main_arg17) := by untouched hostOps0
theorem keep0_arg18 : StableHlo.after hostOps0 W (Proc.devRef .tc main_arg18) = W (Proc.devRef .tc main_arg18) := by untouched hostOps0
theorem keep0_arg19 : StableHlo.after hostOps0 W (Proc.devRef .tc main_arg19) = W (Proc.devRef .tc main_arg19) := by untouched hostOps0
theorem keep0_arg20 : StableHlo.after hostOps0 W (Proc.devRef .tc main_arg20) = W (Proc.devRef .tc main_arg20) := by untouched hostOps0
theorem keep0_arg21 : StableHlo.after hostOps0 W (Proc.devRef .tc main_arg21) = W (Proc.devRef .tc main_arg21) := by untouched hostOps0
theorem keep1_v12 : StableHlo.after hostOps1 W (Proc.devRef .tc main_v12) = W (Proc.devRef .tc main_v12) := by untouched hostOps1
theorem keep1_v25 : StableHlo.after hostOps1 W (Proc.devRef .tc main_v25) = W (Proc.devRef .tc main_v25) := by untouched hostOps1
theorem keep1_arg5 : StableHlo.after hostOps1 W (Proc.devRef .tc main_arg5) = W (Proc.devRef .tc main_arg5) := by untouched hostOps1
theorem keep1_arg6 : StableHlo.after hostOps1 W (Proc.devRef .tc main_arg6) = W (Proc.devRef .tc main_arg6) := by untouched hostOps1
theorem keep1_arg7 : StableHlo.after hostOps1 W (Proc.devRef .tc main_arg7) = W (Proc.devRef .tc main_arg7) := by untouched hostOps1

set_option maxHeartbeats 2000000 in
/-- The neighbour sums entering the first grid are the reference's neighbour sums of the features. -/
theorem sums0 : StableHlo.after hostOps0 W (Proc.devRef .tc main_v24)
    = Cert.ReferenceIdeal.Read.val_main_v13 (F := Ideal) (W (Proc.devRef .tc main_arg0)) (W (Proc.devRef .tc main_arg1)) := by
  after_results_simp
  first | rfl | fail "rfl failed"

set_option maxHeartbeats 2000000 in
/-- The source rows of the edges, as the reference reads them off the edge list. -/
theorem src0 : StableHlo.after hostOps0 W (Proc.devRef .tc main_v1)
    = Cert.ReferenceIdeal.Read.val_main_v1 (F := Ideal) (W (Proc.devRef .tc main_arg1)) := by
  after_results_simp
  first | rfl | fail "rfl failed"

set_option maxHeartbeats 2000000 in
/-- The target rows of the edges. -/
theorem dst0 : StableHlo.after hostOps0 W (Proc.devRef .tc main_v3)
    = Cert.ReferenceIdeal.Read.val_main_v3 (F := Ideal) (W (Proc.devRef .tc main_arg1)) := by
  after_results_simp
  first | rfl | fail "rfl failed"

/-- The edges whose target row is node r. -/
def into (e : (⟨Cert.ReferenceIdeal.S2x800000, .i32⟩ : BufTy).Contents (Elt Ideal)) (r : Fin 50000) : Finset (Fin 800000) :=
  Finset.univ.filter (fun k : Fin 800000 => (Cert.ReferenceIdeal.Read.val_main_v16 (F := Ideal) e (ix2 k 0)).toInt = (r.val : Int))

/-- A quotient of two length-50000 vectors, recast as a column, read at row r. -/
theorem quotCol_apply (A S B : FVec Ideal S50000 .f32) (h : S50000.ShapeCasts S50000x1) (r : Fin 50000) :
    shapeCast S50000x1 (Host.divf A (maximumf S B)) h (ix2 r 0) = Ideal.div (A (ix1 r)) (max (S (ix1 r)) (B (ix1 r))) := by
  refine (shapeCast_apply _ _ (ix2 r 0) (ix1 r) ?_).trans rfl
  rw [Shape.rowMajor_val_one, Shape.rowMajor_val_two]
  show r.val = r.val * 1 + 0
  omega

/-- A scalar word spread over a length-n vector reads the word everywhere. -/
theorem splat_apply {n : Nat} (h : S_.BroadcastsInDim (⟨1, ![n]⟩ : Shape) ![]) (w : BitVec 32) (j : (⟨1, ![n]⟩ : Shape).Idx) :
    broadcastInDim (⟨1, ![n]⟩ : Shape) ![] h (constant (F := Ideal) S_ .f32 w) j = Ideal.ofBits .f32 w := rfl

/-- The count vector at node r: the sum of ones over the edges into r. -/
theorem count_apply (z u : EReal) (Z : FVec Ideal S50000 .f32) (U : FVec Ideal S800000 .f32)
    (I : IVec S800000x1 32) (hZ : ∀ j, Z j = z) (hU : ∀ j, U j = u) (r : Fin 50000) :
    Host.scatterAdd scatter_S50000_S800000x1_S800000_n_0_0_1 Z I U (ix1 r)
      = z + ∑ _k ∈ Finset.univ.filter (fun k : Fin 800000 => (I (ix2 k 0)).toInt = (r.val : Int)), u := by
  rw [Cert.ScatterRows.host_scatterAdd_vec_apply scatter_S50000_S800000x1_S800000_n_0_0_1 rfl rfl rfl rfl Z I U r, hZ]
  exact congrArg (z + ·) (Finset.sum_congr rfl fun k _ => hU _)

set_option maxHeartbeats 2000000 in
/-- The reciprocal count at node r: one over the number of edges into r, clipped below at one. -/
theorem inv0 (r : Fin 50000) : StableHlo.after hostOps0 W (Proc.devRef .tc main_v12) (ix2 r 0)
    = Ideal.div oneWord (max (Ideal.ofBits .f32 0x00000000#32 + ∑ _k ∈ into (W (Proc.devRef .tc main_arg1)) r, oneWord) oneWord) := by
  after_results_simp
  refine (quotCol_apply _ _ _ _ r).trans ?_
  first
  | (rw [count_apply (Ideal.ofBits .f32 0x00000000#32) oneWord _ _ _ (fun j => splat_apply _ _ j) (fun j => splat_apply _ _ j) r, splat_apply])
  | fail "count rewrite failed"
  first | rfl | fail "rfl failed"

set_option maxHeartbeats 4000000 in
/-- The neighbour sums entering the second grid are the reference's neighbour sums of the first grid's output. -/
theorem sums1 (e : (⟨Cert.ReferenceIdeal.S2x800000, .i32⟩ : BufTy).Contents (Elt Ideal))
    (h1 : W (Proc.devRef .tc main_v1) = Cert.ReferenceIdeal.Read.val_main_v1 (F := Ideal) e)
    (h3 : W (Proc.devRef .tc main_v3) = Cert.ReferenceIdeal.Read.val_main_v3 (F := Ideal) e) :
    StableHlo.after hostOps1 W (Proc.devRef .tc main_v37)
      = Cert.ReferenceIdeal.Read.val_main_v13 (F := Ideal) (W (Proc.devRef .tc main_v25)) e := by
  after_results_simp
  rw [h1, h3]
  first | rfl | fail "rfl failed"

/-- The reference's count at node r is the same sum of ones. -/
theorem refCount (e : (⟨Cert.ReferenceIdeal.S2x800000, .i32⟩ : BufTy).Contents (Elt Ideal)) (r : Fin 50000) :
    Cert.ReferenceIdeal.Read.val_main_v17 (F := Ideal) e (ix2 r 0)
      = Ideal.ofBits .f32 0x00000000#32 + ∑ _k ∈ into e r, oneWord := by
  unfold Cert.ReferenceIdeal.Read.val_main_v17
  rw [Cert.ScatterRows.host_scatterAdd_rows_apply _ rfl rfl rfl rfl _ _ _ r (0 : Fin 1)]
  first | rfl | fail "rfl failed"

end Cert.KernelIdeal.HostRead

end
-- ==== Proof.HostPads.lean ====
/-
  The host's zero padding of the weights and the final slices, read at an index.

  Between the two grids the host pads each weight matrix and bias vector of the second layer's heads with zeros up to
  the lane width (a concatenation with a zero array along the padded axis; the running variance alone is padded with
  ones), and after the second grid it cuts each
  result back to its true width (a slice from the origin). Read at an index inside the unpadded part a padded array is
  the argument array there; read in a padded row it is zero; and a slice from the origin reads the sliced array at the
  same coordinates. All of this holds for any contents of the buffers before the host lines run.
-/
import proofs.«130484_j51324859187411_2_alg».proof.Proof.Gen.KernelIdeal.Launch
import Idealize.ShloMosaic.Lib.StableHlo.Run
import Idealize.ShloMosaic.Lib.Pipeline.Value
import Idealize.ShloMosaic.Lib.ValueLayout
import Idealize.ShloMosaic.Lib.ValueIdx
import Idealize.ShloMosaic.Lib.IdealHost
import Idealize.ShloMosaic.PureOps.Ideal.Laws

noncomputable section

namespace Cert.KernelIdeal.HostPads

open Cert.KernelIdeal Cert.KernelIdeal.Gen Idealize.ShloMosaic Idealize.ShloMosaic.TcCoe Idealize.ShloMosaic.StableHlo
  Idealize.ShloMosaic.ValueIdx

/-! ## A two-piece concatenation read inside one piece -/

section Pieces
variable {α : Type}

/-- Two matrices side by side: a column inside the first reads the first. -/
theorem concat_cols_left {m n n1 n2 : ℕ} (x : (⟨2, ![m, n1]⟩ : Shape).Idx → α) (y : (⟨2, ![m, n2]⟩ : Shape).Idx → α)
    (h : Shape.Concatenates [⟨2, ![m, n1]⟩, ⟨2, ![m, n2]⟩] ⟨2, ![m, n]⟩ 1) (hle : n1 ≤ n) (k : Fin m) (q : Fin n1) :
    concatenate ⟨2, ![m, n]⟩ 1 [⟨⟨2, ![m, n1]⟩, x⟩, ⟨⟨2, ![m, n2]⟩, y⟩] h (ix2 k (Fin.castLE hle q)) = x (ix2 k q) :=
  concatenate_pair_apply_left 1 x y h _ rfl (ix2 k q) fun b => by
    match b with
    | ⟨0, _⟩ => rfl
    | ⟨1, _⟩ => rfl

/-- Two matrices one above the other: a row inside the first reads the first. -/
theorem concat_rows_left {m m1 m2 n : ℕ} (x : (⟨2, ![m1, n]⟩ : Shape).Idx → α) (y : (⟨2, ![m2, n]⟩ : Shape).Idx → α)
    (h : Shape.Concatenates [⟨2, ![m1, n]⟩, ⟨2, ![m2, n]⟩] ⟨2, ![m, n]⟩ 0) (hle : m1 ≤ m) (k : Fin m1) (q : Fin n) :
    concatenate ⟨2, ![m, n]⟩ 0 [⟨⟨2, ![m1, n]⟩, x⟩, ⟨⟨2, ![m2, n]⟩, y⟩] h (ix2 (Fin.castLE hle k) q) = x (ix2 k q) :=
  concatenate_pair_apply_left 0 x y h _ rfl (ix2 k q) fun b => by
    match b with
    | ⟨0, _⟩ => rfl
    | ⟨1, _⟩ => rfl

/-- Two matrices one above the other: a row at or past the first's height reads the second, that height less. -/
theorem concat_rows_right {m m1 m2 n : ℕ} (x : (⟨2, ![m1, n]⟩ : Shape).Idx → α) (y : (⟨2, ![m2, n]⟩ : Shape).Idx → α)
    (h : Shape.Concatenates [⟨2, ![m1, n]⟩, ⟨2, ![m2, n]⟩] ⟨2, ![m, n]⟩ 0) (k : Fin m) (k' : Fin m2) (hk : k'.val + m1 = k.val)
    (q : Fin n) :
    concatenate ⟨2, ![m, n]⟩ 0 [⟨⟨2, ![m1, n]⟩, x⟩, ⟨⟨2, ![m2, n]⟩, y⟩] h (ix2 k q) = y (ix2 k' q) :=
  concatenate_pair_apply_right 0 x y h _ rfl rfl (ix2 k' q) (fun b hb => by
    match b, hb with
    | ⟨0, _⟩, hb => exact absurd rfl hb
    | ⟨1, _⟩, _ => rfl) hk

/-- Two vectors end to end: a lane inside the first reads the first. -/
theorem concat_vec_left {n n1 n2 : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (hle : n1 ≤ n) (q : Fin n1) :
    concatenate ⟨1, ![n]⟩ 0 [⟨⟨1, ![n1]⟩, x⟩, ⟨⟨1, ![n2]⟩, y⟩] h (ix1 (Fin.castLE hle q)) = x (ix1 q) :=
  concatenate_pair_apply_left 0 x y h _ rfl (ix1 q) fun b => by
    match b with
    | ⟨0, _⟩ => rfl

/-- The host's zero array: the zero word broadcast to any shape reads 0 everywhere. -/
theorem zeros_apply {T : Shape} (h : (⟨0, ![]⟩ : Shape).BroadcastsInDim T ![]) (j : T.Idx) :
    broadcastInDim T ![] h (constant (F := Ideal) ⟨0, ![]⟩ .f32 0x00000000#32) j = 0 :=
  (broadcastInDim_scalar_apply h _ j).trans Ideal.ofBits_zero_f32

end Pieces

/-! ## The padded weights and the final slices, for any contents before the host lines -/

variable (W : Valuation τ sig (Elt Ideal))

/-! ### Matrices padded with zero columns -/

/-- The classifier head's weights, padded on the right with zero columns: inside the first 100 columns they are the argument's. -/
theorem wclas (k : Fin 128) (q : Fin 100) :
    StableHlo.after hostOps1 W (Proc.devRef .tc main_v67) (ix2 k (Fin.castLE (by decide) q)) = W (Proc.devRef .tc main_arg10) (ix2 k q) := by
  simp (disch := decide) only [after_cons, after_nil, nullary_result', unary_result', binary_result', ternary_result',
    nullary_result_ne', unary_result_ne', binary_result_ne', ternary_result_ne', concat_cols_left]

/-- The wide head's weights, padded on the right with zero columns: inside the first 300 columns they are the argument's. -/
theorem whd (k : Fin 128) (q : Fin 300) :
    StableHlo.after hostOps1 W (Proc.devRef .tc main_v63) (ix2 k (Fin.castLE (by decide) q)) = W (Proc.devRef .tc main_arg8) (ix2 k q) := by
  simp (disch := decide) only [after_cons, after_nil, nullary_result', unary_result', binary_result', ternary_result',
    nullary_result_ne', unary_result_ne', binary_result_ne', ternary_result_ne', concat_cols_left]

/-- The hidden head's weights, padded on the right with zero columns: inside the first 64 columns they are the argument's. -/
theorem wconv (k : Fin 128) (q : Fin 64) :
    StableHlo.after hostOps1 W (Proc.devRef .tc main_v39) (ix2 k (Fin.castLE (by decide) q)) = W (Proc.devRef .tc main_arg12) (ix2 k q) := by
  simp (disch := decide) only [after_cons, after_nil, nullary_result', unary_result', binary_result', ternary_result',
    nullary_result_ne', unary_result_ne', binary_result_ne', ternary_result_ne', concat_cols_left]

/-! ### Vectors padded with zero lanes -/

/-- The classifier head's bias: inside the first 100 lanes the padded vector is the argument's. -/
theorem bclas (q : Fin 100) :
    StableHlo.after hostOps1 W (Proc.devRef .tc main_v69) (ix1 (Fin.castLE (by decide) q)) = W (Proc.devRef .tc main_arg11) (ix1 q) := by
  simp (disch := decide) only [after_cons, after_nil, nullary_result', unary_result', binary_result', ternary_result',
    nullary_result_ne', unary_result_ne', binary_result_ne', ternary_result_ne', concat_vec_left]

/-- The wide head's bias: inside the first 300 lanes the padded vector is the argument's. -/
theorem bhd (q : Fin 300) :
    StableHlo.after hostOps1 W (Proc.devRef .tc main_v65) (ix1 (Fin.castLE (by decide) q)) = W (Proc.devRef .tc main_arg9) (ix1 q) := by
  simp (disch := decide) only [after_cons, after_nil, nullary_result', unary_result', binary_result', ternary_result',
    nullary_result_ne', unary_result_ne', binary_result_ne', ternary_result_ne', concat_vec_left]

/-- The hidden head's bias: inside the first 64 lanes the padded vector is the argument's. -/
theorem bconv (q : Fin 64) :
    StableHlo.after hostOps1 W (Proc.devRef .tc main_v41) (ix1 (Fin.castLE (by decide) q)) = W (Proc.devRef .tc main_arg13) (ix1 q) := by
  simp (disch := decide) only [after_cons, after_nil, nullary_result', unary_result', binary_result', ternary_result',
    nullary_result_ne', unary_result_ne', binary_result_ne', ternary_result_ne', concat_vec_left]

/-- The normalisation's scale: inside the first 64 lanes the padded vector is the argument's. -/
theorem gamma (q : Fin 64) :
    StableHlo.after hostOps1 W (Proc.devRef .tc main_v43) (ix1 (Fin.castLE (by decide) q)) = W (Proc.devRef .tc main_arg14) (ix1 q) := by
  simp (disch := decide) only [after_cons, after_nil, nullary_result', unary_result', binary_result', ternary_result',
    nullary_result_ne', unary_result_ne', binary_result_ne', ternary_result_ne', concat_vec_left]

/-- The normalisation's shift: inside the first 64 lanes the padded vector is the argument's. -/
theorem beta (q : Fin 64) :
    StableHlo.after hostOps1 W (Proc.devRef .tc main_v45) (ix1 (Fin.castLE (by decide) q)) = W (Proc.devRef .tc main_arg15) (ix1 q) := by
  simp (disch := decide) only [after_cons, after_nil, nullary_result', unary_result', binary_result', ternary_result',
    nullary_result_ne', unary_result_ne', binary_result_ne', ternary_result_ne', concat_vec_left]

/-- The running mean: inside the first 64 lanes the padded vector is the argument's. -/
theorem rm (q : Fin 64) :
    StableHlo.after hostOps1 W (Proc.devRef .tc main_v47) (ix1 (Fin.castLE (by decide) q)) = W (Proc.devRef .tc main_arg16) (ix1 q) := by
  simp (disch := decide) only [after_cons, after_nil, nullary_result', unary_result', binary_result', ternary_result',
    nullary_result_ne', unary_result_ne', binary_result_ne', ternary_result_ne', concat_vec_left]

/-- The running variance (its padding lanes hold the word of one, which the first lanes do not see): inside the first 64 lanes the padded vector is the argument's. -/
theorem rv (q : Fin 64) :
    StableHlo.after hostOps1 W (Proc.devRef .tc main_v49) (ix1 (Fin.castLE (by decide) q)) = W (Proc.devRef .tc main_arg17) (ix1 q) := by
  simp (disch := decide) only [after_cons, after_nil, nullary_result', unary_result', binary_result', ternary_result',
    nullary_result_ne', unary_result_ne', binary_result_ne', ternary_result_ne', concat_vec_left]

/-- The last head's bias: inside the first 100 lanes the padded vector is the argument's. -/
theorem bcv (q : Fin 100) :
    StableHlo.after hostOps1 W (Proc.devRef .tc main_v61) (ix1 (Fin.castLE (by decide) q)) = W (Proc.devRef .tc main_arg21) (ix1 q) := by
  simp (disch := decide) only [after_cons, after_nil, nullary_result', unary_result', binary_result', ternary_result',
    nullary_result_ne', unary_result_ne', binary_result_ne', ternary_result_ne', concat_vec_left]

/-- The one-lane bias padded to the lane width: its lane 0 is the argument's only entry. -/
theorem btl :
    StableHlo.after hostOps1 W (Proc.devRef .tc main_v55) (ix1 (0 : Fin 128)) = W (Proc.devRef .tc main_arg19) (ix1 (0 : Fin 1)) := by
  show StableHlo.after hostOps1 W (Proc.devRef .tc main_v55) (ix1 (Fin.castLE (by decide : 1 ≤ 128) (0 : Fin 1))) = _
  simp (disch := decide) only [after_cons, after_nil, nullary_result', unary_result', binary_result', ternary_result',
    nullary_result_ne', unary_result_ne', binary_result_ne', ternary_result_ne', concat_vec_left]

/-! ### Matrices padded with zero rows and zero columns -/

/-- The one-column weights, padded below with zero rows and on the right with zero columns: column 0 of the first 64
    rows is the argument's column. -/
theorem wtl (k : Fin 64) :
    StableHlo.after hostOps1 W (Proc.devRef .tc main_v53) (ix2 (Fin.castLE (by decide) k) (0 : Fin 128)) = W (Proc.devRef .tc main_arg18) (ix2 k (0 : Fin 1)) := by
  show StableHlo.after hostOps1 W (Proc.devRef .tc main_v53) (ix2 (Fin.castLE (by decide : 64 ≤ 128) k) (Fin.castLE (by decide : 1 ≤ 128) (0 : Fin 1))) = _
  simp (disch := decide) only [after_cons, after_nil, nullary_result', unary_result', binary_result', ternary_result',
    nullary_result_ne', unary_result_ne', binary_result_ne', ternary_result_ne', concat_cols_left, concat_rows_left]

/-- … and column 0 of the rows from 64 on is zero. -/
theorem wtl_zero (k : Fin 128) (hk : 64 ≤ k.val) :
    StableHlo.after hostOps1 W (Proc.devRef .tc main_v53) (ix2 k (0 : Fin 128)) = (0 : EReal) := by
  show StableHlo.after hostOps1 W (Proc.devRef .tc main_v53) (ix2 k (Fin.castLE (by decide : 1 ≤ 128) (0 : Fin 1))) = _
  simp (disch := decide) only [after_cons, after_nil, nullary_result', unary_result', binary_result', ternary_result',
    nullary_result_ne', unary_result_ne', binary_result_ne', ternary_result_ne', concat_cols_left,
    concat_rows_right (m := 128) (m1 := 64) (m2 := 64) (n := 1) _ _ _ k ⟨k.val - 64, by omega⟩
      (by show k.val - 64 + 64 = k.val; omega)]
  exact zeros_apply _ _

/-- The 64-row weights of the last head, padded below with zero rows and on the right with zero columns: inside the
    first 64 rows and 100 columns they are the argument's. -/
theorem wcv (k : Fin 64) (q : Fin 100) :
    StableHlo.after hostOps1 W (Proc.devRef .tc main_v59) (ix2 (Fin.castLE (by decide) k) (Fin.castLE (by decide) q)) = W (Proc.devRef .tc main_arg20) (ix2 k q) := by
  simp (disch := decide) only [after_cons, after_nil, nullary_result', unary_result', binary_result', ternary_result',
    nullary_result_ne', unary_result_ne', binary_result_ne', ternary_result_ne', concat_cols_left, concat_rows_left]

/-- … and the rows from 64 on are zero in the first 100 columns. -/
theorem wcv_zero (k : Fin 128) (hk : 64 ≤ k.val) (q : Fin 100) :
    StableHlo.after hostOps1 W (Proc.devRef .tc main_v59) (ix2 k (Fin.castLE (by decide) q)) = (0 : EReal) := by
  simp (disch := decide) only [after_cons, after_nil, nullary_result', unary_result', binary_result', ternary_result',
    nullary_result_ne', unary_result_ne', binary_result_ne', ternary_result_ne', concat_cols_left,
    concat_rows_right (m := 128) (m1 := 64) (m2 := 64) (n := 100) _ _ _ k ⟨k.val - 64, by omega⟩
      (by show k.val - 64 + 64 = k.val; omega)]
  exact zeros_apply _ _

/-! ### The final slices: each result cut back to its true width -/

/-- The first 100 columns of a result of the second grid. -/
theorem out_clas (r : Fin 50000) (q : Fin 100) :
    StableHlo.after hostOps2 W (Proc.devRef .tc main_v71) (ix2 r q) = W (Proc.devRef .tc main_v70_0) (ix2 r (Fin.castLE (by decide) q)) := by
  simp (disch := decide) only [after_cons, after_nil, nullary_result', unary_result', binary_result', ternary_result',
    nullary_result_ne', unary_result_ne', binary_result_ne', ternary_result_ne']
  exact slice2_axis1_apply 0 _ _ r q _ (Nat.zero_add _).symm

/-- The first 64 columns of a result of the second grid. -/
theorem out_conv (r : Fin 50000) (q : Fin 64) :
    StableHlo.after hostOps2 W (Proc.devRef .tc main_v72) (ix2 r q) = W (Proc.devRef .tc main_v70_1) (ix2 r (Fin.castLE (by decide) q)) := by
  simp (disch := decide) only [after_cons, after_nil, nullary_result', unary_result', binary_result', ternary_result',
    nullary_result_ne', unary_result_ne', binary_result_ne', ternary_result_ne']
  exact slice2_axis1_apply 0 _ _ r q _ (Nat.zero_add _).symm

/-- The first 300 columns of a result of the second grid. -/
theorem out_hd (r : Fin 50000) (q : Fin 300) :
    StableHlo.after hostOps2 W (Proc.devRef .tc main_v73) (ix2 r q) = W (Proc.devRef .tc main_v70_2) (ix2 r (Fin.castLE (by decide) q)) := by
  simp (disch := decide) only [after_cons, after_nil, nullary_result', unary_result', binary_result', ternary_result',
    nullary_result_ne', unary_result_ne', binary_result_ne', ternary_result_ne']
  exact slice2_axis1_apply 0 _ _ r q _ (Nat.zero_add _).symm

/-- The first 100 columns of a result of the second grid. -/
theorem out_cv (r : Fin 50000) (q : Fin 100) :
    StableHlo.after hostOps2 W (Proc.devRef .tc main_v74) (ix2 r q) = W (Proc.devRef .tc main_v70_3) (ix2 r (Fin.castLE (by decide) q)) := by
  simp (disch := decide) only [after_cons, after_nil, nullary_result', unary_result', binary_result', ternary_result',
    nullary_result_ne', unary_result_ne', binary_result_ne', ternary_result_ne']
  exact slice2_axis1_apply 0 _ _ r q _ (Nat.zero_add _).symm

/-- The first 1 column of a result of the second grid. -/
theorem out_tl (r : Fin 50000) (q : Fin 1) :
    StableHlo.after hostOps2 W (Proc.devRef .tc main_v75) (ix2 r q) = W (Proc.devRef .tc main_v70_4) (ix2 r (Fin.castLE (by decide) q)) := by
  simp (disch := decide) only [after_cons, after_nil, nullary_result', unary_result', binary_result', ternary_result',
    nullary_result_ne', unary_result_ne', binary_result_ne', ternary_result_ne']
  exact slice2_axis1_apply 0 _ _ r q _ (Nat.zero_add _).symm

end Cert.KernelIdeal.HostPads

end
-- ==== Proof.ChainK.lean ====
/-
  The kernel program's arrays at the segment boundaries, read back to the launch memory.

  The first grid is entered with the argument arrays as launched, the reference's neighbour sums of the features
  and the reciprocal counts; it leaves its output array and touches nothing else. The second grid is entered with
  the neighbour sums of that output, the same reciprocal counts, that output itself, the second layer's weights as
  launched and the heads' weights zero-padded; the five results are the column cuts of its five output arrays.
-/
import proofs.«130484_j51324859187411_2_alg».proof.Proof.FrameKernelIdeal
import proofs.«130484_j51324859187411_2_alg».proof.Proof.HostK
import proofs.«130484_j51324859187411_2_alg».proof.Proof.HostPads

set_option maxRecDepth 16384

noncomputable section

open scoped BigOperators

namespace Cert.KernelIdeal.Chain

open Cert.KernelIdeal Cert.KernelIdeal.Gen Cert.KernelIdeal.GenP Cert.GraphNet Cert.KernelIdeal.HostRead
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The first grid's output array. -/
abbrev layer1Out := (dat0 (F := Ideal) (V1 m ρ) c).arrAt 6 cfg0.N

/-! ## At the first grid's entry -/
theorem V1_arg0 : V1 m ρ c main_arg0 = m ((c : Thread nD τ).loc main_arg0) := keep0_arg0 (W0 m ρ c)
theorem V1_arg2 : V1 m ρ c main_arg2 = m ((c : Thread nD τ).loc main_arg2) := keep0_arg2 (W0 m ρ c)
theorem V1_arg3 : V1 m ρ c main_arg3 = m ((c : Thread nD τ).loc main_arg3) := keep0_arg3 (W0 m ρ c)
theorem V1_arg4 : V1 m ρ c main_arg4 = m ((c : Thread nD τ).loc main_arg4) := keep0_arg4 (W0 m ρ c)
theorem V1_sums : V1 m ρ c main_v24 = Cert.ReferenceIdeal.Read.val_main_v13 (F := Ideal) (m ((c : Thread nD τ).loc main_arg0)) (m ((c : Thread nD τ).loc main_arg1)) := sums0 (W0 m ρ c)
theorem V1_inv (r : Fin 50000) : V1 m ρ c main_v12 (ix2 r 0)
    = Ideal.div oneWord (max (Ideal.ofBits .f32 0x00000000#32 + ∑ _k ∈ into (m ((c : Thread nD τ).loc main_arg1)) r, oneWord) oneWord) := inv0 (W0 m ρ c) r

/-! ## At the first grid's exit -/
theorem W2_v1 : W2 m ρ c (Proc.devRef .tc main_v1) = Cert.ReferenceIdeal.Read.val_main_v1 (F := Ideal) (m ((c : Thread nD τ).loc main_arg1)) :=
  (W2_of_ne m ρ c main_v1 (by decide)).trans (src0 (W0 m ρ c))
theorem W2_v3 : W2 m ρ c (Proc.devRef .tc main_v3) = Cert.ReferenceIdeal.Read.val_main_v3 (F := Ideal) (m ((c : Thread nD τ).loc main_arg1)) :=
  (W2_of_ne m ρ c main_v3 (by decide)).trans (dst0 (W0 m ρ c))
theorem W2_v25 : W2 m ρ c (Proc.devRef .tc main_v25) = layer1Out m ρ c := W2_arr m ρ c 6
theorem W2_v12 : W2 m ρ c (Proc.devRef .tc main_v12) = V1 m ρ c main_v12 :=
  (W2_arr m ρ c 1).trans (((dat0 (V1 m ρ) c).arrAt_in 1 rfl _).trans (A_eq0 (V1 m ρ) c 1))
theorem W2_arg5 : W2 m ρ c (Proc.devRef .tc main_arg5) = m ((c : Thread nD τ).loc main_arg5) := (W2_of_ne m ρ c main_arg5 (by decide)).trans (keep0_arg5 (W0 m ρ c))
theorem W2_arg6 : W2 m ρ c (Proc.devRef .tc main_arg6) = m ((c : Thread nD τ).loc main_arg6) := (W2_of_ne m ρ c main_arg6 (by decide)).trans (keep0_arg6 (W0 m ρ c))
theorem W2_arg7 : W2 m ρ c (Proc.devRef .tc main_arg7) = m ((c : Thread nD τ).loc main_arg7) := (W2_of_ne m ρ c main_arg7 (by decide)).trans (keep0_arg7 (W0 m ρ c))
theorem W2_arg8 : W2 m ρ c (Proc.devRef .tc main_arg8) = m ((c : Thread nD τ).loc main_arg8) := (W2_of_ne m ρ c main_arg8 (by decide)).trans (keep0_arg8 (W0 m ρ c))
theorem W2_arg9 : W2 m ρ c (Proc.devRef .tc main_arg9) = m ((c : Thread nD τ).loc main_arg9) := (W2_of_ne m ρ c main_arg9 (by decide)).trans (keep0_arg9 (W0 m ρ c))
theorem W2_arg10 : W2 m ρ c (Proc.devRef .tc main_arg10) = m ((c : Thread nD τ).loc main_arg10) := (W2_of_ne m ρ c main_arg10 (by decide)).trans (keep0_arg10 (W0 m ρ c))
theorem W2_arg11 : W2 m ρ c (Proc.devRef .tc main_arg11) = m ((c : Thread nD τ).loc main_arg11) := (W2_of_ne m ρ c main_arg11 (by decide)).trans (keep0_arg11 (W0 m ρ c))
theorem W2_arg12 : W2 m ρ c (Proc.devRef .tc main_arg12) = m ((c : Thread nD τ).loc main_arg12) := (W2_of_ne m ρ c main_arg12 (by decide)).trans (keep0_arg12 (W0 m ρ c))
theorem W2_arg13 : W2 m ρ c (Proc.devRef .tc main_arg13) = m ((c : Thread nD τ).loc main_arg13) := (W2_of_ne m ρ c main_arg13 (by decide)).trans (keep0_arg13 (W0 m ρ c))
theorem W2_arg14 : W2 m ρ c (Proc.devRef .tc main_arg14) = m ((c : Thread nD τ).loc main_arg14) := (W2_of_ne m ρ c main_arg14 (by decide)).trans (keep0_arg14 (W0 m ρ c))
theorem W2_arg15 : W2 m ρ c (Proc.devRef .tc main_arg15) = m ((c : Thread nD τ).loc main_arg15) := (W2_of_ne m ρ c main_arg15 (by decide)).trans (keep0_arg15 (W0 m ρ c))
theorem W2_arg16 : W2 m ρ c (Proc.devRef .tc main_arg16) = m ((c : Thread nD τ).loc main_arg16) := (W2_of_ne m ρ c main_arg16 (by decide)).trans (keep0_arg16 (W0 m ρ c))
theorem W2_arg17 : W2 m ρ c (Proc.devRef .tc main_arg17) = m ((c : Thread nD τ).loc main_arg17) := (W2_of_ne m ρ c main_arg17 (by decide)).trans (keep0_arg17 (W0 m ρ c))
theorem W2_arg18 : W2 m ρ c (Proc.devRef .tc main_arg18) = m ((c : Thread nD τ).loc main_arg18) := (W2_of_ne m ρ c main_arg18 (by decide)).trans (keep0_arg18 (W0 m ρ c))
theorem W2_arg19 : W2 m ρ c (Proc.devRef .tc main_arg19) = m ((c : Thread nD τ).loc main_arg19) := (W2_of_ne m ρ c main_arg19 (by decide)).trans (keep0_arg19 (W0 m ρ c))
theorem W2_arg20 : W2 m ρ c (Proc.devRef .tc main_arg20) = m ((c : Thread nD τ).loc main_arg20) := (W2_of_ne m ρ c main_arg20 (by decide)).trans (keep0_arg20 (W0 m ρ c))
theorem W2_arg21 : W2 m ρ c (Proc.devRef .tc main_arg21) = m ((c : Thread nD τ).loc main_arg21) := (W2_of_ne m ρ c main_arg21 (by decide)).trans (keep0_arg21 (W0 m ρ c))

/-! ## At the second grid's entry -/
theorem V3_sums : V3 m ρ c main_v37 = Cert.ReferenceIdeal.Read.val_main_v13 (F := Ideal) (layer1Out m ρ c) (m ((c : Thread nD τ).loc main_arg1)) :=
  (sums1 (W2 m ρ c) _ (W2_v1 m ρ c) (W2_v3 m ρ c)).trans (by rw [W2_v25])
theorem V3_inv : V3 m ρ c main_v12 = V1 m ρ c main_v12 := (keep1_v12 (W2 m ρ c)).trans (W2_v12 m ρ c)
theorem V3_layer1 : V3 m ρ c main_v25 = layer1Out m ρ c := (keep1_v25 (W2 m ρ c)).trans (W2_v25 m ρ c)
theorem V3_arg5 : V3 m ρ c main_arg5 = m ((c : Thread nD τ).loc main_arg5) := (keep1_arg5 (W2 m ρ c)).trans (W2_arg5 m ρ c)
theorem V3_arg6 : V3 m ρ c main_arg6 = m ((c : Thread nD τ).loc main_arg6) := (keep1_arg6 (W2 m ρ c)).trans (W2_arg6 m ρ c)
theorem V3_arg7 : V3 m ρ c main_arg7 = m ((c : Thread nD τ).loc main_arg7) := (keep1_arg7 (W2 m ρ c)).trans (W2_arg7 m ρ c)

/-! ## The zero-padded head weights at the second grid's entry, inside the unpadded part -/
theorem V3_wclas (k : Fin 128) (q : Fin 100) : V3 m ρ c main_v67 (ix2 k (Fin.castLE (by decide) q)) = m ((c : Thread nD τ).loc main_arg10) (ix2 k q) :=
  (HostPads.wclas (W2 m ρ c) k q).trans (by rw [W2_arg10])
theorem V3_whd (k : Fin 128) (q : Fin 300) : V3 m ρ c main_v63 (ix2 k (Fin.castLE (by decide) q)) = m ((c : Thread nD τ).loc main_arg8) (ix2 k q) :=
  (HostPads.whd (W2 m ρ c) k q).trans (by rw [W2_arg8])
theorem V3_wconv (k : Fin 128) (q : Fin 64) : V3 m ρ c main_v39 (ix2 k (Fin.castLE (by decide) q)) = m ((c : Thread nD τ).loc main_arg12) (ix2 k q) :=
  (HostPads.wconv (W2 m ρ c) k q).trans (by rw [W2_arg12])
theorem V3_bclas (q : Fin 100) : V3 m ρ c main_v69 (ix1 (Fin.castLE (by decide) q)) = m ((c : Thread nD τ).loc main_arg11) (ix1 q) :=
  (HostPads.bclas (W2 m ρ c) q).trans (by rw [W2_arg11])
theorem V3_bhd (q : Fin 300) : V3 m ρ c main_v65 (ix1 (Fin.castLE (by decide) q)) = m ((c : Thread nD τ).loc main_arg9) (ix1 q) :=
  (HostPads.bhd (W2 m ρ c) q).trans (by rw [W2_arg9])
theorem V3_bconv (q : Fin 64) : V3 m ρ c main_v41 (ix1 (Fin.castLE (by decide) q)) = m ((c : Thread nD τ).loc main_arg13) (ix1 q) :=
  (HostPads.bconv (W2 m ρ c) q).trans (by rw [W2_arg13])
theorem V3_gamma (q : Fin 64) : V3 m ρ c main_v43 (ix1 (Fin.castLE (by decide) q)) = m ((c : Thread nD τ).loc main_arg14) (ix1 q) :=
  (HostPads.gamma (W2 m ρ c) q).trans (by rw [W2_arg14])
theorem V3_beta (q : Fin 64) : V3 m ρ c main_v45 (ix1 (Fin.castLE (by decide) q)) = m ((c : Thread nD τ).loc main_arg15) (ix1 q) :=
  (HostPads.beta (W2 m ρ c) q).trans (by rw [W2_arg15])
theorem V3_rm (q : Fin 64) : V3 m ρ c main_v47 (ix1 (Fin.castLE (by decide) q)) = m ((c : Thread nD τ).loc main_arg16) (ix1 q) :=
  (HostPads.rm (W2 m ρ c) q).trans (by rw [W2_arg16])
theorem V3_rv (q : Fin 64) : V3 m ρ c main_v49 (ix1 (Fin.castLE (by decide) q)) = m ((c : Thread nD τ).loc main_arg17) (ix1 q) :=
  (HostPads.rv (W2 m ρ c) q).trans (by rw [W2_arg17])
theorem V3_bcv (q : Fin 100) : V3 m ρ c main_v61 (ix1 (Fin.castLE (by decide) q)) = m ((c : Thread nD τ).loc main_arg21) (ix1 q) :=
  (HostPads.bcv (W2 m ρ c) q).trans (by rw [W2_arg21])
theorem V3_btl : V3 m ρ c main_v55 (ix1 (0 : Fin 128)) = m ((c : Thread nD τ).loc main_arg19) (ix1 (0 : Fin 1)) :=
  (HostPads.btl (W2 m ρ c)).trans (by rw [W2_arg19])
theorem V3_wtl (k : Fin 64) : V3 m ρ c main_v53 (ix2 (Fin.castLE (by decide) k) (0 : Fin 128)) = m ((c : Thread nD τ).loc main_arg18) (ix2 k (0 : Fin 1)) :=
  (HostPads.wtl (W2 m ρ c) k).trans (by rw [W2_arg18])
theorem V3_wtl_zero (k : Fin 128) (hk : 64 ≤ k.val) : V3 m ρ c main_v53 (ix2 k (0 : Fin 128)) = (0 : EReal) :=
  HostPads.wtl_zero (W2 m ρ c) k hk
theorem V3_wcv (k : Fin 64) (q : Fin 100) : V3 m ρ c main_v59 (ix2 (Fin.castLE (by decide) k) (Fin.castLE (by decide) q)) = m ((c : Thread nD τ).loc main_arg20) (ix2 k q) :=
  (HostPads.wcv (W2 m ρ c) k q).trans (by rw [W2_arg20])
theorem V3_wcv_zero (k : Fin 128) (hk : 64 ≤ k.val) (q : Fin 100) : V3 m ρ c main_v59 (ix2 k (Fin.castLE (by decide) q)) = (0 : EReal) :=
  HostPads.wcv_zero (W2 m ρ c) k hk q

/-! ## The five results: column cuts of the second grid's output arrays -/
theorem W4_out_clas : W4 m ρ c (Proc.devRef .tc main_v70_0) = (dat1 (F := Ideal) (V3 m ρ) c).arrAt 20 cfg1.N := W4_arr m ρ c 20
theorem out_clas (r : Fin 50000) (q : Fin 100) : W5 m ρ c (Proc.devRef .tc main_v71) (ix2 r q)
    = (dat1 (F := Ideal) (V3 m ρ) c).arrAt 20 cfg1.N (ix2 r (Fin.castLE (by decide) q)) :=
  (HostPads.out_clas (W4 m ρ c) r q).trans (by rw [W4_out_clas])
theorem W4_out_conv : W4 m ρ c (Proc.devRef .tc main_v70_1) = (dat1 (F := Ideal) (V3 m ρ) c).arrAt 21 cfg1.N := W4_arr m ρ c 21
theorem out_conv (r : Fin 50000) (q : Fin 64) : W5 m ρ c (Proc.devRef .tc main_v72) (ix2 r q)
    = (dat1 (F := Ideal) (V3 m ρ) c).arrAt 21 cfg1.N (ix2 r (Fin.castLE (by decide) q)) :=
  (HostPads.out_conv (W4 m ρ c) r q).trans (by rw [W4_out_conv])
theorem W4_out_hd : W4 m ρ c (Proc.devRef .tc main_v70_2) = (dat1 (F := Ideal) (V3 m ρ) c).arrAt 22 cfg1.N := W4_arr m ρ c 22
theorem out_hd (r : Fin 50000) (q : Fin 300) : W5 m ρ c (Proc.devRef .tc main_v73) (ix2 r q)
    = (dat1 (F := Ideal) (V3 m ρ) c).arrAt 22 cfg1.N (ix2 r (Fin.castLE (by decide) q)) :=
  (HostPads.out_hd (W4 m ρ c) r q).trans (by rw [W4_out_hd])
theorem W4_out_cv : W4 m ρ c (Proc.devRef .tc main_v70_3) = (dat1 (F := Ideal) (V3 m ρ) c).arrAt 23 cfg1.N := W4_arr m ρ c 23
theorem out_cv (r : Fin 50000) (q : Fin 100) : W5 m ρ c (Proc.devRef .tc main_v74) (ix2 r q)
    = (dat1 (F := Ideal) (V3 m ρ) c).arrAt 23 cfg1.N (ix2 r (Fin.castLE (by decide) q)) :=
  (HostPads.out_cv (W4 m ρ c) r q).trans (by rw [W4_out_cv])
theorem W4_out_tl : W4 m ρ c (Proc.devRef .tc main_v70_4) = (dat1 (F := Ideal) (V3 m ρ) c).arrAt 24 cfg1.N := W4_arr m ρ c 24
theorem out_tl (r : Fin 50000) (q : Fin 1) : W5 m ρ c (Proc.devRef .tc main_v75) (ix2 r q)
    = (dat1 (F := Ideal) (V3 m ρ) c).arrAt 24 cfg1.N (ix2 r (Fin.castLE (by decide) q)) :=
  (HostPads.out_tl (W4 m ρ c) r q).trans (by rw [W4_out_tl])

end Cert.KernelIdeal.Chain

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.Pay.lean ====
/-
  The tile bodies' arithmetic read at an index of the tile.

  Each value a tile body stores is a function of the blocks it loads. Read at row p and lane q of the tile, and with
  the casts to and from the narrow float format being the identity on the extended reals, a matrix product into a
  zero accumulator is the plain sum over the contracted lane, a bias row is added lane by lane, and so each stored
  value is one of the row functions of the specification applied to row p of the loaded blocks.
-/
import proofs.«130484_j51324859187411_2_alg».proof.Proof.Gen.KernelIdeal.Skeleton
import proofs.«130484_j51324859187411_2_alg».proof.Proof.Spec
import proofs.«130484_j51324859187411_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Cert.GraphNet Idealize.ShloMosaic Idealize.ShloMosaic.ValueIdx

/-! ## Two layout readings and two lane functions at an index

The tile bodies repeat a per-node column along the lanes and a per-lane vector along the rows; read at (p, c) these
are the column's entry in row p and the vector's lane c. The reciprocal square root and the hyperbolic tangent act
entry by entry. -/

variable {α : Type}

/-- A column of shape [a, 1] broadcast along the lanes to [a, b] reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of b lanes viewed as one row and repeated over a rows reads, at (p, c), the vector's lane c. -/
theorem rowOf_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A reciprocal square root at an index is the extended reals' reciprocal square root of the element. -/
theorem rsqrt_apply {s : Shape} {φ : FTy} (a : FVec Ideal s φ) (i : s.Idx) : rsqrt a i = Ideal.rsqrt (a i) := rfl

/-- A hyperbolic tangent at an index is the extended reals' hyperbolic tangent of the element. -/
theorem tanh_apply {s : Shape} {φ : FTy} (a : FVec Ideal s φ) (i : s.Idx) : tanh a i = Ideal.tanh (a i) := rfl

/-! ## The stored values

In each proof the stored value is opened into its chain of operations, the index (p, q) is pushed through the
entrywise operations, each product into the zero accumulator becomes the sum over the contracted lane, each repeated
row or column is read by the two lemmas above, and what is left is the row function's own expression. -/

/-- The first grid's stored value: the layer's row function of row p of the aggregated block scaled by the node's
    reciprocal count, of row p of the features block, and of the weights. -/
theorem layer1_apply (x0 : Vec Ideal S2000x128 .f32) (x1 : Vec Ideal S2000x1 .f32) (x2 : Vec Ideal S2000x128 .f32)
    (x3 : Vec Ideal S128x128 .f32) (x4 : Vec Ideal S128 .f32) (x5 : Vec Ideal S128x128 .f32) (p : Fin 2000) (q : Fin 128) :
    k0_pay1 (F := Ideal) x0 x1 x2 x3 x5 x4 (ix2 p q)
      = layerRow (fun k : Fin 128 => x0 (ix2 p k) * x1 (ix2 p 0)) (fun k : Fin 128 => x2 (ix2 p k))
          (fun k c => x3 (ix2 k c)) (fun c => x4 (ix1 c)) (fun k c => x5 (ix2 k c)) q := by
  unfold k0_pay1 layerRow
  simp only [maximumf_apply, addf_apply, mulf_apply, truncf_apply, broadcast_apply,
    Cert.PlainDot.matmul_zero_apply dot_S2000x128_S128x128_S2000x128_1_0_0_1_n_n rfl rfl rfl rfl rfl rfl,
    shapeCast_self, broadcastTo_a1_ab_apply, rowOf_apply, Ideal.ofBits_def, Ideal.ofBits_zero_f32]

/-- The second grid's hidden row (its cast to the narrow format is the identity). -/
theorem hidden_apply (x0 : Vec Ideal S1000x128 .f32) (x1 : Vec Ideal S1000x1 .f32) (x2 : Vec Ideal S1000x128 .f32)
    (x3 : Vec Ideal S128x128 .f32) (x4 : Vec Ideal S128 .f32) (x5 : Vec Ideal S128x128 .f32) (p : Fin 1000) (q : Fin 128) :
    k1_pay3 (F := Ideal) x0 x1 x2 x3 x5 x4 (ix2 p q)
      = layerRow (fun k : Fin 128 => x0 (ix2 p k) * x1 (ix2 p 0)) (fun k : Fin 128 => x2 (ix2 p k))
          (fun k c => x3 (ix2 k c)) (fun c => x4 (ix1 c)) (fun k c => x5 (ix2 k c)) q := by
  unfold k1_pay3 layerRow
  simp only [maximumf_apply, addf_apply, mulf_apply, truncf_apply, broadcast_apply,
    Cert.PlainDot.matmul_zero_apply dot_S1000x128_S128x128_S1000x128_1_0_0_1_n_n rfl rfl rfl rfl rfl rfl,
    shapeCast_self, broadcastTo_a1_ab_apply, rowOf_apply, Ideal.ofBits_def, Ideal.ofBits_zero_f32]

/-- The head of width 128 on the hidden tile: an affine map of row p of the hidden tile. -/
theorem head128_apply (x0 : Vec Ideal S1000x128 .f32) (x1 : Vec Ideal S1000x1 .f32) (x2 : Vec Ideal S1000x128 .f32)
    (x3 : Vec Ideal S128x128 .f32) (x4 : Vec Ideal S128 .f32) (x5 : Vec Ideal S128x128 .f32)
    (w : Vec Ideal S128x128 .f32) (b : Vec Ideal S128 .f32) (p : Fin 1000) (q : Fin 128) :
    k1_pay6 (F := Ideal) (k1_pay5 x0 x1 x2 x3 x5 x4 w) b (ix2 p q)
      = affine (fun k : Fin 128 => k1_pay3 (F := Ideal) x0 x1 x2 x3 x5 x4 (ix2 p k)) (fun k c => w (ix2 k c)) (fun c => b (ix1 c)) q := by
  unfold k1_pay6 k1_pay5 affine
  simp only [addf_apply, truncf_apply,
    Cert.PlainDot.matmul_zero_apply dot_S1000x128_S128x128_S1000x128_1_0_0_1_n_n rfl rfl rfl rfl rfl rfl,
    shapeCast_self, rowOf_apply]

/-- The head of width 384. -/
theorem head384_apply (x0 : Vec Ideal S1000x128 .f32) (x1 : Vec Ideal S1000x1 .f32) (x2 : Vec Ideal S1000x128 .f32)
    (x3 : Vec Ideal S128x128 .f32) (x4 : Vec Ideal S128 .f32) (x5 : Vec Ideal S128x128 .f32)
    (w : Vec Ideal S128x384 .f32) (b : Vec Ideal S384 .f32) (p : Fin 1000) (q : Fin 384) :
    k1_pay4 (F := Ideal) x0 x1 x2 x3 x5 x4 w b (ix2 p q)
      = affine (fun k : Fin 128 => k1_pay3 (F := Ideal) x0 x1 x2 x3 x5 x4 (ix2 p k)) (fun k c => w (ix2 k c)) (fun c => b (ix1 c)) q := by
  unfold k1_pay4 affine
  simp only [addf_apply, truncf_apply,
    Cert.PlainDot.matmul_zero_apply dot_S1000x128_S128x384_S1000x384_1_0_0_1_n_n rfl rfl rfl rfl rfl rfl,
    shapeCast_self, rowOf_apply]

/-- The normalised pre-activation over a hidden tile h: the lane function of an affine map of row p of h. -/
theorem pre_apply (h : FVec Ideal S1000x128 .bf16) (w : Vec Ideal S128x128 .f32) (b g be rm rv : Vec Ideal S128 .f32)
    (p : Fin 1000) (q : Fin 128) :
    k1_pay7 (F := Ideal) h w b g rm rv be (ix2 p q)
      = normLane (affine (fun k : Fin 128 => h (ix2 p k)) (fun k c => w (ix2 k c)) (fun c => b (ix1 c)) q)
          (g (ix1 q)) (rm (ix1 q)) (rv (ix1 q)) (be (ix1 q)) epsWord := by
  unfold k1_pay7 normLane affine
  simp only [addf_apply, subf_apply, mulf_apply, truncf_apply, broadcast_apply, rsqrt_apply,
    Cert.PlainDot.matmul_zero_apply dot_S1000x128_S128x128_S1000x128_1_0_0_1_n_n rfl rfl rfl rfl rfl rfl,
    shapeCast_self, rowOf_apply, Ideal.ofBits_def]

/-- The activation: tanh of the pre-activation, entry by entry. -/
theorem act_apply (v : FVec Ideal S1000x128 .f32) (p : Fin 1000) (q : Fin 128) :
    k1_pay1 (F := Ideal) v (ix2 p q) = Ideal.tanh (v (ix2 p q)) := by
  unfold k1_pay1
  rfl

/-- The head on the pre-activation: an affine map of row p of the pre-activation tile. -/
theorem preHead_apply (h : FVec Ideal S1000x128 .bf16) (w : Vec Ideal S128x128 .f32) (b g be rm rv : Vec Ideal S128 .f32)
    (w2 : Vec Ideal S128x128 .f32) (b2 : Vec Ideal S128 .f32) (p : Fin 1000) (q : Fin 128) :
    k1_pay8 (F := Ideal) h w b g rm rv be w2 b2 (ix2 p q)
      = affine (fun k : Fin 128 => k1_pay7 (F := Ideal) h w b g rm rv be (ix2 p k)) (fun k c => w2 (ix2 k c)) (fun c => b2 (ix1 c)) q := by
  unfold k1_pay8 affine
  simp only [addf_apply, truncf_apply,
    Cert.PlainDot.matmul_zero_apply dot_S1000x128_S128x128_S1000x128_1_0_0_1_n_n rfl rfl rfl rfl rfl rfl,
    shapeCast_self, rowOf_apply]

/-- The head on the activation: an affine map of tanh of row p of the pre-activation tile v. -/
theorem actHead_apply (v : FVec Ideal S1000x128 .f32) (w2 : Vec Ideal S128x128 .f32) (b2 : Vec Ideal S128 .f32) (p : Fin 1000) (q : Fin 128) :
    k1_pay2 (F := Ideal) v w2 b2 (ix2 p q)
      = affine (fun k : Fin 128 => Ideal.tanh (v (ix2 p k))) (fun k c => w2 (ix2 k c)) (fun c => b2 (ix1 c)) q := by
  unfold k1_pay2 k1_pay1 affine
  simp only [addf_apply, truncf_apply, tanh_apply,
    Cert.PlainDot.matmul_zero_apply dot_S1000x128_S128x128_S1000x128_1_0_0_1_n_n rfl rfl rfl rfl rfl rfl,
    shapeCast_self, rowOf_apply]

end Cert.KernelIdeal.Pay

end
-- ==== Proof.Arrays.lean ====
/-
  From a grid's tiles to its whole output arrays.

  Each grid walks the 50000 node rows in consecutive tiles (25 tiles of 2000 rows, then 50 tiles of 1000 rows). At a tile
  the row windows hold the tile's rows of their arrays and the weight windows hold their whole arrays, so the value stored
  for row p of tile t is the network's row function of array row (tile size) * t + p, and of the weights. The tiles are
  disjoint and exhaust the rows, so after the last tile every output array is that row function of the input arrays, row by row.
-/
import proofs.«130484_j51324859187411_2_alg».proof.Proof.FrameKernelIdeal
import proofs.«130484_j51324859187411_2_alg».proof.Proof.Spec
import proofs.«130484_j51324859187411_2_alg».proof.Proof.Pay
import Idealize.ShloMosaic.Lib.Pipeline.Value
import Idealize.ShloMosaic.Lib.ValueIdx

set_option maxRecDepth 16384

noncomputable section

open scoped BigOperators

namespace Cert.KernelIdeal.Arrays

open Cert.KernelIdeal Cert.KernelIdeal.Gen Cert.KernelIdeal.GenP Cert.GraphNet Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

/-- The zero offsets of a rank-2 block, as the constant function. -/
theorem zeros2 : (![0, 0] : Fin 2 → Nat) = fun _ => 0 := funext fun a => by fin_cases a <;> rfl
/-- The zero offset of a rank-1 block. -/
theorem zeros1 : (![0] : Fin 1 → Nat) = fun _ => 0 := funext fun a => by fin_cases a <;> rfl

/-- The normalisation at a lane depends only on its six numbers. -/
theorem normLane_congr {a a' g g' rm rm' rv rv' be be' : EReal} (eps : EReal) (ha : a = a') (hg : g = g')
    (hrm : rm = rm') (hrv : rv = rv') (hbe : be = be') : normLane a g rm rv be eps = normLane a' g' rm' rv' be' eps := by
  rw [ha, hg, hrm, hrv, hbe]

/-! # The first grid: 25 tiles of 2000 rows -/

/-- Window 0 walks the rows: at tile t its block index is (t, 0). -/
theorem index0_0 : ∀ t : Fin cfg0.N, win0_0.index t (0 : Fin 2) = t.val ∧ win0_0.index t (1 : Fin 2) = 0 :=
  (by decide +kernel : ∀ t : Fin grid0.N, _)
/-- Window 1 walks the rows: at tile t its block index is (t, 0). -/
theorem index0_1 : ∀ t : Fin cfg0.N, win0_1.index t (0 : Fin 2) = t.val ∧ win0_1.index t (1 : Fin 2) = 0 :=
  (by decide +kernel : ∀ t : Fin grid0.N, _)
/-- Window 2 walks the rows: at tile t its block index is (t, 0). -/
theorem index0_2 : ∀ t : Fin cfg0.N, win0_2.index t (0 : Fin 2) = t.val ∧ win0_2.index t (1 : Fin 2) = 0 :=
  (by decide +kernel : ∀ t : Fin grid0.N, _)
/-- Window 3 stays on its one block. -/
theorem index0_3 : ∀ t : Fin cfg0.N, win0_3.index t (0 : Fin 2) = 0 ∧ win0_3.index t (1 : Fin 2) = 0 :=
  (by decide +kernel : ∀ t : Fin grid0.N, _)
/-- Window 4 stays on its one block. -/
theorem index0_4 : ∀ t : Fin cfg0.N, win0_4.index t (0 : Fin 1) = 0 :=
  (by decide +kernel : ∀ t : Fin grid0.N, _)
/-- Window 5 stays on its one block. -/
theorem index0_5 : ∀ t : Fin cfg0.N, win0_5.index t (0 : Fin 2) = 0 ∧ win0_5.index t (1 : Fin 2) = 0 :=
  (by decide +kernel : ∀ t : Fin grid0.N, _)
/-- Window 6 walks the rows: at tile t its block index is (t, 0). -/
theorem index0_6 : ∀ t : Fin cfg0.N, win0_6.index t (0 : Fin 2) = t.val ∧ win0_6.index t (1 : Fin 2) = 0 :=
  (by decide +kernel : ∀ t : Fin grid0.N, _)

/-- Row p of window 0's block at tile t is row 2000 t + p of its array. -/
theorem read0_0 (t : Fin cfg0.N) (p : Fin 2000) (k : Fin 128) (r : Fin 50000) (hr : r.val = t.val * 2000 + p.val) :
    (iblk0 V c 0 t : Vec Ideal S2000x128 .f32) (ix2 p k) = (V c main_v24 : S50000x128.Idx → EReal) (ix2 r k) := by
  obtain ⟨e0, e1⟩ := index0_0 t
  unfold iblk0
  rw [View.read_apply]
  show V c main_v24 _ = V c main_v24 _
  congr 1
  funext a; apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row p of window 1's block at tile t is row 2000 t + p of its array. -/
theorem read0_1 (t : Fin cfg0.N) (p : Fin 2000) (k : Fin 1) (r : Fin 50000) (hr : r.val = t.val * 2000 + p.val) :
    (iblk0 V c 1 t : Vec Ideal S2000x1 .f32) (ix2 p k) = (V c main_v12 : S50000x1.Idx → EReal) (ix2 r k) := by
  obtain ⟨e0, e1⟩ := index0_1 t
  unfold iblk0
  rw [View.read_apply]
  show V c main_v12 _ = V c main_v12 _
  congr 1
  funext a; apply Fin.ext
  match a with
  | ⟨0, _⟩ => show win0_1.index t (0 : Fin 2) * 2000 + 1 * p.val = r.val; rw [e0, hr]; omega
  | ⟨1, _⟩ => show win0_1.index t (1 : Fin 2) * 1 + 1 * k.val = k.val; rw [e1]; omega

/-- Row p of window 2's block at tile t is row 2000 t + p of its array. -/
theorem read0_2 (t : Fin cfg0.N) (p : Fin 2000) (k : Fin 128) (r : Fin 50000) (hr : r.val = t.val * 2000 + p.val) :
    (iblk0 V c 2 t : Vec Ideal S2000x128 .f32) (ix2 p k) = (V c main_arg0 : S50000x128.Idx → EReal) (ix2 r k) := by
  obtain ⟨e0, e1⟩ := index0_2 t
  unfold iblk0
  rw [View.read_apply]
  show V c main_arg0 _ = V c main_arg0 _
  congr 1
  funext a; apply Fin.ext
  match a with
  | ⟨0, _⟩ => show win0_2.index t (0 : Fin 2) * 2000 + 1 * p.val = r.val; rw [e0, hr]; omega
  | ⟨1, _⟩ => show win0_2.index t (1 : Fin 2) * 128 + 1 * k.val = k.val; rw [e1]; omega

/-- Window 3's block is its whole array. -/
theorem read0_3 (t : Fin cfg0.N) (k : Fin 128) (l : Fin 128) :
    (iblk0 V c 3 t : Vec Ideal S128x128 .f32) (ix2 k l) = (V c main_arg2 : S128x128.Idx → EReal) (ix2 k l) := by
  obtain ⟨e0, e1⟩ := index0_3 t
  unfold iblk0
  rw [View.read_apply]
  show V c main_arg2 _ = V c main_arg2 _
  congr 1
  funext a; apply Fin.ext
  match a with
  | ⟨0, _⟩ => show win0_3.index t (0 : Fin 2) * 128 + 1 * k.val = k.val; rw [e0]; omega
  | ⟨1, _⟩ => show win0_3.index t (1 : Fin 2) * 128 + 1 * l.val = l.val; rw [e1]; omega

/-- Window 4's block is its whole array. -/
theorem read0_4 (t : Fin cfg0.N) (l : Fin 128) :
    (iblk0 V c 4 t : Vec Ideal S128 .f32) (ix1 l) = (V c main_arg3 : S128.Idx → EReal) (ix1 l) := by
  have e0 := index0_4 t
  unfold iblk0
  rw [View.read_apply]
  show V c main_arg3 _ = V c main_arg3 _
  congr 1
  funext a; apply Fin.ext
  match a with
  | ⟨0, _⟩ => show win0_4.index t (0 : Fin 1) * 128 + 1 * l.val = l.val; rw [e0]; omega

/-- Window 5's block is its whole array. -/
theorem read0_5 (t : Fin cfg0.N) (k : Fin 128) (l : Fin 128) :
    (iblk0 V c 5 t : Vec Ideal S128x128 .f32) (ix2 k l) = (V c main_arg4 : S128x128.Idx → EReal) (ix2 k l) := by
  obtain ⟨e0, e1⟩ := index0_5 t
  unfold iblk0
  rw [View.read_apply]
  show V c main_arg4 _ = V c main_arg4 _
  congr 1
  funext a; apply Fin.ext
  match a with
  | ⟨0, _⟩ => show win0_5.index t (0 : Fin 2) * 128 + 1 * k.val = k.val; rw [e0]; omega
  | ⟨1, _⟩ => show win0_5.index t (1 : Fin 2) * 128 + 1 * l.val = l.val; rw [e1]; omega

/-- The first layer at node r, lane q, as a function of the whole arrays. -/
def layer1 (r : Fin 50000) (q : Fin 128) : EReal :=
  layerRow (fun k : Fin 128 => HMul.hMul (α := EReal) (β := EReal) (γ := EReal) (V c main_v24 (ix2 r k)) (V c main_v12 (ix2 r 0))) (fun k : Fin 128 => V c main_arg0 (ix2 r k))
    (fun k c' => V c main_arg2 (ix2 k c')) (fun c' => V c main_arg3 (ix1 c')) (fun k c' => V c main_arg4 (ix2 k c')) q

/-- The same, as one function of the output array's index. -/
def layer1Arr : S50000x128.Idx → EReal := fun i => layer1 V c (i 0) (i 1)

/-- What tile t stores at its row p is the first layer at node 2000 t + p. -/
theorem layer1_tile (t : Fin cfg0.N) (p : Fin 2000) (q : Fin 128) (r : Fin 50000) (hr : r.val = t.val * 2000 + p.val) :
    k0_pay1 (F := Ideal) (iblk0 V c 0 t) (iblk0 V c 1 t) (iblk0 V c 2 t) (iblk0 V c 3 t) (iblk0 V c 5 t) (iblk0 V c 4 t) (ix2 p q)
      = layer1 V c r q :=
  (Pay.layer1_apply (iblk0 V c 0 t) (iblk0 V c 1 t) (iblk0 V c 2 t) (iblk0 V c 3 t) (iblk0 V c 4 t) (iblk0 V c 5 t) p q).trans
    (layerRow_congr q
      (fun k => congrArg₂ (fun a b : EReal => a * b) (read0_0 V c t p k r hr) (read0_1 V c t p 0 r hr))
      (fun k => read0_2 V c t p k r hr)
      (fun k => read0_3 V c t k q)
      (read0_4 V c t q)
      (fun k => read0_5 V c t k q))

/-- What tile t writes back is its block of the first layer's array. -/
theorem flushed0 (t : Fin cfg0.N) :
    (dat0 (F := Ideal) V c).flushed 6 t = ((cfg0.win 6).blk t).view.read (Elt Ideal) (layer1Arr V c) := by
  have hN : cfg0.N = 25 := N_0
  show (cfg0.win 6).cut (grid0.coords t) ((dat0 (F := Ideal) V c).after 6 t) = _
  rw [after0_6]
  unfold out0_6
  rw [View.canon_unit_zero zeros2]
  simp only [View.ld_unit_zero (S := S2000x128) zeros2, View.ld_unit_zero (S := S2000x1) zeros2,
    View.ld_unit_zero (S := S128x128) zeros2, View.ld_unit_zero (S := S128) zeros1]
  obtain ⟨e0, e1⟩ := index0_6 t
  funext j
  obtain ⟨p, q, rfl⟩ : ∃ (p : Fin 2000) (q : Fin 128), j = ix2 p q := ⟨j 0, j 1, eq_ix2 j⟩
  have hp : p.val < 2000 := p.isLt
  have ht := t.isLt
  obtain ⟨r, hr⟩ : ∃ r : Fin 50000, r.val = t.val * 2000 + p.val := ⟨⟨t.val * 2000 + p.val, by omega⟩, rfl⟩
  have hi : ((cfg0.win 6).blk t).view.emb (ix2 p q) = (ix2 r q : S50000x128.Idx) := by
    funext a; apply Fin.ext
    match a with
    | ⟨0, _⟩ => show win0_6.index t (0 : Fin 2) * 2000 + 1 * p.val = r.val; rw [e0, hr]; omega
    | ⟨1, _⟩ => show win0_6.index t (1 : Fin 2) * 128 + 1 * q.val = q.val; rw [e1]; omega
  show k0_pay1 (F := Ideal) (iblk0 V c 0 t) (iblk0 V c 1 t) (iblk0 V c 2 t) (iblk0 V c 3 t) (iblk0 V c 5 t) (iblk0 V c 4 t) (ix2 p q)
      = layer1Arr V c (((cfg0.win 6).blk t).view.emb (ix2 p q))
  rw [hi]
  exact layer1_tile V c t p q r hr

/-- An index of the array lies in tile t's block iff each coordinate lies in the block's range on its axis. -/
theorem mem_tile0 (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v25).slice (win0_6.rect t)).set ↔ _
  rw [View.set_slice_whole, Rect.mem_set_unit]
  exact Iff.rfl

/-- Row r lies in tile r / 2000, and 25 tiles of 2000 rows are all 50000 rows: every index is written back by some tile. -/
theorem cover0 (i : S50000x128.Idx) :
    ∃ t : Fin cfg0.N, (cfg0.win 6).flush t = true ∧ i ∈ ((cfg0.win 6).blk t).view.set := by
  have hN : cfg0.N = 25 := N_0
  have hi0 : (i 0).val < 50000 := (i 0).isLt
  have hi1 : (i 1).val < 128 := (i 1).isLt
  obtain ⟨t, ht⟩ : ∃ t : Fin cfg0.N, t.val = (i 0).val / 2000 := ⟨⟨(i 0).val / 2000, by omega⟩, rfl⟩
  obtain ⟨e0, e1⟩ := index0_6 t
  refine ⟨t, flush0_6 t, ?_⟩
  rw [mem_tile0]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 128 ≤ (i 1).val ∧ (i 1).val < win0_6.index t (1 : Fin 2) * 128 + 128
    rw [e1]; omega

/-- After the last tile the first grid's output array is the first layer, row by row. -/
theorem layer1_array : (dat0 (F := Ideal) V c).arrAt 6 cfg0.N = layer1Arr V c :=
  (dat0 (F := Ideal) V c).arrAt_eq_of_cover 6 (layer1Arr V c) (fun t _ => flushed0 V c t) (cover0)

theorem layer1_final (r : Fin 50000) (q : Fin 128) :
    (dat0 (F := Ideal) V c).arrAt 6 cfg0.N (ix2 r q)
      = layerRow (fun k : Fin 128 => HMul.hMul (α := EReal) (β := EReal) (γ := EReal) (V c main_v24 (ix2 r k)) (V c main_v12 (ix2 r 0))) (fun k : Fin 128 => V c main_arg0 (ix2 r k))
          (fun k c' => V c main_arg2 (ix2 k c')) (fun c' => V c main_arg3 (ix1 c')) (fun k c' => V c main_arg4 (ix2 k c')) q :=
  congrFun (layer1_array V c) (ix2 r q)

/-! # The second grid: 50 tiles of 1000 rows -/

/-- Window 0 walks the rows: at tile t its block index is (t, 0). -/
theorem index1_0 : ∀ t : Fin cfg1.N, win1_0.index t (0 : Fin 2) = t.val ∧ win1_0.index t (1 : Fin 2) = 0 :=
  (by decide +kernel : ∀ t : Fin grid1.N, _)
/-- Window 1 walks the rows: at tile t its block index is (t, 0). -/
theorem index1_1 : ∀ t : Fin cfg1.N, win1_1.index t (0 : Fin 2) = t.val ∧ win1_1.index t (1 : Fin 2) = 0 :=
  (by decide +kernel : ∀ t : Fin grid1.N, _)
/-- Window 2 walks the rows: at tile t its block index is (t, 0). -/
theorem index1_2 : ∀ t : Fin cfg1.N, win1_2.index t (0 : Fin 2) = t.val ∧ win1_2.index t (1 : Fin 2) = 0 :=
  (by decide +kernel : ∀ t : Fin grid1.N, _)
/-- Window 3 stays on its one block. -/
theorem index1_3 : ∀ t : Fin cfg1.N, win1_3.index t (0 : Fin 2) = 0 ∧ win1_3.index t (1 : Fin 2) = 0 :=
  (by decide +kernel : ∀ t : Fin grid1.N, _)
/-- Window 4 stays on its one block. -/
theorem index1_4 : ∀ t : Fin cfg1.N, win1_4.index t (0 : Fin 1) = 0 :=
  (by decide +kernel : ∀ t : Fin grid1.N, _)
/-- Window 5 stays on its one block. -/
theorem index1_5 : ∀ t : Fin cfg1.N, win1_5.index t (0 : Fin 2) = 0 ∧ win1_5.index t (1 : Fin 2) = 0 :=
  (by decide +kernel : ∀ t : Fin grid1.N, _)
/-- Window 6 stays on its one block. -/
theorem index1_6 : ∀ t : Fin cfg1.N, win1_6.index t (0 : Fin 2) = 0 ∧ win1_6.index t (1 : Fin 2) = 0 :=
  (by decide +kernel : ∀ t : Fin grid1.N, _)
/-- Window 7 stays on its one block. -/
theorem index1_7 : ∀ t : Fin cfg1.N, win1_7.index t (0 : Fin 1) = 0 :=
  (by decide +kernel : ∀ t : Fin grid1.N, _)
/-- Window 8 stays on its one block. -/
theorem index1_8 : ∀ t : Fin cfg1.N, win1_8.index t (0 : Fin 2) = 0 ∧ win1_8.index t (1 : Fin 2) = 0 :=
  (by decide +kernel : ∀ t : Fin grid1.N, _)
/-- Window 9 stays on its one block. -/
theorem index1_9 : ∀ t : Fin cfg1.N, win1_9.index t (0 : Fin 1) = 0 :=
  (by decide +kernel : ∀ t : Fin grid1.N, _)
/-- Window 10 stays on its one block. -/
theorem index1_10 : ∀ t : Fin cfg1.N, win1_10.index t (0 : Fin 2) = 0 ∧ win1_10.index t (1 : Fin 2) = 0 :=
  (by decide +kernel : ∀ t : Fin grid1.N, _)
/-- Window 11 stays on its one block. -/
theorem index1_11 : ∀ t : Fin cfg1.N, win1_11.index t (0 : Fin 1) = 0 :=
  (by decide +kernel : ∀ t : Fin grid1.N, _)
/-- Window 12 stays on its one block. -/
theorem index1_12 : ∀ t : Fin cfg1.N, win1_12.index t (0 : Fin 1) = 0 :=
  (by decide +kernel : ∀ t : Fin grid1.N, _)
/-- Window 13 stays on its one block. -/
theorem index1_13 : ∀ t : Fin cfg1.N, win1_13.index t (0 : Fin 1) = 0 :=
  (by decide +kernel : ∀ t : Fin grid1.N, _)
/-- Window 14 stays on its one block. -/
theorem index1_14 : ∀ t : Fin cfg1.N, win1_14.index t (0 : Fin 1) = 0 :=
  (by decide +kernel : ∀ t : Fin grid1.N, _)
/-- Window 15 stays on its one block. -/
theorem index1_15 : ∀ t : Fin cfg1.N, win1_15.index t (0 : Fin 1) = 0 :=
  (by decide +kernel : ∀ t : Fin grid1.N, _)
/-- Window 16 stays on its one block. -/
theorem index1_16 : ∀ t : Fin cfg1.N, win1_16.index t (0 : Fin 2) = 0 ∧ win1_16.index t (1 : Fin 2) = 0 :=
  (by decide +kernel : ∀ t : Fin grid1.N, _)
/-- Window 17 stays on its one block. -/
theorem index1_17 : ∀ t : Fin cfg1.N, win1_17.index t (0 : Fin 1) = 0 :=
  (by decide +kernel : ∀ t : Fin grid1.N, _)
/-- Window 18 stays on its one block. -/
theorem index1_18 : ∀ t : Fin cfg1.N, win1_18.index t (0 : Fin 2) = 0 ∧ win1_18.index t (1 : Fin 2) = 0 :=
  (by decide +kernel : ∀ t : Fin grid1.N, _)
/-- Window 19 stays on its one block. -/
theorem index1_19 : ∀ t : Fin cfg1.N, win1_19.index t (0 : Fin 1) = 0 :=
  (by decide +kernel : ∀ t : Fin grid1.N, _)
/-- Window 20 walks the rows: at tile t its block index is (t, 0). -/
theorem index1_20 : ∀ t : Fin cfg1.N, win1_20.index t (0 : Fin 2) = t.val ∧ win1_20.index t (1 : Fin 2) = 0 :=
  (by decide +kernel : ∀ t : Fin grid1.N, _)
/-- Window 21 walks the rows: at tile t its block index is (t, 0). -/
theorem index1_21 : ∀ t : Fin cfg1.N, win1_21.index t (0 : Fin 2) = t.val ∧ win1_21.index t (1 : Fin 2) = 0 :=
  (by decide +kernel : ∀ t : Fin grid1.N, _)
/-- Window 22 walks the rows: at tile t its block index is (t, 0). -/
theorem index1_22 : ∀ t : Fin cfg1.N, win1_22.index t (0 : Fin 2) = t.val ∧ win1_22.index t (1 : Fin 2) = 0 :=
  (by decide +kernel : ∀ t : Fin grid1.N, _)
/-- Window 23 walks the rows: at tile t its block index is (t, 0). -/
theorem index1_23 : ∀ t : Fin cfg1.N, win1_23.index t (0 : Fin 2) = t.val ∧ win1_23.index t (1 : Fin 2) = 0 :=
  (by decide +kernel : ∀ t : Fin grid1.N, _)
/-- Window 24 walks the rows: at tile t its block index is (t, 0). -/
theorem index1_24 : ∀ t : Fin cfg1.N, win1_24.index t (0 : Fin 2) = t.val ∧ win1_24.index t (1 : Fin 2) = 0 :=
  (by decide +kernel : ∀ t : Fin grid1.N, _)

/-- Row p of window 0's block at tile t is row 1000 t + p of its array. -/
theorem read1_0 (t : Fin cfg1.N) (p : Fin 1000) (k : Fin 128) (r : Fin 50000) (hr : r.val = t.val * 1000 + p.val) :
    (iblk1 V c 0 t : Vec Ideal S1000x128 .f32) (ix2 p k) = (V c main_v37 : S50000x128.Idx → EReal) (ix2 r k) := by
  obtain ⟨e0, e1⟩ := index1_0 t
  unfold iblk1
  rw [View.read_apply]
  show V c main_v37 _ = V c main_v37 _
  congr 1
  funext a; apply Fin.ext
  match a with
  | ⟨0, _⟩ => show win1_0.index t (0 : Fin 2) * 1000 + 1 * p.val = r.val; rw [e0, hr]; omega
  | ⟨1, _⟩ => show win1_0.index t (1 : Fin 2) * 128 + 1 * k.val = k.val; rw [e1]; omega

/-- Row p of window 1's block at tile t is row 1000 t + p of its array. -/
theorem read1_1 (t : Fin cfg1.N) (p : Fin 1000) (k : Fin 1) (r : Fin 50000) (hr : r.val = t.val * 1000 + p.val) :
    (iblk1 V c 1 t : Vec Ideal S1000x1 .f32) (ix2 p k) = (V c main_v12 : S50000x1.Idx → EReal) (ix2 r k) := by
  obtain ⟨e0, e1⟩ := index1_1 t
  unfold iblk1
  rw [View.read_apply]
  show V c main_v12 _ = V c main_v12 _
  congr 1
  funext a; apply Fin.ext
  match a with
  | ⟨0, _⟩ => show win1_1.index t (0 : Fin 2) * 1000 + 1 * p.val = r.val; rw [e0, hr]; omega
  | ⟨1, _⟩ => show win1_1.index t (1 : Fin 2) * 1 + 1 * k.val = k.val; rw [e1]; omega

/-- Row p of window 2's block at tile t is row 1000 t + p of its array. -/
theorem read1_2 (t : Fin cfg1.N) (p : Fin 1000) (k : Fin 128) (r : Fin 50000) (hr : r.val = t.val * 1000 + p.val) :
    (iblk1 V c 2 t : Vec Ideal S1000x128 .f32) (ix2 p k) = (V c main_v25 : S50000x128.Idx → EReal) (ix2 r k) := by
  obtain ⟨e0, e1⟩ := index1_2 t
  unfold iblk1
  rw [View.read_apply]
  show V c main_v25 _ = V c main_v25 _
  congr 1
  funext a; apply Fin.ext
  match a with
  | ⟨0, _⟩ => show win1_2.index t (0 : Fin 2) * 1000 + 1 * p.val = r.val; rw [e0, hr]; omega
  | ⟨1, _⟩ => show win1_2.index t (1 : Fin 2) * 128 + 1 * k.val = k.val; rw [e1]; omega

/-- Window 3's block is its whole array. -/
theorem read1_3 (t : Fin cfg1.N) (k : Fin 128) (l : Fin 128) :
    (iblk1 V c 3 t : Vec Ideal S128x128 .f32) (ix2 k l) = (V c main_arg5 : S128x128.Idx → EReal) (ix2 k l) := by
  obtain ⟨e0, e1⟩ := index1_3 t
  unfold iblk1
  rw [View.read_apply]
  show V c main_arg5 _ = V c main_arg5 _
  congr 1
  funext a; apply Fin.ext
  match a with
  | ⟨0, _⟩ => show win1_3.index t (0 : Fin 2) * 128 + 1 * k.val = k.val; rw [e0]; omega
  | ⟨1, _⟩ => show win1_3.index t (1 : Fin 2) * 128 + 1 * l.val = l.val; rw [e1]; omega

/-- Window 4's block is its whole array. -/
theorem read1_4 (t : Fin cfg1.N) (l : Fin 128) :
    (iblk1 V c 4 t : Vec Ideal S128 .f32) (ix1 l) = (V c main_arg6 : S128.Idx → EReal) (ix1 l) := by
  have e0 := index1_4 t
  unfold iblk1
  rw [View.read_apply]
  show V c main_arg6 _ = V c main_arg6 _
  congr 1
  funext a; apply Fin.ext
  match a with
  | ⟨0, _⟩ => show win1_4.index t (0 : Fin 1) * 128 + 1 * l.val = l.val; rw [e0]; omega

/-- Window 5's block is its whole array. -/
theorem read1_5 (t : Fin cfg1.N) (k : Fin 128) (l : Fin 128) :
    (iblk1 V c 5 t : Vec Ideal S128x128 .f32) (ix2 k l) = (V c main_arg7 : S128x128.Idx → EReal) (ix2 k l) := by
  obtain ⟨e0, e1⟩ := index1_5 t
  unfold iblk1
  rw [View.read_apply]
  show V c main_arg7 _ = V c main_arg7 _
  congr 1
  funext a; apply Fin.ext
  match a with
  | ⟨0, _⟩ => show win1_5.index t (0 : Fin 2) * 128 + 1 * k.val = k.val; rw [e0]; omega
  | ⟨1, _⟩ => show win1_5.index t (1 : Fin 2) * 128 + 1 * l.val = l.val; rw [e1]; omega

/-- Window 6's block is its whole array. -/
theorem read1_6 (t : Fin cfg1.N) (k : Fin 128) (l : Fin 384) :
    (iblk1 V c 6 t : Vec Ideal S128x384 .f32) (ix2 k l) = (V c main_v63 : S128x384.Idx → EReal) (ix2 k l) := by
  obtain ⟨e0, e1⟩ := index1_6 t
  unfold iblk1
  rw [View.read_apply]
  show V c main_v63 _ = V c main_v63 _
  congr 1
  funext a; apply Fin.ext
  match a with
  | ⟨0, _⟩ => show win1_6.index t (0 : Fin 2) * 128 + 1 * k.val = k.val; rw [e0]; omega
  | ⟨1, _⟩ => show win1_6.index t (1 : Fin 2) * 384 + 1 * l.val = l.val; rw [e1]; omega

/-- Window 7's block is its whole array. -/
theorem read1_7 (t : Fin cfg1.N) (l : Fin 384) :
    (iblk1 V c 7 t : Vec Ideal S384 .f32) (ix1 l) = (V c main_v65 : S384.Idx → EReal) (ix1 l) := by
  have e0 := index1_7 t
  unfold iblk1
  rw [View.read_apply]
  show V c main_v65 _ = V c main_v65 _
  congr 1
  funext a; apply Fin.ext
  match a with
  | ⟨0, _⟩ => show win1_7.index t (0 : Fin 1) * 384 + 1 * l.val = l.val; rw [e0]; omega

/-- Window 8's block is its whole array. -/
theorem read1_8 (t : Fin cfg1.N) (k : Fin 128) (l : Fin 128) :
    (iblk1 V c 8 t : Vec Ideal S128x128 .f32) (ix2 k l) = (V c main_v67 : S128x128.Idx → EReal) (ix2 k l) := by
  obtain ⟨e0, e1⟩ := index1_8 t
  unfold iblk1
  rw [View.read_apply]
  show V c main_v67 _ = V c main_v67 _
  congr 1
  funext a; apply Fin.ext
  match a with
  | ⟨0, _⟩ => show win1_8.index t (0 : Fin 2) * 128 + 1 * k.val = k.val; rw [e0]; omega
  | ⟨1, _⟩ => show win1_8.index t (1 : Fin 2) * 128 + 1 * l.val = l.val; rw [e1]; omega

/-- Window 9's block is its whole array. -/
theorem read1_9 (t : Fin cfg1.N) (l : Fin 128) :
    (iblk1 V c 9 t : Vec Ideal S128 .f32) (ix1 l) = (V c main_v69 : S128.Idx → EReal) (ix1 l) := by
  have e0 := index1_9 t
  unfold iblk1
  rw [View.read_apply]
  show V c main_v69 _ = V c main_v69 _
  congr 1
  funext a; apply Fin.ext
  match a with
  | ⟨0, _⟩ => show win1_9.index t (0 : Fin 1) * 128 + 1 * l.val = l.val; rw [e0]; omega

/-- Window 10's block is its whole array. -/
theorem read1_10 (t : Fin cfg1.N) (k : Fin 128) (l : Fin 128) :
    (iblk1 V c 10 t : Vec Ideal S128x128 .f32) (ix2 k l) = (V c main_v39 : S128x128.Idx → EReal) (ix2 k l) := by
  obtain ⟨e0, e1⟩ := index1_10 t
  unfold iblk1
  rw [View.read_apply]
  show V c main_v39 _ = V c main_v39 _
  congr 1
  funext a; apply Fin.ext
  match a with
  | ⟨0, _⟩ => show win1_10.index t (0 : Fin 2) * 128 + 1 * k.val = k.val; rw [e0]; omega
  | ⟨1, _⟩ => show win1_10.index t (1 : Fin 2) * 128 + 1 * l.val = l.val; rw [e1]; omega

/-- Window 11's block is its whole array. -/
theorem read1_11 (t : Fin cfg1.N) (l : Fin 128) :
    (iblk1 V c 11 t : Vec Ideal S128 .f32) (ix1 l) = (V c main_v41 : S128.Idx → EReal) (ix1 l) := by
  have e0 := index1_11 t
  unfold iblk1
  rw [View.read_apply]
  show V c main_v41 _ = V c main_v41 _
  congr 1
  funext a; apply Fin.ext
  match a with
  | ⟨0, _⟩ => show win1_11.index t (0 : Fin 1) * 128 + 1 * l.val = l.val; rw [e0]; omega

/-- Window 12's block is its whole array. -/
theorem read1_12 (t : Fin cfg1.N) (l : Fin 128) :
    (iblk1 V c 12 t : Vec Ideal S128 .f32) (ix1 l) = (V c main_v43 : S128.Idx → EReal) (ix1 l) := by
  have e0 := index1_12 t
  unfold iblk1
  rw [View.read_apply]
  show V c main_v43 _ = V c main_v43 _
  congr 1
  funext a; apply Fin.ext
  match a with
  | ⟨0, _⟩ => show win1_12.index t (0 : Fin 1) * 128 + 1 * l.val = l.val; rw [e0]; omega

/-- Window 13's block is its whole array. -/
theorem read1_13 (t : Fin cfg1.N) (l : Fin 128) :
    (iblk1 V c 13 t : Vec Ideal S128 .f32) (ix1 l) = (V c main_v45 : S128.Idx → EReal) (ix1 l) := by
  have e0 := index1_13 t
  unfold iblk1
  rw [View.read_apply]
  show V c main_v45 _ = V c main_v45 _
  congr 1
  funext a; apply Fin.ext
  match a with
  | ⟨0, _⟩ => show win1_13.index t (0 : Fin 1) * 128 + 1 * l.val = l.val; rw [e0]; omega

/-- Window 14's block is its whole array. -/
theorem read1_14 (t : Fin cfg1.N) (l : Fin 128) :
    (iblk1 V c 14 t : Vec Ideal S128 .f32) (ix1 l) = (V c main_v47 : S128.Idx → EReal) (ix1 l) := by
  have e0 := index1_14 t
  unfold iblk1
  rw [View.read_apply]
  show V c main_v47 _ = V c main_v47 _
  congr 1
  funext a; apply Fin.ext
  match a with
  | ⟨0, _⟩ => show win1_14.index t (0 : Fin 1) * 128 + 1 * l.val = l.val; rw [e0]; omega

/-- Window 15's block is its whole array. -/
theorem read1_15 (t : Fin cfg1.N) (l : Fin 128) :
    (iblk1 V c 15 t : Vec Ideal S128 .f32) (ix1 l) = (V c main_v49 : S128.Idx → EReal) (ix1 l) := by
  have e0 := index1_15 t
  unfold iblk1
  rw [View.read_apply]
  show V c main_v49 _ = V c main_v49 _
  congr 1
  funext a; apply Fin.ext
  match a with
  | ⟨0, _⟩ => show win1_15.index t (0 : Fin 1) * 128 + 1 * l.val = l.val; rw [e0]; omega

/-- Window 16's block is its whole array. -/
theorem read1_16 (t : Fin cfg1.N) (k : Fin 128) (l : Fin 128) :
    (iblk1 V c 16 t : Vec Ideal S128x128 .f32) (ix2 k l) = (V c main_v53 : S128x128.Idx → EReal) (ix2 k l) := by
  obtain ⟨e0, e1⟩ := index1_16 t
  unfold iblk1
  rw [View.read_apply]
  show V c main_v53 _ = V c main_v53 _
  congr 1
  funext a; apply Fin.ext
  match a with
  | ⟨0, _⟩ => show win1_16.index t (0 : Fin 2) * 128 + 1 * k.val = k.val; rw [e0]; omega
  | ⟨1, _⟩ => show win1_16.index t (1 : Fin 2) * 128 + 1 * l.val = l.val; rw [e1]; omega

/-- Window 17's block is its whole array. -/
theorem read1_17 (t : Fin cfg1.N) (l : Fin 128) :
    (iblk1 V c 17 t : Vec Ideal S128 .f32) (ix1 l) = (V c main_v55 : S128.Idx → EReal) (ix1 l) := by
  have e0 := index1_17 t
  unfold iblk1
  rw [View.read_apply]
  show V c main_v55 _ = V c main_v55 _
  congr 1
  funext a; apply Fin.ext
  match a with
  | ⟨0, _⟩ => show win1_17.index t (0 : Fin 1) * 128 + 1 * l.val = l.val; rw [e0]; omega

/-- Window 18's block is its whole array. -/
theorem read1_18 (t : Fin cfg1.N) (k : Fin 128) (l : Fin 128) :
    (iblk1 V c 18 t : Vec Ideal S128x128 .f32) (ix2 k l) = (V c main_v59 : S128x128.Idx → EReal) (ix2 k l) := by
  obtain ⟨e0, e1⟩ := index1_18 t
  unfold iblk1
  rw [View.read_apply]
  show V c main_v59 _ = V c main_v59 _
  congr 1
  funext a; apply Fin.ext
  match a with
  | ⟨0, _⟩ => show win1_18.index t (0 : Fin 2) * 128 + 1 * k.val = k.val; rw [e0]; omega
  | ⟨1, _⟩ => show win1_18.index t (1 : Fin 2) * 128 + 1 * l.val = l.val; rw [e1]; omega

/-- Window 19's block is its whole array. -/
theorem read1_19 (t : Fin cfg1.N) (l : Fin 128) :
    (iblk1 V c 19 t : Vec Ideal S128 .f32) (ix1 l) = (V c main_v61 : S128.Idx → EReal) (ix1 l) := by
  have e0 := index1_19 t
  unfold iblk1
  rw [View.read_apply]
  show V c main_v61 _ = V c main_v61 _
  congr 1
  funext a; apply Fin.ext
  match a with
  | ⟨0, _⟩ => show win1_19.index t (0 : Fin 1) * 128 + 1 * l.val = l.val; rw [e0]; omega

/-- The hidden row at node r, lane q: the second layer of the first layer's row and the node's aggregated row. -/
def hidden (r : Fin 50000) (q : Fin 128) : EReal :=
  layerRow (fun k : Fin 128 => HMul.hMul (α := EReal) (β := EReal) (γ := EReal) (V c main_v37 (ix2 r k)) (V c main_v12 (ix2 r 0))) (fun k : Fin 128 => V c main_v25 (ix2 r k))
    (fun k c' => V c main_arg5 (ix2 k c')) (fun c' => V c main_arg6 (ix1 c')) (fun k c' => V c main_arg7 (ix2 k c')) q

/-- The normalised pre-activation at node r, lane q: the lane normalisation of an affine map of the hidden row. -/
def pre (r : Fin 50000) (q : Fin 128) : EReal :=
  normLane (affine (hidden V c r) (fun k c' => V c main_v39 (ix2 k c')) (fun c' => V c main_v41 (ix1 c')) q)
    (V c main_v43 (ix1 q)) (V c main_v47 (ix1 q)) (V c main_v49 (ix1 q)) (V c main_v45 (ix1 q)) epsWord

/-- The five outputs at node r: three affine heads of the hidden row, the activation, and two affine heads of the
    pre-activation and of the activation. -/
def logits (r : Fin 50000) (q : Fin 128) : EReal :=
  affine (hidden V c r) (fun k c' => V c main_v67 (ix2 k c')) (fun c' => V c main_v69 (ix1 c')) q
def act (r : Fin 50000) (q : Fin 128) : EReal := Ideal.tanh (pre V c r q)
def fealab (r : Fin 50000) (q : Fin 384) : EReal :=
  affine (hidden V c r) (fun k c' => V c main_v63 (ix2 k c')) (fun c' => V c main_v65 (ix1 c')) q
def feaconv (r : Fin 50000) (q : Fin 128) : EReal :=
  affine (fun k : Fin 128 => Ideal.tanh (pre V c r k)) (fun k c' => V c main_v59 (ix2 k c')) (fun c' => V c main_v61 (ix1 c')) q
def truelab (r : Fin 50000) (q : Fin 128) : EReal :=
  affine (pre V c r) (fun k c' => V c main_v53 (ix2 k c')) (fun c' => V c main_v55 (ix1 c')) q

/-- At tile t the hidden tile's row p is the hidden row of node 1000 t + p. -/
theorem hidden_tile (t : Fin cfg1.N) (p : Fin 1000) (q : Fin 128) (r : Fin 50000) (hr : r.val = t.val * 1000 + p.val) :
    k1_pay3 (F := Ideal) (iblk1 V c 0 t) (iblk1 V c 1 t) (iblk1 V c 2 t) (iblk1 V c 3 t) (iblk1 V c 5 t) (iblk1 V c 4 t) (ix2 p q) = hidden V c r q :=
  (Pay.hidden_apply (iblk1 V c 0 t) (iblk1 V c 1 t) (iblk1 V c 2 t) (iblk1 V c 3 t) (iblk1 V c 4 t) (iblk1 V c 5 t) p q).trans
    (layerRow_congr q
      (fun k => congrArg₂ (fun a b : EReal => a * b) (read1_0 V c t p k r hr) (read1_1 V c t p 0 r hr))
      (fun k => read1_2 V c t p k r hr)
      (fun k => read1_3 V c t k q)
      (read1_4 V c t q)
      (fun k => read1_5 V c t k q))

/-- At tile t the pre-activation tile's row p is the pre-activation of node 1000 t + p. -/
theorem pre_tile (t : Fin cfg1.N) (p : Fin 1000) (q : Fin 128) (r : Fin 50000) (hr : r.val = t.val * 1000 + p.val) :
    k1_pay7 (F := Ideal) (k1_pay3 (F := Ideal) (iblk1 V c 0 t) (iblk1 V c 1 t) (iblk1 V c 2 t) (iblk1 V c 3 t) (iblk1 V c 5 t) (iblk1 V c 4 t)) (iblk1 V c 10 t) (iblk1 V c 11 t) (iblk1 V c 12 t) (iblk1 V c 14 t) (iblk1 V c 15 t) (iblk1 V c 13 t) (ix2 p q) = pre V c r q :=
  (Pay.pre_apply (k1_pay3 (F := Ideal) (iblk1 V c 0 t) (iblk1 V c 1 t) (iblk1 V c 2 t) (iblk1 V c 3 t) (iblk1 V c 5 t) (iblk1 V c 4 t)) (iblk1 V c 10 t) (iblk1 V c 11 t) (iblk1 V c 12 t) (iblk1 V c 13 t) (iblk1 V c 14 t) (iblk1 V c 15 t) p q).trans
    (normLane_congr epsWord
      (affine_congr q (fun k => hidden_tile V c t p k r hr) (fun k => read1_10 V c t k q) (read1_11 V c t q))
      (read1_12 V c t q) (read1_14 V c t q) (read1_15 V c t q) (read1_13 V c t q))

/-- What each output window stores at row p of tile t. -/
theorem logits_tile (t : Fin cfg1.N) (p : Fin 1000) (q : Fin 128) (r : Fin 50000) (hr : r.val = t.val * 1000 + p.val) :
    k1_pay6 (F := Ideal) (k1_pay5 (iblk1 V c 0 t) (iblk1 V c 1 t) (iblk1 V c 2 t) (iblk1 V c 3 t) (iblk1 V c 5 t) (iblk1 V c 4 t) (iblk1 V c 8 t)) (iblk1 V c 9 t) (ix2 p q) = logits V c r q :=
  (Pay.head128_apply (iblk1 V c 0 t) (iblk1 V c 1 t) (iblk1 V c 2 t) (iblk1 V c 3 t) (iblk1 V c 4 t) (iblk1 V c 5 t) (iblk1 V c 8 t) (iblk1 V c 9 t) p q).trans
    (affine_congr q (fun k => hidden_tile V c t p k r hr) (fun k => read1_8 V c t k q) (read1_9 V c t q))

theorem act_tile (t : Fin cfg1.N) (p : Fin 1000) (q : Fin 128) (r : Fin 50000) (hr : r.val = t.val * 1000 + p.val) :
    k1_pay1 (F := Ideal) (k1_pay7 (F := Ideal) (k1_pay3 (F := Ideal) (iblk1 V c 0 t) (iblk1 V c 1 t) (iblk1 V c 2 t) (iblk1 V c 3 t) (iblk1 V c 5 t) (iblk1 V c 4 t)) (iblk1 V c 10 t) (iblk1 V c 11 t) (iblk1 V c 12 t) (iblk1 V c 14 t) (iblk1 V c 15 t) (iblk1 V c 13 t)) (ix2 p q) = act V c r q :=
  (Pay.act_apply (k1_pay7 (F := Ideal) (k1_pay3 (F := Ideal) (iblk1 V c 0 t) (iblk1 V c 1 t) (iblk1 V c 2 t) (iblk1 V c 3 t) (iblk1 V c 5 t) (iblk1 V c 4 t)) (iblk1 V c 10 t) (iblk1 V c 11 t) (iblk1 V c 12 t) (iblk1 V c 14 t) (iblk1 V c 15 t) (iblk1 V c 13 t)) p q).trans (congrArg Ideal.tanh (pre_tile V c t p q r hr))

theorem fealab_tile (t : Fin cfg1.N) (p : Fin 1000) (q : Fin 384) (r : Fin 50000) (hr : r.val = t.val * 1000 + p.val) :
    k1_pay4 (F := Ideal) (iblk1 V c 0 t) (iblk1 V c 1 t) (iblk1 V c 2 t) (iblk1 V c 3 t) (iblk1 V c 5 t) (iblk1 V c 4 t) (iblk1 V c 6 t) (iblk1 V c 7 t) (ix2 p q) = fealab V c r q :=
  (Pay.head384_apply (iblk1 V c 0 t) (iblk1 V c 1 t) (iblk1 V c 2 t) (iblk1 V c 3 t) (iblk1 V c 4 t) (iblk1 V c 5 t) (iblk1 V c 6 t) (iblk1 V c 7 t) p q).trans
    (affine_congr q (fun k => hidden_tile V c t p k r hr) (fun k => read1_6 V c t k q) (read1_7 V c t q))

theorem feaconv_tile (t : Fin cfg1.N) (p : Fin 1000) (q : Fin 128) (r : Fin 50000) (hr : r.val = t.val * 1000 + p.val) :
    k1_pay2 (F := Ideal) (k1_pay7 (F := Ideal) (k1_pay3 (F := Ideal) (iblk1 V c 0 t) (iblk1 V c 1 t) (iblk1 V c 2 t) (iblk1 V c 3 t) (iblk1 V c 5 t) (iblk1 V c 4 t)) (iblk1 V c 10 t) (iblk1 V c 11 t) (iblk1 V c 12 t) (iblk1 V c 14 t) (iblk1 V c 15 t) (iblk1 V c 13 t)) (iblk1 V c 18 t) (iblk1 V c 19 t) (ix2 p q) = feaconv V c r q :=
  (Pay.actHead_apply (k1_pay7 (F := Ideal) (k1_pay3 (F := Ideal) (iblk1 V c 0 t) (iblk1 V c 1 t) (iblk1 V c 2 t) (iblk1 V c 3 t) (iblk1 V c 5 t) (iblk1 V c 4 t)) (iblk1 V c 10 t) (iblk1 V c 11 t) (iblk1 V c 12 t) (iblk1 V c 14 t) (iblk1 V c 15 t) (iblk1 V c 13 t)) (iblk1 V c 18 t) (iblk1 V c 19 t) p q).trans
    (affine_congr q (fun k => congrArg Ideal.tanh (pre_tile V c t p k r hr)) (fun k => read1_18 V c t k q) (read1_19 V c t q))

theorem truelab_tile (t : Fin cfg1.N) (p : Fin 1000) (q : Fin 128) (r : Fin 50000) (hr : r.val = t.val * 1000 + p.val) :
    k1_pay8 (F := Ideal) (k1_pay3 (F := Ideal) (iblk1 V c 0 t) (iblk1 V c 1 t) (iblk1 V c 2 t) (iblk1 V c 3 t) (iblk1 V c 5 t) (iblk1 V c 4 t)) (iblk1 V c 10 t) (iblk1 V c 11 t) (iblk1 V c 12 t) (iblk1 V c 14 t) (iblk1 V c 15 t) (iblk1 V c 13 t) (iblk1 V c 16 t) (iblk1 V c 17 t) (ix2 p q) = truelab V c r q :=
  (Pay.preHead_apply (k1_pay3 (F := Ideal) (iblk1 V c 0 t) (iblk1 V c 1 t) (iblk1 V c 2 t) (iblk1 V c 3 t) (iblk1 V c 5 t) (iblk1 V c 4 t)) (iblk1 V c 10 t) (iblk1 V c 11 t) (iblk1 V c 12 t) (iblk1 V c 13 t) (iblk1 V c 14 t) (iblk1 V c 15 t) (iblk1 V c 16 t) (iblk1 V c 17 t) p q).trans
    (affine_congr q (fun k => pre_tile V c t p k r hr) (fun k => read1_16 V c t k q) (read1_17 V c t q))

/-! ## Output window 20 -/

/-- The array of window 20 as one function of its index. -/
def logitsArr : S50000x128.Idx → EReal := fun i => logits V c (i 0) (i 1)

/-- What tile t writes back through window 20 is its block of that array. -/
theorem written_logits (t : Fin cfg1.N) :
    (dat1 (F := Ideal) V c).flushed 20 t = ((cfg1.win 20).blk t).view.read (Elt Ideal) (logitsArr V c) := by
  have hN : cfg1.N = 50 := N_1
  show (cfg1.win 20).cut (grid1.coords t) ((dat1 (F := Ideal) V c).after 20 t) = _
  rw [after1_20]
  unfold out1_20
  rw [View.canon_unit_zero zeros2]
  simp only [View.ld_unit_zero (S := S1000x128) zeros2, View.ld_unit_zero (S := S1000x1) zeros2,
    View.ld_unit_zero (S := S128x128) zeros2, View.ld_unit_zero (S := S128) zeros1,
    View.ld_unit_zero (S := S128x384) zeros2, View.ld_unit_zero (S := S384) zeros1]
  obtain ⟨e0, e1⟩ := index1_20 t
  funext j
  obtain ⟨p, q, rfl⟩ : ∃ (p : Fin 1000) (q : Fin 128), j = ix2 p q := ⟨j 0, j 1, eq_ix2 j⟩
  have hp : p.val < 1000 := p.isLt
  have ht := t.isLt
  obtain ⟨r, hr⟩ : ∃ r : Fin 50000, r.val = t.val * 1000 + p.val := ⟨⟨t.val * 1000 + p.val, by omega⟩, rfl⟩
  have hi : ((cfg1.win 20).blk t).view.emb (ix2 p q) = (ix2 r q : S50000x128.Idx) := by
    funext a; apply Fin.ext
    match a with
    | ⟨0, _⟩ => show win1_20.index t (0 : Fin 2) * 1000 + 1 * p.val = r.val; rw [e0, hr]; omega
    | ⟨1, _⟩ => show win1_20.index t (1 : Fin 2) * 128 + 1 * q.val = q.val; rw [e1]; omega
  show k1_pay6 (F := Ideal) (k1_pay5 (iblk1 V c 0 t) (iblk1 V c 1 t) (iblk1 V c 2 t) (iblk1 V c 3 t) (iblk1 V c 5 t) (iblk1 V c 4 t) (iblk1 V c 8 t)) (iblk1 V c 9 t) (ix2 p q)
      = logitsArr V c (((cfg1.win 20).blk t).view.emb (ix2 p q))
  rw [hi]
  exact logits_tile V c t p q r hr

/-- An index of the array lies in tile t's block of window 20 iff each coordinate lies in the block's range on its axis. -/
theorem mem_tile_logits (t : Fin cfg1.N) (i : S50000x128.Idx) :
    i ∈ ((cfg1.win 20).blk t).view.set ↔ ∀ a : Fin 2, win1_20.index t a * S1000x128.size a ≤ (i a).val
      ∧ (i a).val < win1_20.index t a * S1000x128.size a + S1000x128.size a := by
  show i ∈ ((View.whole main_v70_0).slice (win1_20.rect t)).set ↔ _
  rw [View.set_slice_whole, Rect.mem_set_unit]
  exact Iff.rfl

/-- Row r lies in tile r / 1000, and 50 tiles of 1000 rows are all 50000 rows. -/
theorem covered_logits (i : S50000x128.Idx) :
    ∃ t : Fin cfg1.N, (cfg1.win 20).flush t = true ∧ i ∈ ((cfg1.win 20).blk t).view.set := by
  have hN : cfg1.N = 50 := N_1
  have hi0 : (i 0).val < 50000 := (i 0).isLt
  have hi1 : (i 1).val < 128 := (i 1).isLt
  obtain ⟨t, ht⟩ : ∃ t : Fin cfg1.N, t.val = (i 0).val / 1000 := ⟨⟨(i 0).val / 1000, by omega⟩, rfl⟩
  obtain ⟨e0, e1⟩ := index1_20 t
  refine ⟨t, flush1_20 t, ?_⟩
  rw [mem_tile_logits]
  intro a
  match a with
  | ⟨0, _⟩ =>
    show win1_20.index t (0 : Fin 2) * 1000 ≤ (i 0).val ∧ (i 0).val < win1_20.index t (0 : Fin 2) * 1000 + 1000
    rw [e0, ht]; omega
  | ⟨1, _⟩ =>
    show win1_20.index t (1 : Fin 2) * 128 ≤ (i 1).val ∧ (i 1).val < win1_20.index t (1 : Fin 2) * 128 + 128
    rw [e1]; omega

/-- After the last tile the array of window 20 is that function, row by row. -/
theorem logits_array : (dat1 (F := Ideal) V c).arrAt 20 cfg1.N = logitsArr V c :=
  (dat1 (F := Ideal) V c).arrAt_eq_of_cover 20 (logitsArr V c) (fun t _ => written_logits V c t) (covered_logits)

theorem logits_final (r : Fin 50000) (q : Fin 128) :
    (dat1 (F := Ideal) V c).arrAt 20 cfg1.N (ix2 r q)
      = affine (hidden V c r) (fun k c' => V c main_v67 (ix2 k c')) (fun c' => V c main_v69 (ix1 c')) q :=
  congrFun (logits_array V c) (ix2 r q)

/-! ## Output window 21 -/

/-- The array of window 21 as one function of its index. -/
def actArr : S50000x128.Idx → EReal := fun i => act V c (i 0) (i 1)

/-- What tile t writes back through window 21 is its block of that array. -/
theorem written_act (t : Fin cfg1.N) :
    (dat1 (F := Ideal) V c).flushed 21 t = ((cfg1.win 21).blk t).view.read (Elt Ideal) (actArr V c) := by
  have hN : cfg1.N = 50 := N_1
  show (cfg1.win 21).cut (grid1.coords t) ((dat1 (F := Ideal) V c).after 21 t) = _
  rw [after1_21]
  unfold out1_21
  rw [View.canon_unit_zero zeros2]
  simp only [View.ld_unit_zero (S := S1000x128) zeros2, View.ld_unit_zero (S := S1000x1) zeros2,
    View.ld_unit_zero (S := S128x128) zeros2, View.ld_unit_zero (S := S128) zeros1,
    View.ld_unit_zero (S := S128x384) zeros2, View.ld_unit_zero (S := S384) zeros1]
  obtain ⟨e0, e1⟩ := index1_21 t
  funext j
  obtain ⟨p, q, rfl⟩ : ∃ (p : Fin 1000) (q : Fin 128), j = ix2 p q := ⟨j 0, j 1, eq_ix2 j⟩
  have hp : p.val < 1000 := p.isLt
  have ht := t.isLt
  obtain ⟨r, hr⟩ : ∃ r : Fin 50000, r.val = t.val * 1000 + p.val := ⟨⟨t.val * 1000 + p.val, by omega⟩, rfl⟩
  have hi : ((cfg1.win 21).blk t).view.emb (ix2 p q) = (ix2 r q : S50000x128.Idx) := by
    funext a; apply Fin.ext
    match a with
    | ⟨0, _⟩ => show win1_21.index t (0 : Fin 2) * 1000 + 1 * p.val = r.val; rw [e0, hr]; omega
    | ⟨1, _⟩ => show win1_21.index t (1 : Fin 2) * 128 + 1 * q.val = q.val; rw [e1]; omega
  show k1_pay1 (F := Ideal) (k1_pay7 (F := Ideal) (k1_pay3 (F := Ideal) (iblk1 V c 0 t) (iblk1 V c 1 t) (iblk1 V c 2 t) (iblk1 V c 3 t) (iblk1 V c 5 t) (iblk1 V c 4 t)) (iblk1 V c 10 t) (iblk1 V c 11 t) (iblk1 V c 12 t) (iblk1 V c 14 t) (iblk1 V c 15 t) (iblk1 V c 13 t)) (ix2 p q)
      = actArr V c (((cfg1.win 21).blk t).view.emb (ix2 p q))
  rw [hi]
  exact act_tile V c t p q r hr

/-- An index of the array lies in tile t's block of window 21 iff each coordinate lies in the block's range on its axis. -/
theorem mem_tile_act (t : Fin cfg1.N) (i : S50000x128.Idx) :
    i ∈ ((cfg1.win 21).blk t).view.set ↔ ∀ a : Fin 2, win1_21.index t a * S1000x128.size a ≤ (i a).val
      ∧ (i a).val < win1_21.index t a * S1000x128.size a + S1000x128.size a := by
  show i ∈ ((View.whole main_v70_1).slice (win1_21.rect t)).set ↔ _
  rw [View.set_slice_whole, Rect.mem_set_unit]
  exact Iff.rfl

/-- Row r lies in tile r / 1000, and 50 tiles of 1000 rows are all 50000 rows. -/
theorem covered_act (i : S50000x128.Idx) :
    ∃ t : Fin cfg1.N, (cfg1.win 21).flush t = true ∧ i ∈ ((cfg1.win 21).blk t).view.set := by
  have hN : cfg1.N = 50 := N_1
  have hi0 : (i 0).val < 50000 := (i 0).isLt
  have hi1 : (i 1).val < 128 := (i 1).isLt
  obtain ⟨t, ht⟩ : ∃ t : Fin cfg1.N, t.val = (i 0).val / 1000 := ⟨⟨(i 0).val / 1000, by omega⟩, rfl⟩
  obtain ⟨e0, e1⟩ := index1_21 t
  refine ⟨t, flush1_21 t, ?_⟩
  rw [mem_tile_act]
  intro a
  match a with
  | ⟨0, _⟩ =>
    show win1_21.index t (0 : Fin 2) * 1000 ≤ (i 0).val ∧ (i 0).val < win1_21.index t (0 : Fin 2) * 1000 + 1000
    rw [e0, ht]; omega
  | ⟨1, _⟩ =>
    show win1_21.index t (1 : Fin 2) * 128 ≤ (i 1).val ∧ (i 1).val < win1_21.index t (1 : Fin 2) * 128 + 128
    rw [e1]; omega

/-- After the last tile the array of window 21 is that function, row by row. -/
theorem act_array : (dat1 (F := Ideal) V c).arrAt 21 cfg1.N = actArr V c :=
  (dat1 (F := Ideal) V c).arrAt_eq_of_cover 21 (actArr V c) (fun t _ => written_act V c t) (covered_act)

theorem act_final (r : Fin 50000) (q : Fin 128) :
    (dat1 (F := Ideal) V c).arrAt 21 cfg1.N (ix2 r q)
      = Ideal.tanh (pre V c r q) :=
  congrFun (act_array V c) (ix2 r q)

/-! ## Output window 22 -/

/-- The array of window 22 as one function of its index. -/
def fealabArr : S50000x384.Idx → EReal := fun i => fealab V c (i 0) (i 1)

/-- What tile t writes back through window 22 is its block of that array. -/
theorem written_fealab (t : Fin cfg1.N) :
    (dat1 (F := Ideal) V c).flushed 22 t = ((cfg1.win 22).blk t).view.read (Elt Ideal) (fealabArr V c) := by
  have hN : cfg1.N = 50 := N_1
  show (cfg1.win 22).cut (grid1.coords t) ((dat1 (F := Ideal) V c).after 22 t) = _
  rw [after1_22]
  unfold out1_22
  rw [View.canon_unit_zero zeros2]
  simp only [View.ld_unit_zero (S := S1000x128) zeros2, View.ld_unit_zero (S := S1000x1) zeros2,
    View.ld_unit_zero (S := S128x128) zeros2, View.ld_unit_zero (S := S128) zeros1,
    View.ld_unit_zero (S := S128x384) zeros2, View.ld_unit_zero (S := S384) zeros1]
  obtain ⟨e0, e1⟩ := index1_22 t
  funext j
  obtain ⟨p, q, rfl⟩ : ∃ (p : Fin 1000) (q : Fin 384), j = ix2 p q := ⟨j 0, j 1, eq_ix2 j⟩
  have hp : p.val < 1000 := p.isLt
  have ht := t.isLt
  obtain ⟨r, hr⟩ : ∃ r : Fin 50000, r.val = t.val * 1000 + p.val := ⟨⟨t.val * 1000 + p.val, by omega⟩, rfl⟩
  have hi : ((cfg1.win 22).blk t).view.emb (ix2 p q) = (ix2 r q : S50000x384.Idx) := by
    funext a; apply Fin.ext
    match a with
    | ⟨0, _⟩ => show win1_22.index t (0 : Fin 2) * 1000 + 1 * p.val = r.val; rw [e0, hr]; omega
    | ⟨1, _⟩ => show win1_22.index t (1 : Fin 2) * 384 + 1 * q.val = q.val; rw [e1]; omega
  show k1_pay4 (F := Ideal) (iblk1 V c 0 t) (iblk1 V c 1 t) (iblk1 V c 2 t) (iblk1 V c 3 t) (iblk1 V c 5 t) (iblk1 V c 4 t) (iblk1 V c 6 t) (iblk1 V c 7 t) (ix2 p q)
      = fealabArr V c (((cfg1.win 22).blk t).view.emb (ix2 p q))
  rw [hi]
  exact fealab_tile V c t p q r hr

/-- An index of the array lies in tile t's block of window 22 iff each coordinate lies in the block's range on its axis. -/
theorem mem_tile_fealab (t : Fin cfg1.N) (i : S50000x384.Idx) :
    i ∈ ((cfg1.win 22).blk t).view.set ↔ ∀ a : Fin 2, win1_22.index t a * S1000x384.size a ≤ (i a).val
      ∧ (i a).val < win1_22.index t a * S1000x384.size a + S1000x384.size a := by
  show i ∈ ((View.whole main_v70_2).slice (win1_22.rect t)).set ↔ _
  rw [View.set_slice_whole, Rect.mem_set_unit]
  exact Iff.rfl

/-- Row r lies in tile r / 1000, and 50 tiles of 1000 rows are all 50000 rows. -/
theorem covered_fealab (i : S50000x384.Idx) :
    ∃ t : Fin cfg1.N, (cfg1.win 22).flush t = true ∧ i ∈ ((cfg1.win 22).blk t).view.set := by
  have hN : cfg1.N = 50 := N_1
  have hi0 : (i 0).val < 50000 := (i 0).isLt
  have hi1 : (i 1).val < 384 := (i 1).isLt
  obtain ⟨t, ht⟩ : ∃ t : Fin cfg1.N, t.val = (i 0).val / 1000 := ⟨⟨(i 0).val / 1000, by omega⟩, rfl⟩
  obtain ⟨e0, e1⟩ := index1_22 t
  refine ⟨t, flush1_22 t, ?_⟩
  rw [mem_tile_fealab]
  intro a
  match a with
  | ⟨0, _⟩ =>
    show win1_22.index t (0 : Fin 2) * 1000 ≤ (i 0).val ∧ (i 0).val < win1_22.index t (0 : Fin 2) * 1000 + 1000
    rw [e0, ht]; omega
  | ⟨1, _⟩ =>
    show win1_22.index t (1 : Fin 2) * 384 ≤ (i 1).val ∧ (i 1).val < win1_22.index t (1 : Fin 2) * 384 + 384
    rw [e1]; omega

/-- After the last tile the array of window 22 is that function, row by row. -/
theorem fealab_array : (dat1 (F := Ideal) V c).arrAt 22 cfg1.N = fealabArr V c :=
  (dat1 (F := Ideal) V c).arrAt_eq_of_cover 22 (fealabArr V c) (fun t _ => written_fealab V c t) (covered_fealab)

theorem fealab_final (r : Fin 50000) (q : Fin 384) :
    (dat1 (F := Ideal) V c).arrAt 22 cfg1.N (ix2 r q)
      = affine (hidden V c r) (fun k c' => V c main_v63 (ix2 k c')) (fun c' => V c main_v65 (ix1 c')) q :=
  congrFun (fealab_array V c) (ix2 r q)

/-! ## Output window 23 -/

/-- The array of window 23 as one function of its index. -/
def feaconvArr : S50000x128.Idx → EReal := fun i => feaconv V c (i 0) (i 1)

/-- What tile t writes back through window 23 is its block of that array. -/
theorem written_feaconv (t : Fin cfg1.N) :
    (dat1 (F := Ideal) V c).flushed 23 t = ((cfg1.win 23).blk t).view.read (Elt Ideal) (feaconvArr V c) := by
  have hN : cfg1.N = 50 := N_1
  show (cfg1.win 23).cut (grid1.coords t) ((dat1 (F := Ideal) V c).after 23 t) = _
  rw [after1_23]
  unfold out1_23
  rw [View.canon_unit_zero zeros2]
  simp only [View.ld_unit_zero (S := S1000x128) zeros2, View.ld_unit_zero (S := S1000x1) zeros2,
    View.ld_unit_zero (S := S128x128) zeros2, View.ld_unit_zero (S := S128) zeros1,
    View.ld_unit_zero (S := S128x384) zeros2, View.ld_unit_zero (S := S384) zeros1]
  obtain ⟨e0, e1⟩ := index1_23 t
  funext j
  obtain ⟨p, q, rfl⟩ : ∃ (p : Fin 1000) (q : Fin 128), j = ix2 p q := ⟨j 0, j 1, eq_ix2 j⟩
  have hp : p.val < 1000 := p.isLt
  have ht := t.isLt
  obtain ⟨r, hr⟩ : ∃ r : Fin 50000, r.val = t.val * 1000 + p.val := ⟨⟨t.val * 1000 + p.val, by omega⟩, rfl⟩
  have hi : ((cfg1.win 23).blk t).view.emb (ix2 p q) = (ix2 r q : S50000x128.Idx) := by
    funext a; apply Fin.ext
    match a with
    | ⟨0, _⟩ => show win1_23.index t (0 : Fin 2) * 1000 + 1 * p.val = r.val; rw [e0, hr]; omega
    | ⟨1, _⟩ => show win1_23.index t (1 : Fin 2) * 128 + 1 * q.val = q.val; rw [e1]; omega
  show k1_pay2 (F := Ideal) (k1_pay7 (F := Ideal) (k1_pay3 (F := Ideal) (iblk1 V c 0 t) (iblk1 V c 1 t) (iblk1 V c 2 t) (iblk1 V c 3 t) (iblk1 V c 5 t) (iblk1 V c 4 t)) (iblk1 V c 10 t) (iblk1 V c 11 t) (iblk1 V c 12 t) (iblk1 V c 14 t) (iblk1 V c 15 t) (iblk1 V c 13 t)) (iblk1 V c 18 t) (iblk1 V c 19 t) (ix2 p q)
      = feaconvArr V c (((cfg1.win 23).blk t).view.emb (ix2 p q))
  rw [hi]
  exact feaconv_tile V c t p q r hr

/-- An index of the array lies in tile t's block of window 23 iff each coordinate lies in the block's range on its axis. -/
theorem mem_tile_feaconv (t : Fin cfg1.N) (i : S50000x128.Idx) :
    i ∈ ((cfg1.win 23).blk t).view.set ↔ ∀ a : Fin 2, win1_23.index t a * S1000x128.size a ≤ (i a).val
      ∧ (i a).val < win1_23.index t a * S1000x128.size a + S1000x128.size a := by
  show i ∈ ((View.whole main_v70_3).slice (win1_23.rect t)).set ↔ _
  rw [View.set_slice_whole, Rect.mem_set_unit]
  exact Iff.rfl

/-- Row r lies in tile r / 1000, and 50 tiles of 1000 rows are all 50000 rows. -/
theorem covered_feaconv (i : S50000x128.Idx) :
    ∃ t : Fin cfg1.N, (cfg1.win 23).flush t = true ∧ i ∈ ((cfg1.win 23).blk t).view.set := by
  have hN : cfg1.N = 50 := N_1
  have hi0 : (i 0).val < 50000 := (i 0).isLt
  have hi1 : (i 1).val < 128 := (i 1).isLt
  obtain ⟨t, ht⟩ : ∃ t : Fin cfg1.N, t.val = (i 0).val / 1000 := ⟨⟨(i 0).val / 1000, by omega⟩, rfl⟩
  obtain ⟨e0, e1⟩ := index1_23 t
  refine ⟨t, flush1_23 t, ?_⟩
  rw [mem_tile_feaconv]
  intro a
  match a with
  | ⟨0, _⟩ =>
    show win1_23.index t (0 : Fin 2) * 1000 ≤ (i 0).val ∧ (i 0).val < win1_23.index t (0 : Fin 2) * 1000 + 1000
    rw [e0, ht]; omega
  | ⟨1, _⟩ =>
    show win1_23.index t (1 : Fin 2) * 128 ≤ (i 1).val ∧ (i 1).val < win1_23.index t (1 : Fin 2) * 128 + 128
    rw [e1]; omega

/-- After the last tile the array of window 23 is that function, row by row. -/
theorem feaconv_array : (dat1 (F := Ideal) V c).arrAt 23 cfg1.N = feaconvArr V c :=
  (dat1 (F := Ideal) V c).arrAt_eq_of_cover 23 (feaconvArr V c) (fun t _ => written_feaconv V c t) (covered_feaconv)

theorem feaconv_final (r : Fin 50000) (q : Fin 128) :
    (dat1 (F := Ideal) V c).arrAt 23 cfg1.N (ix2 r q)
      = affine (fun k : Fin 128 => Ideal.tanh (pre V c r k)) (fun k c' => V c main_v59 (ix2 k c')) (fun c' => V c main_v61 (ix1 c')) q :=
  congrFun (feaconv_array V c) (ix2 r q)

/-! ## Output window 24 -/

/-- The array of window 24 as one function of its index. -/
def truelabArr : S50000x128.Idx → EReal := fun i => truelab V c (i 0) (i 1)

/-- What tile t writes back through window 24 is its block of that array. -/
theorem written_truelab (t : Fin cfg1.N) :
    (dat1 (F := Ideal) V c).flushed 24 t = ((cfg1.win 24).blk t).view.read (Elt Ideal) (truelabArr V c) := by
  have hN : cfg1.N = 50 := N_1
  show (cfg1.win 24).cut (grid1.coords t) ((dat1 (F := Ideal) V c).after 24 t) = _
  rw [after1_24]
  unfold out1_24
  rw [View.canon_unit_zero zeros2]
  simp only [View.ld_unit_zero (S := S1000x128) zeros2, View.ld_unit_zero (S := S1000x1) zeros2,
    View.ld_unit_zero (S := S128x128) zeros2, View.ld_unit_zero (S := S128) zeros1,
    View.ld_unit_zero (S := S128x384) zeros2, View.ld_unit_zero (S := S384) zeros1]
  obtain ⟨e0, e1⟩ := index1_24 t
  funext j
  obtain ⟨p, q, rfl⟩ : ∃ (p : Fin 1000) (q : Fin 128), j = ix2 p q := ⟨j 0, j 1, eq_ix2 j⟩
  have hp : p.val < 1000 := p.isLt
  have ht := t.isLt
  obtain ⟨r, hr⟩ : ∃ r : Fin 50000, r.val = t.val * 1000 + p.val := ⟨⟨t.val * 1000 + p.val, by omega⟩, rfl⟩
  have hi : ((cfg1.win 24).blk t).view.emb (ix2 p q) = (ix2 r q : S50000x128.Idx) := by
    funext a; apply Fin.ext
    match a with
    | ⟨0, _⟩ => show win1_24.index t (0 : Fin 2) * 1000 + 1 * p.val = r.val; rw [e0, hr]; omega
    | ⟨1, _⟩ => show win1_24.index t (1 : Fin 2) * 128 + 1 * q.val = q.val; rw [e1]; omega
  show k1_pay8 (F := Ideal) (k1_pay3 (F := Ideal) (iblk1 V c 0 t) (iblk1 V c 1 t) (iblk1 V c 2 t) (iblk1 V c 3 t) (iblk1 V c 5 t) (iblk1 V c 4 t)) (iblk1 V c 10 t) (iblk1 V c 11 t) (iblk1 V c 12 t) (iblk1 V c 14 t) (iblk1 V c 15 t) (iblk1 V c 13 t) (iblk1 V c 16 t) (iblk1 V c 17 t) (ix2 p q)
      = truelabArr V c (((cfg1.win 24).blk t).view.emb (ix2 p q))
  rw [hi]
  exact truelab_tile V c t p q r hr

/-- An index of the array lies in tile t's block of window 24 iff each coordinate lies in the block's range on its axis. -/
theorem mem_tile_truelab (t : Fin cfg1.N) (i : S50000x128.Idx) :
    i ∈ ((cfg1.win 24).blk t).view.set ↔ ∀ a : Fin 2, win1_24.index t a * S1000x128.size a ≤ (i a).val
      ∧ (i a).val < win1_24.index t a * S1000x128.size a + S1000x128.size a := by
  show i ∈ ((View.whole main_v70_4).slice (win1_24.rect t)).set ↔ _
  rw [View.set_slice_whole, Rect.mem_set_unit]
  exact Iff.rfl

/-- Row r lies in tile r / 1000, and 50 tiles of 1000 rows are all 50000 rows. -/
theorem covered_truelab (i : S50000x128.Idx) :
    ∃ t : Fin cfg1.N, (cfg1.win 24).flush t = true ∧ i ∈ ((cfg1.win 24).blk t).view.set := by
  have hN : cfg1.N = 50 := N_1
  have hi0 : (i 0).val < 50000 := (i 0).isLt
  have hi1 : (i 1).val < 128 := (i 1).isLt
  obtain ⟨t, ht⟩ : ∃ t : Fin cfg1.N, t.val = (i 0).val / 1000 := ⟨⟨(i 0).val / 1000, by omega⟩, rfl⟩
  obtain ⟨e0, e1⟩ := index1_24 t
  refine ⟨t, flush1_24 t, ?_⟩
  rw [mem_tile_truelab]
  intro a
  match a with
  | ⟨0, _⟩ =>
    show win1_24.index t (0 : Fin 2) * 1000 ≤ (i 0).val ∧ (i 0).val < win1_24.index t (0 : Fin 2) * 1000 + 1000
    rw [e0, ht]; omega
  | ⟨1, _⟩ =>
    show win1_24.index t (1 : Fin 2) * 128 ≤ (i 1).val ∧ (i 1).val < win1_24.index t (1 : Fin 2) * 128 + 128
    rw [e1]; omega

/-- After the last tile the array of window 24 is that function, row by row. -/
theorem truelab_array : (dat1 (F := Ideal) V c).arrAt 24 cfg1.N = truelabArr V c :=
  (dat1 (F := Ideal) V c).arrAt_eq_of_cover 24 (truelabArr V c) (fun t _ => written_truelab V c t) (covered_truelab)

theorem truelab_final (r : Fin 50000) (q : Fin 128) :
    (dat1 (F := Ideal) V c).arrAt 24 cfg1.N (ix2 r q)
      = affine (pre V c r) (fun k c' => V c main_v53 (ix2 k c')) (fun c' => V c main_v55 (ix1 c')) q :=
  congrFun (truelab_array V c) (ix2 r q)

end Cert.KernelIdeal.Arrays

end
-- ==== Proof.RefRead.lean ====
/-
  The reference network read at one node and one output lane.

  The neighbour sums and the neighbour counts are the only stages of the reference whose entries depend on the edge
  list; they stay unopened here. Every other stage acts on one node's row: a mean is the node's neighbour sum
  divided lane by lane by the larger of its neighbour count and one, a layer is the relu of
  (mean · Wl + bl) + row · Wr, the three heads over the hidden row are affine maps, the normalisation acts lane
  by lane on an affine map of the hidden row, and the last two heads are affine maps of the normalised row and of
  its hyperbolic tangent. Each statement below reads one of these stages at node r and lane q as the per-row
  function of the specification applied to the rows and weight entries it uses, down to the previous named stage
  and no further.

  Every proof has the same three steps. A product's entry (r, q) is a sum over the contraction index k of a left
  entry at (r, k) and a right entry at (k, q); a bias of length C, viewed first as a 1 × C row and then repeated down
  the nodes, is read at lane q whatever the node; a count column repeated across the lanes is read at (r, 0).
  These coordinate identities hold coordinate by coordinate. With them the stage unfolds, one operation at a time,
  into the sums, differences, products, maxima and quotients of the extended reals in the order the specification
  writes them, and the two sides are then the same term. The only float word evaluated is the relu's zero.
-/
import proofs.«130484_j51324859187411_2_alg».proof.Proof.Gen.ReferenceIdeal.Read
import proofs.«130484_j51324859187411_2_alg».proof.Proof.Spec

noncomputable section

open scoped BigOperators

namespace Cert.ReferenceIdeal.RefRead

open Cert.ReferenceIdeal Cert.ReferenceIdeal.Read Cert.GraphNet Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128x300, .f32⟩ : BufTy).Contents (Elt Ideal))
  (x9 : (⟨S300, .f32⟩ : BufTy).Contents (Elt Ideal)) (x10 : (⟨S128x100, .f32⟩ : BufTy).Contents (Elt Ideal))
  (x11 : (⟨S100, .f32⟩ : BufTy).Contents (Elt Ideal)) (x12 : (⟨S128x64, .f32⟩ : BufTy).Contents (Elt Ideal))
  (x13 x14 x15 x16 x17 : (⟨S64, .f32⟩ : BufTy).Contents (Elt Ideal)) (x18 : (⟨S64x1, .f32⟩ : BufTy).Contents (Elt Ideal))
  (x19 : (⟨S1, .f32⟩ : BufTy).Contents (Elt Ideal)) (x20 : (⟨S64x100, .f32⟩ : BufTy).Contents (Elt Ideal))
  (x21 : (⟨S100, .f32⟩ : BufTy).Contents (Elt Ideal))

/-! ## Coordinates

  Two index functions into a rank-2 shape agree when both coordinates agree, and each coordinate below is the
  same natural number on both sides by computation. -/

/-- Two rank-2 indices with the same coordinates. -/
local macro "coords2" : tactic =>
  `(tactic| exact funext fun a => Fin.ext (by match a with | ⟨0, _⟩ => rfl | ⟨1, _⟩ => rfl))
/-- Two rank-1 indices with the same coordinate. -/
local macro "coords1" : tactic =>
  `(tactic| exact funext fun a => Fin.ext (by match a with | ⟨0, _⟩ => rfl))

section products
variable (r : Fin 50000)

theorem lidx22 (q k : Fin 128) : lidx_main_v22 (ix2 r q) k = ix2 r k := by coords2
theorem ridx22 (q k : Fin 128) : ridx_main_v22 (ix2 r q) k = ix2 k q := by coords2
theorem lidx26 (q k : Fin 128) : lidx_main_v26 (ix2 r q) k = ix2 r k := by coords2
theorem ridx26 (q k : Fin 128) : ridx_main_v26 (ix2 r q) k = ix2 k q := by coords2
theorem lidx47 (q k : Fin 128) : lidx_main_v47 (ix2 r q) k = ix2 r k := by coords2
theorem ridx47 (q k : Fin 128) : ridx_main_v47 (ix2 r q) k = ix2 k q := by coords2
theorem lidx51 (q k : Fin 128) : lidx_main_v51 (ix2 r q) k = ix2 r k := by coords2
theorem ridx51 (q k : Fin 128) : ridx_main_v51 (ix2 r q) k = ix2 k q := by coords2
theorem lidx54 (q : Fin 300) (k : Fin 128) : lidx_main_v54 (ix2 r q) k = ix2 r k := by coords2
theorem ridx54 (q : Fin 300) (k : Fin 128) : ridx_main_v54 (ix2 r q) k = ix2 k q := by coords2
theorem lidx58 (q : Fin 100) (k : Fin 128) : lidx_main_v58 (ix2 r q) k = ix2 r k := by coords2
theorem ridx58 (q : Fin 100) (k : Fin 128) : ridx_main_v58 (ix2 r q) k = ix2 k q := by coords2
theorem lidx62 (q : Fin 64) (k : Fin 128) : lidx_main_v62 (ix2 r q) k = ix2 r k := by coords2
theorem ridx62 (q : Fin 64) (k : Fin 128) : ridx_main_v62 (ix2 r q) k = ix2 k q := by coords2
theorem lidx81 (q : Fin 1) (k : Fin 64) : lidx_main_v81 (ix2 r q) k = ix2 r k := by coords2
theorem ridx81 (q : Fin 1) (k : Fin 64) : ridx_main_v81 (ix2 r q) k = ix2 k q := by coords2
theorem lidx86 (q : Fin 100) (k : Fin 64) : lidx_main_v86 (ix2 r q) k = ix2 r k := by coords2
theorem ridx86 (q : Fin 100) (k : Fin 64) : ridx_main_v86 (ix2 r q) k = ix2 k q := by coords2

/-- The count column repeated across the lanes is read at the node's one entry. -/
theorem idx20 (k : Fin 128) : idx_main_v20 (ix2 r k) = ix2 r 0 := by coords2
theorem idx45 (k : Fin 128) : idx_main_v45 (ix2 r k) = ix2 r 0 := by coords2

/-- A vector of length C, made a 1 × C row and repeated down the nodes, is read at the lane alone. -/
theorem idx24 (q : Fin 128) : idx_main_v23 (idx_main_v24 (ix2 r q)) = ix1 q := by coords1
theorem idx49 (q : Fin 128) : idx_main_v48 (idx_main_v49 (ix2 r q)) = ix1 q := by coords1
theorem idx56 (q : Fin 300) : idx_main_v55 (idx_main_v56 (ix2 r q)) = ix1 q := by coords1
theorem idx60 (q : Fin 100) : idx_main_v59 (idx_main_v60 (ix2 r q)) = ix1 q := by coords1
theorem idx64 (q : Fin 64) : idx_main_v63 (idx_main_v64 (ix2 r q)) = ix1 q := by coords1
theorem idx67 (q : Fin 64) : idx_main_v66 (idx_main_v67 (ix2 r q)) = ix1 q := by coords1
theorem idx70 (q : Fin 64) : idx_main_v69 (idx_main_v70 (ix2 r q)) = ix1 q := by coords1
theorem idx76 (q : Fin 64) : idx_main_v75 (idx_main_v76 (ix2 r q)) = ix1 q := by coords1
theorem idx79 (q : Fin 64) : idx_main_v78 (idx_main_v79 (ix2 r q)) = ix1 q := by coords1
theorem idx88 (q : Fin 100) : idx_main_v87 (idx_main_v88 (ix2 r q)) = ix1 q := by coords1
/-- With one lane the lane's coordinate is zero, which is the only value it can take. -/
theorem idx83 (q : Fin 1) : idx_main_v82 (idx_main_v83 (ix2 r q)) = ix1 q :=
  funext fun a => Fin.ext (by match a with | ⟨0, _⟩ => exact (Nat.lt_one_iff.mp q.isLt).symm)

end products

/-! ## The two means

  A mean entry is the neighbour sum's entry over the larger of the node's neighbour count and one; the count is
  a column, so it is read at the node's one entry whatever the lane. -/

/-- The first layer's mean at node r, lane k. -/
theorem mean1_apply (r : Fin 50000) (k : Fin 128) :
    val_main_v21 (F := Ideal) x0 x1 (ix2 r k)
      = Ideal.div (val_main_v13 (F := Ideal) x0 x1 (ix2 r k)) (max (val_main_v17 (F := Ideal) x1 (ix2 r 0)) oneWord) := by
  rw [val_main_v21_apply, val_main_v20_apply, idx20, val_main_v19_apply, val_main_v18_apply, val_main_cst_3_apply]
  rfl

/-- The second layer's mean at node r, lane k. -/
theorem mean2_apply (r : Fin 50000) (k : Fin 128) :
    val_main_v46 (F := Ideal) x0 x1 x2 x3 x4 (ix2 r k)
      = Ideal.div (val_main_v38 (F := Ideal) x0 x1 x2 x3 x4 (ix2 r k)) (max (val_main_v42 (F := Ideal) x1 (ix2 r 0)) oneWord) := by
  rw [val_main_v46_apply, val_main_v45_apply, idx45, val_main_v44_apply, val_main_v43_apply, val_main_cst_9_apply]
  rfl

/-! ## The two layers -/

/-- The first layer at node r, lane q: the layer function of the node's mean-aggregated feature row and its own
    feature row. -/
theorem layer1_apply (r : Fin 50000) (q : Fin 128) :
    val_main_v28 (F := Ideal) x0 x1 x2 x3 x4 (ix2 r q)
      = layerRow (fun k : Fin 128 => Ideal.div (val_main_v13 (F := Ideal) x0 x1 (ix2 r k)) (max (val_main_v17 (F := Ideal) x1 (ix2 r 0)) oneWord))
          (fun k : Fin 128 => x0 (ix2 r k)) (fun k c => x2 (ix2 k c)) (fun c => x3 (ix1 c)) (fun k c => x4 (ix2 k c)) q := by
  rw [val_main_v28_apply, val_main_v27_apply, val_main_v25_apply, val_main_v22_apply, val_main_v26_apply,
    val_main_v24_apply, val_main_v23_apply, val_main_call0_v0_apply, val_main_call0_cst_apply]
  simp only [lidx22, ridx22, lidx26, ridx26, idx24, mean1_apply]
  simp only [Ideal.addf_def, Ideal.maximumf_def, Ideal.ofBits_def, Ideal.ofBits_zero_f32]
  unfold layerRow
  with_reducible rfl

/-- The second layer at node r, lane q: the same layer function of the node's mean-aggregated first-layer row and
    its own first-layer row. -/
theorem hidden_apply (r : Fin 50000) (q : Fin 128) :
    val_main_v53 (F := Ideal) x0 x1 x2 x3 x4 x5 x6 x7 (ix2 r q)
      = layerRow (fun k : Fin 128 => Ideal.div (val_main_v38 (F := Ideal) x0 x1 x2 x3 x4 (ix2 r k)) (max (val_main_v42 (F := Ideal) x1 (ix2 r 0)) oneWord))
          (fun k : Fin 128 => val_main_v28 (F := Ideal) x0 x1 x2 x3 x4 (ix2 r k)) (fun k c => x5 (ix2 k c)) (fun c => x6 (ix1 c)) (fun k c => x7 (ix2 k c)) q := by
  rw [val_main_v53_apply, val_main_v52_apply, val_main_v50_apply, val_main_v47_apply, val_main_v51_apply,
    val_main_v49_apply, val_main_v48_apply, val_main_call1_v0_apply, val_main_call1_cst_apply]
  simp only [lidx47, ridx47, lidx51, ridx51, idx49, mean2_apply]
  simp only [Ideal.addf_def, Ideal.maximumf_def, Ideal.ofBits_def, Ideal.ofBits_zero_f32]
  unfold layerRow
  with_reducible rfl

/-! ## The heads over the hidden row -/

/-- The feature-label head at node r, lane q. -/
theorem fealab_apply (r : Fin 50000) (q : Fin 300) :
    val_main_v57 (F := Ideal) x0 x1 x2 x3 x4 x5 x6 x7 x8 x9 (ix2 r q)
      = affine (fun k : Fin 128 => val_main_v53 (F := Ideal) x0 x1 x2 x3 x4 x5 x6 x7 (ix2 r k)) (fun k c => x8 (ix2 k c)) (fun c => x9 (ix1 c)) q := by
  rw [val_main_v57_apply, val_main_v54_apply, val_main_v56_apply, val_main_v55_apply]
  simp only [lidx54, ridx54, idx56]
  simp only [Ideal.addf_def]
  unfold affine
  with_reducible rfl

/-- The class head at node r, lane q. -/
theorem logits_apply (r : Fin 50000) (q : Fin 100) :
    val_main_v61 (F := Ideal) x0 x1 x2 x3 x4 x5 x6 x7 x10 x11 (ix2 r q)
      = affine (fun k : Fin 128 => val_main_v53 (F := Ideal) x0 x1 x2 x3 x4 x5 x6 x7 (ix2 r k)) (fun k c => x10 (ix2 k c)) (fun c => x11 (ix1 c)) q := by
  rw [val_main_v61_apply, val_main_v58_apply, val_main_v60_apply, val_main_v59_apply]
  simp only [lidx58, ridx58, idx60]
  simp only [Ideal.addf_def]
  unfold affine
  with_reducible rfl

/-- The normalised row at node r, lane q: the lane's normalisation of an affine map of the hidden row. -/
theorem pre_apply (r : Fin 50000) (q : Fin 64) :
    val_main_v80 (F := Ideal) x0 x1 x2 x3 x4 x5 x6 x7 x12 x13 x14 x15 x16 x17 (ix2 r q)
      = normLane (affine (fun k : Fin 128 => val_main_v53 (F := Ideal) x0 x1 x2 x3 x4 x5 x6 x7 (ix2 r k)) (fun k c => x12 (ix2 k c)) (fun c => x13 (ix1 c)) q)
          (x14 (ix1 q)) (x16 (ix1 q)) (x17 (ix1 q)) (x15 (ix1 q)) epsWord := by
  rw [val_main_v80_apply, val_main_v77_apply, val_main_v71_apply, val_main_v68_apply, val_main_v65_apply, val_main_v62_apply,
    val_main_v64_apply, val_main_v63_apply, val_main_v67_apply, val_main_v66_apply, val_main_v70_apply, val_main_v69_apply,
    val_main_v76_apply, val_main_v75_apply, val_main_v74_apply, val_main_v73_apply, val_main_v72_apply, val_main_cst_10_apply,
    val_main_v79_apply, val_main_v78_apply]
  simp only [lidx62, ridx62, idx64, idx67, idx70, idx76, idx79]
  simp only [Ideal.addf_def, Ideal.subf_def, Ideal.mulf_def, Ideal.hostUnary_rsqrt_def, Ideal.ofBits_def]
  unfold normLane affine
  with_reducible rfl

/-- The activated row at node r, lane q: the hyperbolic tangent of the normalised entry. -/
theorem act_apply (r : Fin 50000) (q : Fin 64) :
    val_main_v85 (F := Ideal) x0 x1 x2 x3 x4 x5 x6 x7 x12 x13 x14 x15 x16 x17 (ix2 r q)
      = Ideal.tanh (val_main_v80 (F := Ideal) x0 x1 x2 x3 x4 x5 x6 x7 x12 x13 x14 x15 x16 x17 (ix2 r q)) := by
  rw [val_main_v85_apply, Ideal.hostUnary_tanh_def]

/-! ## The heads over the normalised row -/

/-- The true-label head at node r (one lane). -/
theorem truelab_apply (r : Fin 50000) (q : Fin 1) :
    val_main_v84 (F := Ideal) x0 x1 x2 x3 x4 x5 x6 x7 x12 x13 x14 x15 x16 x17 x18 x19 (ix2 r q)
      = affine (fun k : Fin 64 => val_main_v80 (F := Ideal) x0 x1 x2 x3 x4 x5 x6 x7 x12 x13 x14 x15 x16 x17 (ix2 r k)) (fun k c => x18 (ix2 k c)) (fun c => x19 (ix1 c)) q := by
  rw [val_main_v84_apply, val_main_v81_apply, val_main_v83_apply, val_main_v82_apply]
  simp only [lidx81, ridx81, idx83]
  simp only [Ideal.addf_def]
  unfold affine
  with_reducible rfl

/-- The convolved-feature head at node r, lane q: an affine map of the activated row. -/
theorem feaconv_apply (r : Fin 50000) (q : Fin 100) :
    val_main_v89 (F := Ideal) x0 x1 x2 x3 x4 x5 x6 x7 x12 x13 x14 x15 x16 x17 x20 x21 (ix2 r q)
      = affine (fun k : Fin 64 => Ideal.tanh (val_main_v80 (F := Ideal) x0 x1 x2 x3 x4 x5 x6 x7 x12 x13 x14 x15 x16 x17 (ix2 r k))) (fun k c => x20 (ix2 k c)) (fun c => x21 (ix1 c)) q := by
  rw [val_main_v89_apply, val_main_v86_apply, val_main_v88_apply, val_main_v87_apply]
  simp only [lidx86, ridx86, idx88, act_apply]
  simp only [Ideal.addf_def]
  unfold affine
  with_reducible rfl

end Cert.ReferenceIdeal.RefRead

end
-- ==== Proof.MeanLaw.lean ====
/-
  Scaling by a reciprocal count is dividing by the count.

  A node's neighbour count is a finite sum of ones, so it is a natural number, and its maximum with one is a
  nonzero real y. On the extended reals dividing by a nonzero real is multiplying by its reciprocal, for every
  dividend, finite or not: so x · (1 / y) = x / y, which is the one law that joins the two programs' means.
-/
import Idealize.ShloMosaic.PureOps.Ideal
import Idealize.ShloMosaic.PureOps.Ideal.Laws
import Idealize.ShloMosaic.Lib.IdealHost
import proofs.«130484_j51324859187411_2_alg».proof.Proof.Spec

noncomputable section

open scoped BigOperators

namespace Cert.GraphNet

open Idealize.ShloMosaic

/-- A finite sum of ones is the number of its terms. -/
theorem sum_ones {ι : Type} (s : Finset ι) : (∑ _e ∈ s, (1 : EReal)) = ((s.card : ℝ) : EReal) := by
  rw [Finset.sum_const, ← EReal.coe_one, ← EReal.coe_nsmul, nsmul_eq_mul, mul_one]

/-- The count clipped below at one, as a real. -/
theorem count_max {ι : Type} (s : Finset ι) :
    max (Ideal.ofBits .f32 0x00000000#32 + ∑ _e ∈ s, oneWord) oneWord = ((max (s.card : ℝ) 1 : ℝ) : EReal) := by
  unfold oneWord
  rw [Ideal.ofBits_one_f32, Ideal.ofBits_zero_f32, zero_add, sum_ones]
  exact (EReal.coe_strictMono.monotone.map_max (a := (s.card : ℝ)) (b := 1)).symm

/-- x · (1 / max (count, 1)) = x / max (count, 1) for every extended real x. -/
theorem scale_eq_div {ι : Type} (s : Finset ι) (x : EReal) :
    x * Ideal.div oneWord (max (Ideal.ofBits .f32 0x00000000#32 + ∑ _e ∈ s, oneWord) oneWord)
      = Ideal.div x (max (Ideal.ofBits .f32 0x00000000#32 + ∑ _e ∈ s, oneWord) oneWord) := by
  have hy : max (s.card : ℝ) 1 ≠ 0 := ne_of_gt (lt_of_lt_of_le one_pos (le_max_right _ _))
  rw [count_max, Ideal.div_coe hy, Ideal.div_coe hy]
  unfold oneWord
  rw [Ideal.ofBits_one_f32, one_mul]

/-- An affine map read at lanes of two different widths: equal rows, equal weight columns and equal biases give
    equal values. -/
theorem affine_eq {K C C' : Nat} {a a' : Fin K → EReal} {w : Fin K → Fin C → EReal} {w' : Fin K → Fin C' → EReal}
    {b : Fin C → EReal} {b' : Fin C' → EReal} (q : Fin C) (q' : Fin C')
    (ha : ∀ k, a k = a' k) (hw : ∀ k, w k q = w' k q') (hb : b q = b' q') : affine a w b q = affine a' w' b' q' := by
  unfold affine
  rw [hb]
  exact congrArg (· + b' q') (Finset.sum_congr rfl fun k _ => by rw [ha k, hw k])

/-- A sum over 128 lanes whose terms vanish from lane 64 on is the sum over the first 64 lanes. -/
theorem sum_pad (f : Fin 128 → EReal) (h : ∀ k : Fin 128, 64 ≤ k.val → f k = 0) :
    ∑ k : Fin 128, f k = ∑ k : Fin 64, f (Fin.castLE (by decide) k) := by
  have e := Fin.sum_univ_add (M := EReal) (a := 64) (b := 64) f
  have hz : ∑ i : Fin 64, f (Fin.natAdd 64 i) = 0 :=
    Finset.sum_eq_zero (fun i _ => h _ (by simp [Fin.natAdd]))
  rw [e, hz, add_zero]
  rfl

/-- An affine map of a row of 64 lanes equals the affine map of a row of 128 lanes whose weight rows from 64 on
    are zero: the padded lanes contribute x · 0 = 0 whatever x is. -/
theorem affine_pad {C C' : Nat} {a : Fin 64 → EReal} {a' : Fin 128 → EReal} {w : Fin 64 → Fin C → EReal}
    {w' : Fin 128 → Fin C' → EReal} {b : Fin C → EReal} {b' : Fin C' → EReal} (q : Fin C) (q' : Fin C')
    (ha : ∀ k : Fin 64, a k = a' (Fin.castLE (by decide) k)) (hw : ∀ k : Fin 64, w k q = w' (Fin.castLE (by decide) k) q')
    (hz : ∀ k : Fin 128, 64 ≤ k.val → w' k q' = 0) (hb : b q = b' q') : affine a w b q = affine a' w' b' q' := by
  unfold affine
  rw [hb, sum_pad (fun k => a' k * w' k q') (fun k hk => by rw [hz k hk, mul_zero])]
  exact congrArg (· + b' q') (Finset.sum_congr rfl fun k _ => by rw [ha k, hw k])

end Cert.GraphNet

end
-- ==== Proof.Bridge.lean ====
/-
  The two programs compute the same five arrays.

  Node by node: the kernel program's first-layer row is the layer function of the neighbour sums scaled by the
  reciprocal count, the reference's of the neighbour sums divided by the count; the counts are the same sum of
  ones, so the two means agree by the law x · (1 / y) = x / y for a nonzero real y, and the first layers agree as
  arrays. The second layers then take the same neighbour sums of the same array and agree in the same way. Each
  head is an affine map of a row: where the kernel program pads a head's weight columns the padded lanes are cut
  off again, and where it pads weight rows the extra lanes of the normalised row meet zero weights and add nothing,
  so every result entry is the same affine map of the same row on both sides.
-/
import proofs.«130484_j51324859187411_2_alg».proof.Proof.ChainK
import proofs.«130484_j51324859187411_2_alg».proof.Proof.Arrays
import proofs.«130484_j51324859187411_2_alg».proof.Proof.RefRead
import proofs.«130484_j51324859187411_2_alg».proof.Proof.MeanLaw

set_option maxRecDepth 16384

noncomputable section

open scoped BigOperators

namespace Cert.Bridge

open Cert.KernelIdeal Cert.KernelIdeal.Gen Cert.KernelIdeal.GenP Cert.GraphNet
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The reference's second neighbour sums are its first ones taken of the first layer's output. -/
theorem ref_sums2 (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) :
    Cert.ReferenceIdeal.Read.val_main_v38 (F := Ideal) x0 x1 x2 x3 x4 = Cert.ReferenceIdeal.Read.val_main_v13 (F := Ideal) (Cert.ReferenceIdeal.Read.val_main_v28 (F := Ideal) x0 x1 x2 x3 x4) x1 := rfl

/-- The reference counts the edges into a node once per layer: the two counts are one term. -/
theorem ref_count2 (x1 : (⟨Cert.ReferenceIdeal.S2x800000, .i32⟩ : BufTy).Contents (Elt Ideal)) :
    Cert.ReferenceIdeal.Read.val_main_v42 (F := Ideal) x1 = Cert.ReferenceIdeal.Read.val_main_v17 (F := Ideal) x1 := rfl

/-- The normalisation of equal entries with equal statistics. -/
theorem normLane_eq {a a' g g' rm rm' rv rv' be be' : EReal} (eps : EReal) (ha : a = a') (hg : g = g')
    (hrm : rm = rm') (hrv : rv = rv') (hbe : be = be') : normLane a g rm rv be eps = normLane a' g' rm' rv' be' eps := by
  rw [ha, hg, hrm, hrv, hbe]

/-! ## The first layer -/

theorem layer1_pt (r : Fin 50000) (q : Fin 128) :
    Chain.layer1Out m ρ c (ix2 r q) = Cert.ReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) := by
  rw [Cert.ReferenceIdeal.RefRead.layer1_apply]
  refine (Arrays.layer1_final (V1 m ρ) c r q).trans ?_
  refine layerRow_congr q (fun k => ?_) (fun k => ?_) (fun k => ?_) ?_ (fun k => ?_)
  · rw [Chain.V1_sums, Chain.V1_inv, HostRead.refCount]
    exact scale_eq_div _ _
  · rw [Chain.V1_arg0]
  · rw [Chain.V1_arg2]
  · rw [Chain.V1_arg3]
  · rw [Chain.V1_arg4]

theorem layer1_eq : Chain.layer1Out m ρ c = Cert.ReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  funext fun i => by
    obtain ⟨r, q, rfl⟩ : ∃ (r : Fin 50000) (q : Fin 128), i = ix2 r q := ⟨i 0, i 1, eq_ix2 i⟩
    exact layer1_pt m ρ c r q

/-! ## The second layer -/

theorem hidden_pt (r : Fin 50000) (q : Fin 128) :
    Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r q) = Arrays.hidden (V3 m ρ) c r q := by
  rw [Cert.ReferenceIdeal.RefRead.hidden_apply]
  unfold Arrays.hidden
  refine layerRow_congr q (fun k => ?_) (fun k => ?_) (fun k => ?_) ?_ (fun k => ?_)
  · rw [ref_sums2, ref_count2, HostRead.refCount, Chain.V3_sums, Chain.V3_inv, Chain.V1_inv, layer1_eq]
    exact (scale_eq_div _ _).symm
  · rw [Chain.V3_layer1, layer1_eq]
  · rw [Chain.V3_arg5]
  · rw [Chain.V3_arg6]
  · rw [Chain.V3_arg7]

/-! ## The normalised row, on the 64 lanes the reference has -/

theorem pre_pt (r : Fin 50000) (q : Fin 64) :
    Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (ix2 r q) = Arrays.pre (V3 m ρ) c r (Fin.castLE (by decide) q) := by
  rw [Cert.ReferenceIdeal.RefRead.pre_apply]
  unfold Arrays.pre
  exact normLane_eq _
    (affine_eq q _ (fun k => hidden_pt m ρ c r k) (fun k => (Chain.V3_wconv m ρ c k q).symm) (Chain.V3_bconv m ρ c q).symm)
    (Chain.V3_gamma m ρ c q).symm (Chain.V3_rm m ρ c q).symm (Chain.V3_rv m ρ c q).symm (Chain.V3_beta m ρ c q).symm

/-! ## The five results -/

theorem out0_eq : Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) = W5 m ρ c (Proc.devRef .tc main_v71) :=
  funext fun i => by
    obtain ⟨r, q, rfl⟩ : ∃ (r : Fin 50000) (q : Fin 100), i = ix2 r q := ⟨i 0, i 1, eq_ix2 i⟩
    rw [Cert.ReferenceIdeal.RefRead.logits_apply, Chain.out_clas, Arrays.logits_final]
    exact affine_eq q _ (fun k => hidden_pt m ρ c r k) (fun k => (Chain.V3_wclas m ρ c k q).symm) (Chain.V3_bclas m ρ c q).symm

theorem out1_eq : Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) = W5 m ρ c (Proc.devRef .tc main_v72) :=
  funext fun i => by
    obtain ⟨r, q, rfl⟩ : ∃ (r : Fin 50000) (q : Fin 64), i = ix2 r q := ⟨i 0, i 1, eq_ix2 i⟩
    rw [Cert.ReferenceIdeal.RefRead.act_apply, Chain.out_conv, Arrays.act_final, pre_pt]

theorem out2_eq : Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = W5 m ρ c (Proc.devRef .tc main_v73) :=
  funext fun i => by
    obtain ⟨r, q, rfl⟩ : ∃ (r : Fin 50000) (q : Fin 300), i = ix2 r q := ⟨i 0, i 1, eq_ix2 i⟩
    rw [Cert.ReferenceIdeal.RefRead.fealab_apply, Chain.out_hd, Arrays.fealab_final]
    exact affine_eq q _ (fun k => hidden_pt m ρ c r k) (fun k => (Chain.V3_whd m ρ c k q).symm) (Chain.V3_bhd m ρ c q).symm

theorem out3_eq : Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg20)) (m ((c : Thread nD τ).loc main_arg21)) = W5 m ρ c (Proc.devRef .tc main_v74) :=
  funext fun i => by
    obtain ⟨r, q, rfl⟩ : ∃ (r : Fin 50000) (q : Fin 100), i = ix2 r q := ⟨i 0, i 1, eq_ix2 i⟩
    rw [Cert.ReferenceIdeal.RefRead.feaconv_apply, Chain.out_cv, Arrays.feaconv_final]
    exact affine_pad q _ (fun k => by rw [pre_pt]) (fun k => (Chain.V3_wcv m ρ c k q).symm)
      (fun k hk => Chain.V3_wcv_zero m ρ c k hk q) (Chain.V3_bcv m ρ c q).symm

theorem out4_eq : Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) = W5 m ρ c (Proc.devRef .tc main_v75) :=
  funext fun i => by
    obtain ⟨r, q, rfl⟩ : ∃ (r : Fin 50000) (q : Fin 1), i = ix2 r q := ⟨i 0, i 1, eq_ix2 i⟩
    obtain rfl : q = 0 := Subsingleton.elim _ _
    rw [Cert.ReferenceIdeal.RefRead.truelab_apply, Chain.out_tl, Arrays.truelab_final]
    exact affine_pad (0 : Fin 1) _ (fun k => pre_pt m ρ c r k) (fun k => (Chain.V3_wtl m ρ c k).symm)
      (fun k hk => Chain.V3_wtl_zero m ρ c k hk) (Chain.V3_btl m ρ c).symm

end Cert.Bridge

end
-- ==== Proof.lean ====
/-
  The two layers of a graph network and its five heads, computed by row tiles against the plain formulas.

  The kernel program forms, on the host, each node's neighbour sums and the reciprocal of its neighbour count; a
  first grid of row tiles turns them into the first layer, relu (mean · Wl + bl + x · Wr), the mean taken as the sum
  times the reciprocal count; the host forms the neighbour sums of that layer; a second grid computes the second layer
  and, from it, three affine heads, a lane-wise normalisation, its hyperbolic tangent and two affine heads of those,
  all on weights zero-padded to 128 lanes; the host cuts the five results back to their widths. The reference
  computes the same formulas on whole arrays, dividing the sums by the count.

  On the extended reals the casts to the narrow float format are the identity and a matrix product is the plain sum,
  so the two programs differ only in how the mean is spelt — x · (1 / y) against x / y, equal for the nonzero real
  y = max (count, 1) whatever x is — and in the zero padding, which is cut off again (columns) or meets zero
  weights (rows). No finiteness of the inputs is used. The three frame claims are the programs' runs with the results
  dropped; the idealisation rewrote nothing, so the preservation claim is trivial.
-/
import proofs.«130484_j51324859187411_2_alg».proof.Defs
import proofs.«130484_j51324859187411_2_alg».proof.Proof.Gen.Kernel
import proofs.«130484_j51324859187411_2_alg».proof.Proof.Gen.KernelIdeal
import proofs.«130484_j51324859187411_2_alg».proof.Proof.Gen.ReferenceIdeal
import proofs.«130484_j51324859187411_2_alg».proof.Proof.Gen.Pre_finite_inputs
import proofs.«130484_j51324859187411_2_alg».proof.Proof.Gen.ReferenceIdeal.Run
import proofs.«130484_j51324859187411_2_alg».proof.Proof.Gen.ReferenceIdeal.Read
import proofs.«130484_j51324859187411_2_alg».proof.Proof.FrameKernel
import proofs.«130484_j51324859187411_2_alg».proof.Proof.FrameKernelIdeal
import proofs.«130484_j51324859187411_2_alg».proof.Proof.RunK
import proofs.«130484_j51324859187411_2_alg».proof.Proof.Bridge
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_k : Cert.frame_Kernel := fun m ρ _ => Cert.Kernel.GenP.frame m ρ

/-- The idealised kernel program runs and leaves its arguments as launched. -/
theorem frame_ki : Cert.frame_KernelIdeal := fun m ρ _ => Cert.KernelIdeal.GenP.frame m ρ

/-- The idealised reference runs and leaves its arguments as launched: its run with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The idealisation rewrote no operation. -/
theorem preserves : Cert.preserves_Kernel_KernelIdeal := trivial

/-- From memories that agree on the arguments both programs run, and each of the reference's five results is the
    kernel program's: the reference's result terms, read as stages of the arguments, are the kernel program's last
    boundary contents at its five result buffers. -/
theorem algebraic : Cert.algebraic_KernelIdeal_ReferenceIdeal := by
  intro m ρ m' ρ' _ hagree
  refine ⟨fun c => Cert.KernelIdeal.GenP.W5 m ρ c (Proc.devRef .tc Cert.KernelIdeal.main_v71),
    fun c => Cert.KernelIdeal.GenP.W5 m ρ c (Proc.devRef .tc Cert.KernelIdeal.main_v72),
    fun c => Cert.KernelIdeal.GenP.W5 m ρ c (Proc.devRef .tc Cert.KernelIdeal.main_v73),
    fun c => Cert.KernelIdeal.GenP.W5 m ρ c (Proc.devRef .tc Cert.KernelIdeal.main_v74),
    fun c => Cert.KernelIdeal.GenP.W5 m ρ c (Proc.devRef .tc Cert.KernelIdeal.main_v75),
    Cert.KernelIdeal.RunValue.run_results m ρ, ?_⟩
  refine (θ_run Cert.ReferenceIdeal.defs _ _).mono (fun r h c => ?_) (Cert.ReferenceIdeal.Value.run (F := Ideal) m' ρ')
  obtain ⟨h0, h1, h2, h3, h4, h5, h6, h7, h8, h9, h10, h11, h12, h13, h14, h15, h16, h17, h18, h19, h20, h21⟩ := hagree c
  refine ⟨(h c).1.trans ?_, (h c).2.1.trans ?_, (h c).2.2.1.trans ?_, (h c).2.2.2.1.trans ?_, (h c).2.2.2.2.1.trans ?_, (h c).2.2.2.2.2⟩
  · rw [Cert.ReferenceIdeal.Read.val_main_v61_eq]
    simp only [h0, h1, h2, h3, h4, h5, h6, h7, h8, h9, h10, h11, h12, h13, h14, h15, h16, h17, h18, h19, h20, h21]
    exact Cert.Bridge.out0_eq m ρ c
  · rw [Cert.ReferenceIdeal.Read.val_main_v85_eq]
    simp only [h0, h1, h2, h3, h4, h5, h6, h7, h8, h9, h10, h11, h12, h13, h14, h15, h16, h17, h18, h19, h20, h21]
    exact Cert.Bridge.out1_eq m ρ c
  · rw [Cert.ReferenceIdeal.Read.val_main_v57_eq]
    simp only [h0, h1, h2, h3, h4, h5, h6, h7, h8, h9, h10, h11, h12, h13, h14, h15, h16, h17, h18, h19, h20, h21]
    exact Cert.Bridge.out2_eq m ρ c
  · rw [Cert.ReferenceIdeal.Read.val_main_v89_eq]
    simp only [h0, h1, h2, h3, h4, h5, h6, h7, h8, h9, h10, h11, h12, h13, h14, h15, h16, h17, h18, h19, h20, h21]
    exact Cert.Bridge.out3_eq m ρ c
  · rw [Cert.ReferenceIdeal.Read.val_main_v84_eq]
    simp only [h0, h1, h2, h3, h4, h5, h6, h7, h8, h9, h10, h11, h12, h13, h14, h15, h16, h17, h18, h19, h20, h21]
    exact Cert.Bridge.out4_eq m ρ c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
